-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S1600000x3 : Shape := ⟨2, ![1600000, 3]⟩
abbrev S9x50 : Shape := ⟨2, ![9, 50]⟩
abbrev S50 : Shape := ⟨1, ![50]⟩
abbrev S50x15 : Shape := ⟨2, ![50, 15]⟩
abbrev S15 : Shape := ⟨1, ![15]⟩
abbrev S18x50 : Shape := ⟨2, ![18, 50]⟩
abbrev S15x10 : Shape := ⟨2, ![15, 10]⟩
abbrev S10 : Shape := ⟨1, ![10]⟩
abbrev S10x6 : Shape := ⟨2, ![10, 6]⟩
abbrev S6 : Shape := ⟨1, ![6]⟩
abbrev S2x1600000 : Shape := ⟨2, ![2, 1600000]⟩
abbrev S100000 : Shape := ⟨1, ![100000]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S1600000x3 : S_.BroadcastsInDim S1600000x3 (![] : Fin 0 → Fin S1600000x3.rank)
  reducesTo_S1600000x3_S_d0_1 : S1600000x3.ReducesTo [0, 1] S_
  bcast_S_S9x50 : S_.BroadcastsInDim S9x50 (![] : Fin 0 → Fin S9x50.rank)
  reducesTo_S9x50_S_d0_1 : S9x50.ReducesTo [0, 1] S_
  bcast_S_S50 : S_.BroadcastsInDim S50 (![] : Fin 0 → Fin S50.rank)
  reducesTo_S50_S_d0 : S50.ReducesTo [0] S_
  bcast_S_S50x15 : S_.BroadcastsInDim S50x15 (![] : Fin 0 → Fin S50x15.rank)
  reducesTo_S50x15_S_d0_1 : S50x15.ReducesTo [0, 1] S_
  bcast_S_S15 : S_.BroadcastsInDim S15 (![] : Fin 0 → Fin S15.rank)
  reducesTo_S15_S_d0 : S15.ReducesTo [0] S_
  bcast_S_S18x50 : S_.BroadcastsInDim S18x50 (![] : Fin 0 → Fin S18x50.rank)
  reducesTo_S18x50_S_d0_1 : S18x50.ReducesTo [0, 1] S_
  bcast_S_S15x10 : S_.BroadcastsInDim S15x10 (![] : Fin 0 → Fin S15x10.rank)
  reducesTo_S15x10_S_d0_1 : S15x10.ReducesTo [0, 1] S_
  bcast_S_S10 : S_.BroadcastsInDim S10 (![] : Fin 0 → Fin S10.rank)
  reducesTo_S10_S_d0 : S10.ReducesTo [0] S_
  bcast_S_S10x6 : S_.BroadcastsInDim S10x6 (![] : Fin 0 → Fin S10x6.rank)
  reducesTo_S10x6_S_d0_1 : S10x6.ReducesTo [0, 1] S_
  bcast_S_S6 : S_.BroadcastsInDim S6 (![] : Fin 0 → Fin S6.rank)
  reducesTo_S6_S_d0 : S6.ReducesTo [0] S_

variable [Facts]

def fn_part4 {F : FTy → Type} [FloatOps F] (main_arg14 : FVec F S10x6 .f32) (main_arg15 : FVec F S6 .f32) (main_v63 : IVec S_ 1) (main_v67 : IVec S_ 1) : IVec S_ 1 :=
  let main_v68 : IVec S_ 1 := andi main_v63 main_v67
  let main_v69 : FVec F S10x6 .f32 := Host.absf main_arg14
  let main_cst_26 : FVec F S_ .f32 := constant S_ .f32 0x7F800000#32
  let main_v70 : FVec F S10x6 .f32 := broadcastInDim S10x6 ![] bcast_S_S10x6 main_cst_26
  let main_v71 : IVec S10x6 1 := cmpf .olt main_v69 main_v70
  let main_c_27 : IVec S_ 1 := constantI S_ 1 1#1
  let main_v72 : IVec S_ 1 := (fun x v => Host.reduce IntOp.andi x v reducesTo_S10x6_S_d0_1 h_S_) main_v71 main_c_27
  let main_v73 : IVec S_ 1 := andi main_v68 main_v72
  let main_v74 : FVec F S6 .f32 := Host.absf main_arg15
  let main_cst_28 : FVec F S_ .f32 := constant S_ .f32 0x7F800000#32
  let main_v75 : FVec F S6 .f32 := broadcastInDim S6 ![] bcast_S_S6 main_cst_28
  let main_v76 : IVec S6 1 := cmpf .olt main_v74 main_v75
  let main_c_29 : IVec S_ 1 := constantI S_ 1 1#1
  let main_v77 : IVec S_ 1 := (fun x v => Host.reduce IntOp.andi x v reducesTo_S6_S_d0 h_S_) main_v76 main_c_29
  let main_v78 : IVec S_ 1 := andi main_v73 main_v77
  main_v78

def fn_part3 {F : FTy → Type} [FloatOps F] (main_arg11 : FVec F S10 .f32) (main_arg12 : FVec F S10 .f32) (main_arg13 : FVec F S10 .f32) (main_arg14 : FVec F S10x6 .f32) (main_arg15 : FVec F S6 .f32) (main_v48 : IVec S_ 1) (main_v49 : FVec F S15x10 .f32) (main_v50 : FVec F S15x10 .f32) : IVec S_ 1 :=
  let main_v51 : IVec S15x10 1 := cmpf .olt main_v49 main_v50
  let main_c_19 : IVec S_ 1 := constantI S_ 1 1#1
  let main_v52 : IVec S_ 1 := (fun x v => Host.reduce IntOp.andi x v reducesTo_S15x10_S_d0_1 h_S_) main_v51 main_c_19
  let main_v53 : IVec S_ 1 := andi main_v48 main_v52
  let main_v54 : FVec F S10 .f32 := Host.absf main_arg11
  let main_cst_20 : FVec F S_ .f32 := constant S_ .f32 0x7F800000#32
  let main_v55 : FVec F S10 .f32 := broadcastInDim S10 ![] bcast_S_S10 main_cst_20
  let main_v56 : IVec S10 1 := cmpf .olt main_v54 main_v55
  let main_c_21 : IVec S_ 1 := constantI S_ 1 1#1
  let main_v57 : IVec S_ 1 := (fun x v => Host.reduce IntOp.andi x v reducesTo_S10_S_d0 h_S_) main_v56 main_c_21
  let main_v58 : IVec S_ 1 := andi main_v53 main_v57
  let main_v59 : FVec F S10 .f32 := Host.absf main_arg12
  let main_cst_22 : FVec F S_ .f32 := constant S_ .f32 0x7F800000#32
  let main_v60 : FVec F S10 .f32 := broadcastInDim S10 ![] bcast_S_S10 main_cst_22
  let main_v61 : IVec S10 1 := cmpf .olt main_v59 main_v60
  let main_c_23 : IVec S_ 1 := constantI S_ 1 1#1
  let main_v62 : IVec S_ 1 := (fun x v => Host.reduce IntOp.andi x v reducesTo_S10_S_d0 h_S_) main_v61 main_c_23
  let main_v63 : IVec S_ 1 := andi main_v58 main_v62
  let main_v64 : FVec F S10 .f32 := Host.absf main_arg13
  let main_cst_24 : FVec F S_ .f32 := constant S_ .f32 0x7F800000#32
  let main_v65 : FVec F S10 .f32 := broadcastInDim S10 ![] bcast_S_S10 main_cst_24
  let main_v66 : IVec S10 1 := cmpf .olt main_v64 main_v65
  let main_c_25 : IVec S_ 1 := constantI S_ 1 1#1
  let main_v67 : IVec S_ 1 := (fun x v => Host.reduce IntOp.andi x v reducesTo_S10_S_d0 h_S_) main_v66 main_c_25
  fn_part4 (F := F) main_arg14 main_arg15 main_v63 main_v67

def fn_part2 {F : FTy → Type} [FloatOps F] (main_arg7 : FVec F S50 .f32) (main_arg8 : FVec F S50x15 .f32) (main_arg9 : FVec F S15 .f32) (main_arg10 : FVec F S15x10 .f32) (main_arg11 : FVec F S10 .f32) (main_arg12 : FVec F S10 .f32) (main_arg13 : FVec F S10 .f32) (main_arg14 : FVec F S10x6 .f32) (main_arg15 : FVec F S6 .f32) (main_v33 : IVec S_ 1) : IVec S_ 1 :=
  let main_v34 : FVec F S50 .f32 := Host.absf main_arg7
  let main_cst_12 : FVec F S_ .f32 := constant S_ .f32 0x7F800000#32
  let main_v35 : FVec F S50 .f32 := broadcastInDim S50 ![] bcast_S_S50 main_cst_12
  let main_v36 : IVec S50 1 := cmpf .olt main_v34 main_v35
  let main_c_13 : IVec S_ 1 := constantI S_ 1 1#1
  let main_v37 : IVec S_ 1 := (fun x v => Host.reduce IntOp.andi x v reducesTo_S50_S_d0 h_S_) main_v36 main_c_13
  let main_v38 : IVec S_ 1 := andi main_v33 main_v37
  let main_v39 : FVec F S50x15 .f32 := Host.absf main_arg8
  let main_cst_14 : FVec F S_ .f32 := constant S_ .f32 0x7F800000#32
  let main_v40 : FVec F S50x15 .f32 := broadcastInDim S50x15 ![] bcast_S_S50x15 main_cst_14
  let main_v41 : IVec S50x15 1 := cmpf .olt main_v39 main_v40
  let main_c_15 : IVec S_ 1 := constantI S_ 1 1#1
  let main_v42 : IVec S_ 1 := (fun x v => Host.reduce IntOp.andi x v reducesTo_S50x15_S_d0_1 h_S_) main_v41 main_c_15
  let main_v43 : IVec S_ 1 := andi main_v38 main_v42
  let main_v44 : FVec F S15 .f32 := Host.absf main_arg9
  let main_cst_16 : FVec F S_ .f32 := constant S_ .f32 0x7F800000#32
  let main_v45 : FVec F S15 .f32 := broadcastInDim S15 ![] bcast_S_S15 main_cst_16
  let main_v46 : IVec S15 1 := cmpf .olt main_v44 main_v45
  let main_c_17 : IVec S_ 1 := constantI S_ 1 1#1
  let main_v47 : IVec S_ 1 := (fun x v => Host.reduce IntOp.andi x v reducesTo_S15_S_d0 h_S_) main_v46 main_c_17
  let main_v48 : IVec S_ 1 := andi main_v43 main_v47
  let main_v49 : FVec F S15x10 .f32 := Host.absf main_arg10
  let main_cst_18 : FVec F S_ .f32 := constant S_ .f32 0x7F800000#32
  let main_v50 : FVec F S15x10 .f32 := broadcastInDim S15x10 ![] bcast_S_S15x10 main_cst_18
  fn_part3 (F := F) main_arg11 main_arg12 main_arg13 main_arg14 main_arg15 main_v48 main_v49 main_v50

def fn_part1 {F : FTy → Type} [FloatOps F] (main_arg4 : FVec F S50x15 .f32) (main_arg5 : FVec F S15 .f32) (main_arg6 : FVec F S18x50 .f32) (main_arg7 : FVec F S50 .f32) (main_arg8 : FVec F S50x15 .f32) (main_arg9 : FVec F S15 .f32) (main_arg10 : FVec F S15x10 .f32) (main_arg11 : FVec F S10 .f32) (main_arg12 : FVec F S10 .f32) (main_arg13 : FVec F S10 .f32) (main_arg14 : FVec F S10x6 .f32) (main_arg15 : FVec F S6 .f32) (main_v13 : IVec S_ 1) (main_v16 : IVec S50 1) : IVec S_ 1 :=
  let main_c_5 : IVec S_ 1 := constantI S_ 1 1#1
  let main_v17 : IVec S_ 1 := (fun x v => Host.reduce IntOp.andi x v reducesTo_S50_S_d0 h_S_) main_v16 main_c_5
  let main_v18 : IVec S_ 1 := andi main_v13 main_v17
  let main_v19 : FVec F S50x15 .f32 := Host.absf main_arg4
  let main_cst_6 : FVec F S_ .f32 := constant S_ .f32 0x7F800000#32
  let main_v20 : FVec F S50x15 .f32 := broadcastInDim S50x15 ![] bcast_S_S50x15 main_cst_6
  let main_v21 : IVec S50x15 1 := cmpf .olt main_v19 main_v20
  let main_c_7 : IVec S_ 1 := constantI S_ 1 1#1
  let main_v22 : IVec S_ 1 := (fun x v => Host.reduce IntOp.andi x v reducesTo_S50x15_S_d0_1 h_S_) main_v21 main_c_7
  let main_v23 : IVec S_ 1 := andi main_v18 main_v22
  let main_v24 : FVec F S15 .f32 := Host.absf main_arg5
  let main_cst_8 : FVec F S_ .f32 := constant S_ .f32 0x7F800000#32
  let main_v25 : FVec F S15 .f32 := broadcastInDim S15 ![] bcast_S_S15 main_cst_8
  let main_v26 : IVec S15 1 := cmpf .olt main_v24 main_v25
  let main_c_9 : IVec S_ 1 := constantI S_ 1 1#1
  let main_v27 : IVec S_ 1 := (fun x v => Host.reduce IntOp.andi x v reducesTo_S15_S_d0 h_S_) main_v26 main_c_9
  let main_v28 : IVec S_ 1 := andi main_v23 main_v27
  let main_v29 : FVec F S18x50 .f32 := Host.absf main_arg6
  let main_cst_10 : FVec F S_ .f32 := constant S_ .f32 0x7F800000#32
  let main_v30 : FVec F S18x50 .f32 := broadcastInDim S18x50 ![] bcast_S_S18x50 main_cst_10
  let main_v31 : IVec S18x50 1 := cmpf .olt main_v29 main_v30
  let main_c_11 : IVec S_ 1 := constantI S_ 1 1#1
  let main_v32 : IVec S_ 1 := (fun x v => Host.reduce IntOp.andi x v reducesTo_S18x50_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S100000x3 .f32) (main_arg1 : FVec F S1600000x3 .f32) (main_arg2 : FVec F S9x50 .f32) (main_arg3 : FVec F S50 .f32) (main_arg4 : FVec F S50x15 .f32) (main_arg5 : FVec F S15 .f32) (main_arg6 : FVec F S18x50 .f32) (main_arg7 : FVec F S50 .f32) (main_arg8 : FVec F S50x15 .f32) (main_arg9 : FVec F S15 .f32) (main_arg10 : FVec F S15x10 .f32) (main_arg11 : FVec F S10 .f32) (main_arg12 : FVec F S10 .f32) (main_arg13 : FVec F S10 .f32) (main_arg14 : FVec F S10x6 .f32) (main_arg15 : FVec F S6 .f32) (main_arg16 : IVec S2x1600000 32) (main_arg17 : IVec S100000 32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S1600000x3 .f32 := Host.absf main_arg1
  let main_cst_0 : FVec F S_ .f32 := constant S_ .f32 0x7F800000#32
  let main_v5 : FVec F S1600000x3 .f32 := broadcastInDim S1600000x3 ![] bcast_S_S1600000x3 main_cst_0
  let main_v6 : IVec S1600000x3 1 := cmpf .olt main_v4 main_v5
  let main_c_1 : IVec S_ 1 := constantI S_ 1 1#1
  let main_v7 : IVec S_ 1 := (fun x v => Host.reduce IntOp.andi x v reducesTo_S1600000x3_S_d0_1 h_S_) main_v6 main_c_1
  let main_v8 : IVec S_ 1 := andi main_v3 main_v7
  let main_v9 : FVec F S9x50 .f32 := Host.absf main_arg2
  let main_cst_2 : FVec F S_ .f32 := constant S_ .f32 0x7F800000#32
  let main_v10 : FVec F S9x50 .f32 := broadcastInDim S9x50 ![] bcast_S_S9x50 main_cst_2
  let main_v11 : IVec S9x50 1 := cmpf .olt main_v9 main_v10
  let main_c_3 : IVec S_ 1 := constantI S_ 1 1#1
  let main_v12 : IVec S_ 1 := (fun x v => Host.reduce IntOp.andi x v reducesTo_S9x50_S_d0_1 h_S_) main_v11 main_c_3
  let main_v13 : IVec S_ 1 := andi main_v8 main_v12
  let main_v14 : FVec F S50 .f32 := Host.absf main_arg3
  let main_cst_4 : FVec F S_ .f32 := constant S_ .f32 0x7F800000#32
  let main_v15 : FVec F S50 .f32 := broadcastInDim S50 ![] bcast_S_S50 main_cst_4
  let main_v16 : IVec S50 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S100000x3 : Shape := ⟨2, ![100000, 3]⟩
abbrev S1600000x3 : Shape := ⟨2, ![1600000, 3]⟩
abbrev S9x50 : Shape := ⟨2, ![9, 50]⟩
abbrev S50 : Shape := ⟨1, ![50]⟩
abbrev S50x15 : Shape := ⟨2, ![50, 15]⟩
abbrev S15 : Shape := ⟨1, ![15]⟩
abbrev S18x50 : Shape := ⟨2, ![18, 50]⟩
abbrev S15x10 : Shape := ⟨2, ![15, 10]⟩
abbrev S10 : Shape := ⟨1, ![10]⟩
abbrev S10x6 : Shape := ⟨2, ![10, 6]⟩
abbrev S6 : Shape := ⟨1, ![6]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S3x1600000 : Shape := ⟨2, ![3, 1600000]⟩
abbrev S50x9 : Shape := ⟨2, ![50, 9]⟩
abbrev S50x1 : Shape := ⟨2, ![50, 1]⟩
abbrev S15x50 : Shape := ⟨2, ![15, 50]⟩
abbrev S15x1 : Shape := ⟨2, ![15, 1]⟩
abbrev S50x18 : Shape := ⟨2, ![50, 18]⟩
abbrev S15x1600000 : Shape := ⟨2, ![15, 1600000]⟩
abbrev S3x16000 : Shape := ⟨2, ![3, 16000]⟩
abbrev S15x16000 : Shape := ⟨2, ![15, 16000]⟩
abbrev S9x16000 : Shape := ⟨2, ![9, 16000]⟩
abbrev S50x16000 : Shape := ⟨2, ![50, 16000]⟩
abbrev S18x16000 : Shape := ⟨2, ![18, 16000]⟩
abbrev S1600000x15 : Shape := ⟨2, ![1600000, 15]⟩
abbrev S100000x15 : Shape := ⟨2, ![100000, 15]⟩
abbrev S100000x1 : Shape := ⟨2, ![100000, 1]⟩
abbrev S512x15 : Shape := ⟨2, ![512, 15]⟩
abbrev S512x1 : Shape := ⟨2, ![512, 1]⟩
abbrev S512x10 : Shape := ⟨2, ![512, 10]⟩
abbrev S1x10 : Shape := ⟨2, ![1, 10]⟩
abbrev S512x6 : Shape := ⟨2, ![512, 6]⟩
abbrev S1x6 : Shape := ⟨2, ![1, 6]⟩
abbrev S512 : Shape := ⟨1, ![512]⟩

abbrev nBuf : Space → Nat
  | .hbm => 153
  | .vmem => 16
  | .smem => 0
  | _ => 0

abbrev hbmTy0_0 (i : Nat) : BufTy := match i % 128 with
  | 0 => ⟨S100000x3, .f32⟩
  | 1 => ⟨S1600000x3, .f32⟩
  | 2 => ⟨S9x50, .f32⟩
  | 3 => ⟨S50, .f32⟩
  | 4 => ⟨S50x15, .f32⟩
  | 5 => ⟨S15, .f32⟩
  | 6 => ⟨S18x50, .f32⟩
  | 7 => ⟨S50, .f32⟩
  | 8 => ⟨S50x15, .f32⟩
  | 9 => ⟨S15, .f32⟩
  | 10 => ⟨S15x10, .f32⟩
  | 11 => ⟨S10, .f32⟩
  | 12 => ⟨S10, .f32⟩
  | 13 => ⟨S10, .f32⟩
  | 14 => ⟨S10x6, .f32⟩
  | 15 => ⟨S6, .f32⟩
  | 16 => ⟨S2x1600000, .i32⟩
  | 17 => ⟨S100000, .i32⟩
  | 18 => ⟨S1x1600000, .i32⟩
  | 19 => ⟨S1600000, .i32⟩
  | 20 => ⟨S1x1600000, .i32⟩
  | 21 => ⟨S1600000, .i32⟩
  | 22 => ⟨S_, .i32⟩
  | 23 => ⟨S1600000, .i32⟩
  | 24 => ⟨S1600000, .i1⟩
  | 25 => ⟨S_, .i32⟩
  | 26 => ⟨S1600000, .i32⟩
  | 27 => ⟨S1600000, .i32⟩
  | 28 => ⟨S1600000, .i32⟩
  | 29 => ⟨S1600000x1, .i32⟩
  | 30 => ⟨S1600000x3, .f32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000x3, .f32⟩
  | 40 => ⟨S3x1600000, .f32⟩
  | 41 => ⟨S3x1600000, .f32⟩
  | 42 => ⟨S3x1600000, .f32⟩
  | 43 => ⟨S50x9, .f32⟩
  | 44 => ⟨S50x1, .f32⟩
  | 45 => ⟨S15x50, .f32⟩
  | 46 => ⟨S15x1, .f32⟩
  | 47 => ⟨S50x18, .f32⟩
  | 48 => ⟨S50x1, .f32⟩
  | 49 => ⟨S15x50, .f32⟩
  | 50 => ⟨S15x1, .f32⟩
  | 51 => ⟨S15x1600000, .f32⟩
  | 52 => ⟨S1600000x15, .f32⟩
  | 53 => ⟨S_, .f32⟩
  | 54 => ⟨S100000x15, .f32⟩
  | 55 => ⟨S1600000x1, .i32⟩
  | 56 => ⟨S100000x15, .f32⟩
  | 57 => ⟨S_, .f32⟩
  | 58 => ⟨S1600000x1, .f32⟩
  | 59 => ⟨S_, .f32⟩
  | 60 => ⟨S100000x1, .f32⟩
  | 61 => ⟨S1600000x1, .i32⟩
  | 62 => ⟨S100000x1, .f32⟩
  | 63 => ⟨S_, .f32⟩
  | 64 => ⟨S100000x1, .f32⟩
  | 65 => ⟨S100000x1, .f32⟩
  | 66 => ⟨S100000x15, .f32⟩
  | 67 => ⟨S100000x15, .f32⟩
  | 68 => ⟨S_, .f32⟩
  | 69 => ⟨S512x15, .f32⟩
  | 70 => ⟨S100000x1, .i32⟩
  | 71 => ⟨S512x15, .f32⟩
  | 72 => ⟨S_, .f32⟩
  | 73 => ⟨S100000x1, .f32⟩
  | 74 => ⟨S_, .f32⟩
  | 75 => ⟨S512x1, .f32⟩
  | 76 => ⟨S100000x1, .i32⟩
  | 77 => ⟨S512x1, .f32⟩
  | 78 => ⟨S_, .f32⟩
  | 79 => ⟨S512x1, .f32⟩
  | 80 => ⟨S512x1, .f32⟩
  | 81 => ⟨S512x15, .f32⟩
  | 82 => ⟨S512x15, .f32⟩
  | 83 => ⟨S512x10, .f32⟩
  | 84 => ⟨S1x10, .f32⟩
  | 85 => ⟨S512x10, .f32⟩
  | 86 => ⟨S512x10, .f32⟩
  | 87 => ⟨S_, .f32⟩
  | 88 => ⟨S10, .f32⟩
  | 89 => ⟨S_, .f32⟩
  | 90 => ⟨S10, .f32⟩
  | 91 => ⟨S10, .f32⟩
  | 92 => ⟨S_, .i32⟩
  | 93 => ⟨S_, .f32⟩
  | 94 => ⟨S10, .f32⟩
  | 95 => ⟨S1x10, .f32⟩
  | 96 => ⟨S_, .f32⟩
  | 97 => ⟨S1x10, .f32⟩
  | 98 => ⟨S1x10, .f32⟩
  | 99 => ⟨S512x10, .f32⟩
  | 100 => ⟨S512x10, .f32⟩
  | 101 => ⟨S512x10, .f32⟩
  | 102 => ⟨S_, .f32⟩
  | 103 => ⟨S_, .f32⟩
  | 104 => ⟨S_, .f32⟩
  | 105 => ⟨S_, .f32⟩
  | 106 => ⟨S10, .f32⟩
  | 107 => ⟨S10, .f32⟩
  | 108 => ⟨S10, .f32⟩
  | 109 => ⟨S_, .f32⟩
  | 110 => ⟨S_, .i1⟩
  | 111 => ⟨S_, .f32⟩
  | 112 => ⟨S_, .f32⟩
  | 113 => ⟨S10, .f32⟩
  | 114 => ⟨S10, .f32⟩
  | 115 => ⟨S1x10, .f32⟩
  | 116 => ⟨S512x10, .f32⟩
  | 117 => ⟨S512x10, .f32⟩
  | 118 => ⟨S1x10, .f32⟩
  | 119 => ⟨S512x10, .f32⟩
  | 120 => ⟨S512x10, .f32⟩
  | 121 => ⟨S_, .f32⟩
  | 122 => ⟨S10, .f32⟩
  | 123 => ⟨S10, .f32⟩
  | 124 => ⟨S10, .f32⟩
  | 125 => ⟨S1x10, .f32⟩
  | 126 => ⟨S512x10, .f32⟩
  | 127 => ⟨S512x10, .f32⟩
  | _ => ⟨S100000x3, .f32⟩

abbrev hbmTy0_1 (i : Nat) : BufTy := match i % 128 with
  | 0 => ⟨S1x10, .f32⟩
  | 1 => ⟨S512x10, .f32⟩
  | 2 => ⟨S512x10, .f32⟩
  | 3 => ⟨S_, .f32⟩
  | 4 => ⟨S512x10, .f32⟩
  | 5 => ⟨S512x10, .f32⟩
  | 6 => ⟨S512x6, .f32⟩
  | 7 => ⟨S1x6, .f32⟩
  | 8 => ⟨S512x6, .f32⟩
  | 9 => ⟨S512x6, .f32⟩
  | 10 => ⟨S_, .f32⟩
  | 11 => ⟨S512, .f32⟩
  | 12 => ⟨S_, .f32⟩
  | 13 => ⟨S512, .f32⟩
  | 14 => ⟨S512, .f32⟩
  | 15 => ⟨S512x1, .f32⟩
  | 16 => ⟨S512x6, .f32⟩
  | 17 => ⟨S512x6, .f32⟩
  | 18 => ⟨S512x6, .f32⟩
  | 19 => ⟨S_, .f32⟩
  | 20 => ⟨S512, .f32⟩
  | 21 => ⟨S512x1, .f32⟩
  | 22 => ⟨S512x1, .f32⟩
  | 23 => ⟨S512x6, .f32⟩
  | 24 => ⟨S512x6, .f32⟩
  | _ => ⟨S100000x3, .f32⟩

abbrev hbmTy (i : Nat) : BufTy := match i / 128 with
  | 0 => hbmTy0_0 i
  | 1 => hbmTy0_1 i
  | _ => ⟨S100000x3, .f32⟩

abbrev bufTy : (tb : Table) → Fin (tcTables nBuf tb) → BufTy
  | .hbm, ⟨i, _⟩ => hbmTy i
  | .local _ .vmem, ⟨0, _⟩ => ⟨S3x16000, .f32⟩
  | .local _ .vmem, ⟨1, _⟩ => ⟨S3x16000, .f32⟩
  | .local _ .vmem, ⟨2, _⟩ => ⟨S3x16000, .f32⟩
  | .local _ .vmem, ⟨3, _⟩ => ⟨S3x16000, .f32⟩
  | .local _ .vmem, ⟨4, _⟩ => ⟨S3x16000, .f32⟩
  | .local _ .vmem, ⟨5, _⟩ => ⟨S3x16000, .f32⟩
  | .local _ .vmem, ⟨6, _⟩ => ⟨S50x9, .f32⟩
  | .local _ .vmem, ⟨7, _⟩ => ⟨S50x1, .f32⟩
  | .local _ .vmem, ⟨8, _⟩ => ⟨S15x50, .f32⟩
  | .local _ .vmem, ⟨9, _⟩ => ⟨S15x1, .f32⟩
  | .local _ .vmem, ⟨10, _⟩ => ⟨S50x18, .f32⟩
  | .local _ .vmem, ⟨11, _⟩ => ⟨S50x1, .f32⟩
  | .local _ .vmem, ⟨12, _⟩ => ⟨S15x50, .f32⟩
  | .local _ .vmem, ⟨13, _⟩ => ⟨S15x1, .f32⟩
  | .local _ .vmem, ⟨14, _⟩ => ⟨S15x16000, .f32⟩
  | .local _ .vmem, ⟨15, _⟩ => ⟨S15x16000, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_c_1 : Ref sig .tc := ⟨.hbm, 31, rfl⟩
abbrev main_v11 : Ref sig .tc := ⟨.hbm, 32, rfl⟩
abbrev main_v12 : Ref sig .tc := ⟨.hbm, 33, rfl⟩
abbrev main_c_2 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_3 : Ref sig .tc := ⟨.hbm, 57, rfl⟩
abbrev main_v34 : Ref sig .tc := ⟨.hbm, 58, rfl⟩
abbrev main_cst_4 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_5 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_6 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_7 : Ref sig .tc := ⟨.hbm, 72, rfl⟩
abbrev main_v45 : Ref sig .tc := ⟨.hbm, 73, rfl⟩
abbrev main_cst_8 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_cst_9 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_10 : Ref sig .tc := ⟨.hbm, 87, rfl⟩
abbrev main_v57 : Ref sig .tc := ⟨.hbm, 88, rfl⟩
abbrev main_cst_11 : Ref sig .tc := ⟨.hbm, 89, rfl⟩
abbrev main_v58 : Ref sig .tc := ⟨.hbm, 90, rfl⟩
abbrev main_v59 : Ref sig .tc := ⟨.hbm, 91, rfl⟩
abbrev main_c_12 : Ref sig .tc := ⟨.hbm, 92, rfl⟩
abbrev main_call0_cst : Ref sig .tc := ⟨.hbm, 93, rfl⟩
abbrev main_call0_v0 : Ref sig .tc := ⟨.hbm, 94, rfl⟩
abbrev main_call0_v1 : Ref sig .tc := ⟨.hbm, 95, rfl⟩
abbrev main_call0_cst_0 : Ref sig .tc := ⟨.hbm, 96, rfl⟩
abbrev main_call0_v2 : Ref sig .tc := ⟨.hbm, 97, rfl⟩
abbrev main_call0_v3 : Ref sig .tc := ⟨.hbm, 98, rfl⟩
abbrev main_call0_v4 : Ref sig .tc := ⟨.hbm, 99, rfl⟩
abbrev main_call0_v5 : Ref sig .tc := ⟨.hbm, 100, rfl⟩
abbrev main_call0_v6 : Ref sig .tc := ⟨.hbm, 101, rfl⟩
abbrev main_call0_v7 : Ref sig .tc := ⟨.hbm, 102, rfl⟩
abbrev main_call0_cst_1 : Ref sig .tc := ⟨.hbm, 103, rfl⟩
abbrev main_call0_v8 : Ref sig .tc := ⟨.hbm, 104, rfl⟩
abbrev main_call0_cst_2 : Ref sig .tc := ⟨.hbm, 105, rfl⟩
abbrev main_call0_v9 : Ref sig .tc := ⟨.hbm, 106, rfl⟩
abbrev main_call0_v10 : Ref sig .tc := ⟨.hbm, 107, rfl⟩
abbrev main_call0_v11 : Ref sig .tc := ⟨.hbm, 108, rfl⟩
abbrev main_call0_cst_3 : Ref sig .tc := ⟨.hbm, 109, rfl⟩
abbrev main_call0_v12 : Ref sig .tc := ⟨.hbm, 110, rfl⟩
abbrev main_call0_cst_4 : Ref sig .tc := ⟨.hbm, 111, rfl⟩
abbrev main_call0_call0_v0 : Ref sig .tc := ⟨.hbm, 112, rfl⟩
abbrev main_call0_call0_v1 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_cst_13 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_call1_cst : Ref sig .tc := ⟨.hbm, 131, rfl⟩
abbrev main_call1_v0 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_call2_cst : Ref sig .tc := ⟨.hbm, 138, rfl⟩
abbrev main_call2_v0 : Ref sig .tc := ⟨.hbm, 139, rfl⟩
abbrev main_call2_cst_0 : Ref sig .tc := ⟨.hbm, 140, rfl⟩
abbrev main_call2_v1 : Ref sig .tc := ⟨.hbm, 141, rfl⟩
abbrev main_call2_v2 : Ref sig .tc := ⟨.hbm, 142, rfl⟩
abbrev main_call2_v3 : Ref sig .tc := ⟨.hbm, 143, rfl⟩
abbrev main_call2_v4 : Ref sig .tc := ⟨.hbm, 144, rfl⟩
abbrev main_call2_v5 : Ref sig .tc := ⟨.hbm, 145, rfl⟩
abbrev main_call2_v6 : Ref sig .tc := ⟨.hbm, 146, rfl⟩
abbrev main_call2_cst_1 : Ref sig .tc := ⟨.hbm, 147, rfl⟩
abbrev main_call2_v7 : Ref sig .tc := ⟨.hbm, 148, rfl⟩
abbrev main_call2_v8 : Ref sig .tc := ⟨.hbm, 149, rfl⟩
abbrev main_call2_v9 : Ref sig .tc := ⟨.hbm, 150, rfl⟩
abbrev main_call2_v10 : Ref sig .tc := ⟨.hbm, 151, rfl⟩
abbrev main_v81 : Ref sig .tc := ⟨.hbm, 152, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3x16000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x16000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x16000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S50x9 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S50x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S15x50 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S15x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S50x18 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S50x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S15x50 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S15x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S15x16000 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  transposes_S1600000x3_S3x1600000_1_0 : S1600000x3.Transposes [1, 0] S3x1600000
  transposes_S9x50_S50x9_1_0 : S9x50.Transposes [1, 0] S50x9
  shapeCasts_S50_S50x1 : S50.ShapeCasts S50x1
  transposes_S50x15_S15x50_1_0 : S50x15.Transposes [1, 0] S15x50
  shapeCasts_S15_S15x1 : S15.ShapeCasts S15x1
  transposes_S18x50_S50x18_1_0 : S18x50.Transposes [1, 0] S50x18
  inb_S3x16000_S3x16000_0_0 : ∀ a, (![0, 0] : Fin 2 → Nat) a + S3x16000.size a ≤ S3x16000.size a
  h_S3x16000 : 0 < S3x16000.numel
  shapeCasts_S3x16000_S3x16000 : S3x16000.ShapeCasts S3x16000
  bitsLt_bf16_f32 : FTy.bits .bf16 < FTy.bits .f32
  inb_S50x9_S50x9_0_0 : ∀ a, (![0, 0] : Fin 2 → Nat) a + S50x9.size a ≤ S50x9.size a
  h_S50x9 : 0 < S50x9.numel
  shapeCasts_S50x9_S50x9 : S50x9.ShapeCasts S50x9
  inb_S15x50_S15x50_0_0 : ∀ a, (![0, 0] : Fin 2 → Nat) a + S15x50.size a ≤ S15x50.size a
  h_S15x50 : 0 < S15x50.numel
  shapeCasts_S15x50_S15x50 : S15x50.ShapeCasts S15x50
  inb_S50x18_S50x18_0_0 : ∀ a, (![0, 0] : Fin 2 → Nat) a + S50x18.size a ≤ S50x18.size a
  h_S50x18 : 0 < S50x18.numel
  shapeCasts_S50x18_S50x18 : S50x18.ShapeCasts S50x18
  concatenates_S3x16000_S3x16000_S3x16000_S9x16000_d0 : Shape.Concatenates [S3x16000, S3x16000, S3x16000] S9x16000 0
  inb_S50x1_S50x1_0_0 : ∀ a, (![0, 0] : Fin 2 → Nat) a + S50x1.size a ≤ S50x1.size a
  h_S50x1 : 0 < S50x1.numel
  shapeCasts_S50x1_S50x1 : S50x1.ShapeCasts S50x1
  broadcasts_S50x1_S50x16000 : S50x1.Broadcasts S50x16000
  inb_S15x1_S15x1_0_0 : ∀ a, (![0, 0] : Fin 2 → Nat) a + S15x1.size a ≤ S15x1.size a
  h_S15x1 : 0 < S15x1.numel
  shapeCasts_S15x1_S15x1 : S15x1.ShapeCasts S15x1
  broadcasts_S15x1_S15x16000 : S15x1.Broadcasts S15x16000
  concatenates_S3x16000_S15x16000_S18x16000_d0 : Shape.Concatenates [S3x16000, S15x16000] S18x16000 0
  inb_S15x16000_S15x16000_0_0 : ∀ a, (![0, 0] : Fin 2 → Nat) a + S15x16000.size a ≤ S15x16000.size a
  h_S15x16000 : 0 < S15x16000.numel
  transposes_S15x1600000_S1600000x15_1_0 : S15x1600000.Transposes [1, 0] S1600000x15
  bcast_S_S100000x15 : S_.BroadcastsInDim S100000x15 (![] : Fin 0 → Fin S100000x15.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x15_0_1 : S100000x1.BroadcastsInDim S100000x15 (![0, 1] : Fin 2 → Fin S100000x15.rank)
  bcast_S_S512x15 : S_.BroadcastsInDim S512x15 (![] : Fin 0 → Fin S512x15.rank)
  bcast_S100000_S100000x1_0 : S100000.BroadcastsInDim S100000x1 (![0] : Fin 1 → Fin S100000x1.rank)
  bcast_S_S512x1 : S_.BroadcastsInDim S512x1 (![] : Fin 0 → Fin S512x1.rank)
  bcast_S512x1_S512x15_0_1 : S512x1.BroadcastsInDim S512x15 (![0, 1] : Fin 2 → Fin S512x15.rank)
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  reducesTo_S512x10_S10_d0 : S512x10.ReducesTo [0] S10
  h_S_ : 0 < S_.numel
  bcast_S_S10 : S_.BroadcastsInDim S10 (![] : Fin 0 → Fin S10.rank)
  bcast_S_S1x10 : S_.BroadcastsInDim S1x10 (![] : Fin 0 → Fin S1x10.rank)
  bcast_S_S512x10 : S_.BroadcastsInDim S512x10 (![] : Fin 0 → Fin S512x10.rank)
  bcast_S6_S1x6_1 : S6.BroadcastsInDim S1x6 (![1] : Fin 1 → Fin S1x6.rank)
  bcast_S1x6_S512x6_0_1 : S1x6.BroadcastsInDim S512x6 (![0, 1] : Fin 2 → Fin S512x6.rank)
  reducesTo_S512x6_S512_d1 : S512x6.ReducesTo [1] S512
  bcast_S_S512 : S_.BroadcastsInDim S512 (![] : Fin 0 → Fin S512.rank)
  bcast_S512_S512x1_0 : S512.BroadcastsInDim S512x1 (![0] : Fin 1 → Fin S512x1.rank)
  bcast_S512x1_S512x6_0_1 : S512x1.BroadcastsInDim S512x6 (![0, 1] : Fin 2 → Fin S512x6.rank)
  gather_S100000x3_S1600000x1_S1600000x3_1_0_n_n_0_1_13_wf : GatherDims.WF S100000x3 S1600000x1 S1600000x3 [1] [0] [] [0] [] 1 ![1, 3]
  dot_S50x9_S9x16000_S50x16000_1_0_0_1_n_n_wf : DotDims.WF S50x9 S9x16000 S50x16000 [1] [0] [0] [1] [] []
  dot_S15x50_S50x16000_S15x16000_1_0_0_1_n_n_wf : DotDims.WF S15x50 S50x16000 S15x16000 [1] [0] [0] [1] [] []
  dot_S50x18_S18x16000_S50x16000_1_0_0_1_n_n_wf : DotDims.WF S50x18 S18x16000 S50x16000 [1] [0] [0] [1] [] []
  scatter_S100000x15_S1600000x1_S1600000x15_1_0_0_1_wf : ScatterDims.WF S100000x15 S1600000x1 S1600000x15 [1] [0] [0] 1
  scatter_S100000x1_S1600000x1_S1600000x1_1_0_0_1_wf : ScatterDims.WF S100000x1 S1600000x1 S1600000x1 [1] [0] [0] 1
  scatter_S512x15_S100000x1_S100000x15_1_0_0_1_wf : ScatterDims.WF S512x15 S100000x1 S100000x15 [1] [0] [0] 1
  scatter_S512x1_S100000x1_S100000x1_1_0_0_1_wf : ScatterDims.WF S512x1 S100000x1 S100000x1 [1] [0] [0] 1
  dot_S512x15_S15x10_S512x10_1_0_0_1_n_n_wf : DotDims.WF S512x15 S15x10 S512x10 [1] [0] [0] [1] [] []
  dot_S512x10_S10x6_S512x6_1_0_0_1_n_n_wf : DotDims.WF S512x10 S10x6 S512x6 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x16000.size a ≤ S3x1600000.size a
  hwx0_0 : ∀ i : grid0.Coords, EltTy.bits .f32 = 32 ∨ (Rect.block (s := S3x1600000) S3x16000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x16000.size a ≤ S3x1600000.size a
  hwx0_1 : ∀ i : grid0.Coords, EltTy.bits .f32 = 32 ∨ (Rect.block (s := S3x1600000) S3x16000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3x16000.size a ≤ S3x1600000.size a
  hwx0_2 : ∀ i : grid0.Coords, EltTy.bits .f32 = 32 ∨ (Rect.block (s := S3x1600000) S3x16000.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S50x9.size a ≤ S50x9.size a
  hwx0_3 : ∀ i : grid0.Coords, EltTy.bits .f32 = 32 ∨ (Rect.block (s := S50x9) S50x9.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S50x1.size a ≤ S50x1.size a
  hwx0_4 : ∀ i : grid0.Coords, EltTy.bits .f32 = 32 ∨ (Rect.block (s := S50x1) S50x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S15x50.size a ≤ S15x50.size a
  hwx0_5 : ∀ i : grid0.Coords, EltTy.bits .f32 = 32 ∨ (Rect.block (s := S15x50) S15x50.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S15x1.size a ≤ S15x1.size a
  hwx0_6 : ∀ i : grid0.Coords, EltTy.bits .f32 = 32 ∨ (Rect.block (s := S15x1) S15x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S50x18.size a ≤ S50x18.size a
  hwx0_7 : ∀ i : grid0.Coords, EltTy.bits .f32 = 32 ∨ (Rect.block (s := S50x18) S50x18.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S50x1.size a ≤ S50x1.size a
  hwx0_8 : ∀ i : grid0.Coords, EltTy.bits .f32 = 32 ∨ (Rect.block (s := S50x1) S50x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S15x50.size a ≤ S15x50.size a
  hwx0_9 : ∀ i : grid0.Coords, EltTy.bits .f32 = 32 ∨ (Rect.block (s := S15x50) S15x50.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S15x1.size a ≤ S15x1.size a
  hwx0_10 : ∀ i : grid0.Coords, EltTy.bits .f32 = 32 ∨ (Rect.block (s := S15x1) S15x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S15x16000.size a ≤ S15x1600000.size a
  hwx0_11 : ∀ i : grid0.Coords, EltTy.bits .f32 = 32 ∨ (Rect.block (s := S15x1600000) S15x16000.size (cc0_transform_11 i) (hinb0_11 i)).WholeWords (EltTy.packing .f32)

variable [Facts₀]

def gather_S100000x3_S1600000x1_S1600000x3_1_0_n_n_0_1_13 : GatherDims S100000x3 S1600000x1 S1600000x3 where
  offsetDims := [1]
  collapsedSliceDims := [0]
  operandBatchingDims := []
  startIndicesBatchingDims := []
  startIndexMap := [0]
  indexVectorDim := 1
  sliceSizes := ![1, 3]
  wf := gather_S100000x3_S1600000x1_S1600000x3_1_0_n_n_0_1_13_wf
def dot_S50x9_S9x16000_S50x16000_1_0_0_1_n_n : DotDims S50x9 S9x16000 S50x16000 where
  lhsContracting := [1]
  rhsContracting := [0]
  lhsNonContracting := [0]
  rhsNonContracting := [1]
  lhsBatch := []
  rhsBatch := []
  wf := dot_S50x9_S9x16000_S50x16000_1_0_0_1_n_n_wf
def dot_S15x50_S50x16000_S15x16000_1_0_0_1_n_n : DotDims S15x50 S50x16000 S15x16000 where
  lhsContracting := [1]
  rhsContracting := [0]
  lhsNonContracting := [0]
  rhsNonContracting := [1]
  lhsBatch := []
  rhsBatch := []
  wf := dot_S15x50_S50x16000_S15x16000_1_0_0_1_n_n_wf
def dot_S50x18_S18x16000_S50x16000_1_0_0_1_n_n : DotDims S50x18 S18x16000 S50x16000 where
  lhsContracting := [1]
  rhsContracting := [0]
  lhsNonContracting := [0]
  rhsNonContracting := [1]
  lhsBatch := []
  rhsBatch := []
  wf := dot_S50x18_S18x16000_S50x16000_1_0_0_1_n_n_wf
def scatter_S100000x15_S1600000x1_S1600000x15_1_0_0_1 : ScatterDims S100000x15 S1600000x1 S1600000x15 where
  updateWindowDims := [1]
  insertedWindowDims := [0]
  scatterDimsToOperandDims := [0]
  indexVectorDim := 1
  wf := scatter_S100000x15_S1600000x1_S1600000x15_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def scatter_S512x15_S100000x1_S100000x15_1_0_0_1 : ScatterDims S512x15 S100000x1 S100000x15 where
  updateWindowDims := [1]
  insertedWindowDims := [0]
  scatterDimsToOperandDims := [0]
  indexVectorDim := 1
  wf := scatter_S512x15_S100000x1_S100000x15_1_0_0_1_wf
def scatter_S512x1_S100000x1_S100000x1_1_0_0_1 : ScatterDims S512x1 S100000x1 S100000x1 where
  updateWindowDims := [1]
  insertedWindowDims := [0]
  scatterDimsToOperandDims := [0]
  indexVectorDim := 1
  wf := scatter_S512x1_S100000x1_S100000x1_1_0_0_1_wf
def dot_S512x15_S15x10_S512x10_1_0_0_1_n_n : DotDims S512x15 S15x10 S512x10 where
  lhsContracting := [1]
  rhsContracting := [0]
  lhsNonContracting := [0]
  rhsNonContracting := [1]
  lhsBatch := []
  rhsBatch := []
  wf := dot_S512x15_S15x10_S512x10_1_0_0_1_n_n_wf
def dot_S512x10_S10x6_S512x6_1_0_0_1_n_n : DotDims S512x10 S10x6 S512x6 where
  lhsContracting := [1]
  rhsContracting := [0]
  lhsNonContracting := [0]
  rhsNonContracting := [1]
  lhsBatch := []
  rhsBatch := []
  wf := dot_S512x10_S10x6_S512x6_1_0_0_1_n_n_wf

abbrev win0_0 : Pipeline.Window sig grid0 :=
  Pipeline.Window.ofSpec (Memref.whole main_v18) S3x16000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S3x16000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S3x16000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S50x9.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S50x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S15x50.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S15x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v25) S50x18.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v26) S50x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v27) S15x50.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v28) S15x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v29) S15x16000.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S100000x3 : Shape := ⟨2, ![100000, 3]⟩
abbrev S1600000x3 : Shape := ⟨2, ![1600000, 3]⟩
abbrev S9x50 : Shape := ⟨2, ![9, 50]⟩
abbrev S50 : Shape := ⟨1, ![50]⟩
abbrev S50x15 : Shape := ⟨2, ![50, 15]⟩
abbrev S15 : Shape := ⟨1, ![15]⟩
abbrev S18x50 : Shape := ⟨2, ![18, 50]⟩
abbrev S15x10 : Shape := ⟨2, ![15, 10]⟩
abbrev S10 : Shape := ⟨1, ![10]⟩
abbrev S10x6 : Shape := ⟨2, ![10, 6]⟩
abbrev S6 : Shape := ⟨1, ![6]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x9 : Shape := ⟨2, ![1600000, 9]⟩
abbrev S1600000x50 : Shape := ⟨2, ![1600000, 50]⟩
abbrev S1x50 : Shape := ⟨2, ![1, 50]⟩
abbrev S1600000x15 : Shape := ⟨2, ![1600000, 15]⟩
abbrev S1x15 : Shape := ⟨2, ![1, 15]⟩
abbrev S1600000x18 : Shape := ⟨2, ![1600000, 18]⟩
abbrev S100000x15 : Shape := ⟨2, ![100000, 15]⟩
abbrev S100000x1 : Shape := ⟨2, ![100000, 1]⟩
abbrev S512x15 : Shape := ⟨2, ![512, 15]⟩
abbrev S512x1 : Shape := ⟨2, ![512, 1]⟩
abbrev S512x10 : Shape := ⟨2, ![512, 10]⟩
abbrev S1x10 : Shape := ⟨2, ![1, 10]⟩
abbrev S512x6 : Shape := ⟨2, ![512, 6]⟩
abbrev S1x6 : Shape := ⟨2, ![1, 6]⟩
abbrev S512 : Shape := ⟨1, ![512]⟩

abbrev nBuf : Space → Nat
  | .hbm => 173
  | .vmem => 0
  | .smem => 0
  | _ => 0

abbrev hbmTy0_0 (i : Nat) : BufTy := match i % 128 with
  | 0 => ⟨S100000x3, .f32⟩
  | 1 => ⟨S1600000x3, .f32⟩
  | 2 => ⟨S9x50, .f32⟩
  | 3 => ⟨S50, .f32⟩
  | 4 => ⟨S50x15, .f32⟩
  | 5 => ⟨S15, .f32⟩
  | 6 => ⟨S18x50, .f32⟩
  | 7 => ⟨S50, .f32⟩
  | 8 => ⟨S50x15, .f32⟩
  | 9 => ⟨S15, .f32⟩
  | 10 => ⟨S15x10, .f32⟩
  | 11 => ⟨S10, .f32⟩
  | 12 => ⟨S10, .f32⟩
  | 13 => ⟨S10, .f32⟩
  | 14 => ⟨S10x6, .f32⟩
  | 15 => ⟨S6, .f32⟩
  | 16 => ⟨S2x1600000, .i32⟩
  | 17 => ⟨S100000, .i32⟩
  | 18 => ⟨S1x1600000, .i32⟩
  | 19 => ⟨S1600000, .i32⟩
  | 20 => ⟨S1x1600000, .i32⟩
  | 21 => ⟨S1600000, .i32⟩
  | 22 => ⟨S_, .i32⟩
  | 23 => ⟨S1600000, .i32⟩
  | 24 => ⟨S1600000, .i1⟩
  | 25 => ⟨S_, .i32⟩
  | 26 => ⟨S1600000, .i32⟩
  | 27 => ⟨S1600000, .i32⟩
  | 28 => ⟨S1600000, .i32⟩
  | 29 => ⟨S1600000x1, .i32⟩
  | 30 => ⟨S1600000x3, .f32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000x3, .f32⟩
  | 40 => ⟨S1600000x9, .f32⟩
  | 41 => ⟨S1600000x50, .f32⟩
  | 42 => ⟨S1x50, .f32⟩
  | 43 => ⟨S1600000x50, .f32⟩
  | 44 => ⟨S1600000x50, .f32⟩
  | 45 => ⟨S_, .f32⟩
  | 46 => ⟨S1600000x50, .f32⟩
  | 47 => ⟨S1600000x50, .f32⟩
  | 48 => ⟨S1600000x15, .f32⟩
  | 49 => ⟨S1x15, .f32⟩
  | 50 => ⟨S1600000x15, .f32⟩
  | 51 => ⟨S1600000x15, .f32⟩
  | 52 => ⟨S_, .i32⟩
  | 53 => ⟨S1600000, .i32⟩
  | 54 => ⟨S1600000, .i1⟩
  | 55 => ⟨S_, .i32⟩
  | 56 => ⟨S1600000, .i32⟩
  | 57 => ⟨S1600000, .i32⟩
  | 58 => ⟨S1600000, .i32⟩
  | 59 => ⟨S1600000x1, .i32⟩
  | 60 => ⟨S1600000x3, .f32⟩
  | 61 => ⟨S1600000x18, .f32⟩
  | 62 => ⟨S1600000x50, .f32⟩
  | 63 => ⟨S1x50, .f32⟩
  | 64 => ⟨S1600000x50, .f32⟩
  | 65 => ⟨S1600000x50, .f32⟩
  | 66 => ⟨S_, .f32⟩
  | 67 => ⟨S1600000x50, .f32⟩
  | 68 => ⟨S1600000x50, .f32⟩
  | 69 => ⟨S1600000x15, .f32⟩
  | 70 => ⟨S1x15, .f32⟩
  | 71 => ⟨S1600000x15, .f32⟩
  | 72 => ⟨S1600000x15, .f32⟩
  | 73 => ⟨S_, .f32⟩
  | 74 => ⟨S100000x15, .f32⟩
  | 75 => ⟨S1600000x1, .i32⟩
  | 76 => ⟨S100000x15, .f32⟩
  | 77 => ⟨S_, .f32⟩
  | 78 => ⟨S1600000x1, .f32⟩
  | 79 => ⟨S_, .f32⟩
  | 80 => ⟨S100000x1, .f32⟩
  | 81 => ⟨S1600000x1, .i32⟩
  | 82 => ⟨S100000x1, .f32⟩
  | 83 => ⟨S_, .f32⟩
  | 84 => ⟨S100000x1, .f32⟩
  | 85 => ⟨S100000x1, .f32⟩
  | 86 => ⟨S100000x15, .f32⟩
  | 87 => ⟨S100000x15, .f32⟩
  | 88 => ⟨S_, .f32⟩
  | 89 => ⟨S512x15, .f32⟩
  | 90 => ⟨S100000x1, .i32⟩
  | 91 => ⟨S512x15, .f32⟩
  | 92 => ⟨S_, .f32⟩
  | 93 => ⟨S100000x1, .f32⟩
  | 94 => ⟨S_, .f32⟩
  | 95 => ⟨S512x1, .f32⟩
  | 96 => ⟨S100000x1, .i32⟩
  | 97 => ⟨S512x1, .f32⟩
  | 98 => ⟨S_, .f32⟩
  | 99 => ⟨S512x1, .f32⟩
  | 100 => ⟨S512x1, .f32⟩
  | 101 => ⟨S512x15, .f32⟩
  | 102 => ⟨S512x15, .f32⟩
  | 103 => ⟨S512x10, .f32⟩
  | 104 => ⟨S1x10, .f32⟩
  | 105 => ⟨S512x10, .f32⟩
  | 106 => ⟨S512x10, .f32⟩
  | 107 => ⟨S_, .f32⟩
  | 108 => ⟨S10, .f32⟩
  | 109 => ⟨S_, .f32⟩
  | 110 => ⟨S10, .f32⟩
  | 111 => ⟨S10, .f32⟩
  | 112 => ⟨S_, .i32⟩
  | 113 => ⟨S_, .f32⟩
  | 114 => ⟨S10, .f32⟩
  | 115 => ⟨S1x10, .f32⟩
  | 116 => ⟨S_, .f32⟩
  | 117 => ⟨S1x10, .f32⟩
  | 118 => ⟨S1x10, .f32⟩
  | 119 => ⟨S512x10, .f32⟩
  | 120 => ⟨S512x10, .f32⟩
  | 121 => ⟨S512x10, .f32⟩
  | 122 => ⟨S_, .f32⟩
  | 123 => ⟨S_, .f32⟩
  | 124 => ⟨S_, .f32⟩
  | 125 => ⟨S_, .f32⟩
  | 126 => ⟨S10, .f32⟩
  | 127 => ⟨S10, .f32⟩
  | _ => ⟨S100000x3, .f32⟩

abbrev hbmTy0_1 (i : Nat) : BufTy := match i % 128 with
  | 0 => ⟨S10, .f32⟩
  | 1 => ⟨S_, .f32⟩
  | 2 => ⟨S_, .i1⟩
  | 3 => ⟨S_, .f32⟩
  | 4 => ⟨S_, .f32⟩
  | 5 => ⟨S10, .f32⟩
  | 6 => ⟨S10, .f32⟩
  | 7 => ⟨S1x10, .f32⟩
  | 8 => ⟨S512x10, .f32⟩
  | 9 => ⟨S512x10, .f32⟩
  | 10 => ⟨S1x10, .f32⟩
  | 11 => ⟨S512x10, .f32⟩
  | 12 => ⟨S512x10, .f32⟩
  | 13 => ⟨S_, .f32⟩
  | 14 => ⟨S10, .f32⟩
  | 15 => ⟨S10, .f32⟩
  | 16 => ⟨S10, .f32⟩
  | 17 => ⟨S1x10, .f32⟩
  | 18 => ⟨S512x10, .f32⟩
  | 19 => ⟨S512x10, .f32⟩
  | 20 => ⟨S1x10, .f32⟩
  | 21 => ⟨S512x10, .f32⟩
  | 22 => ⟨S512x10, .f32⟩
  | 23 => ⟨S_, .f32⟩
  | 24 => ⟨S512x10, .f32⟩
  | 25 => ⟨S512x10, .f32⟩
  | 26 => ⟨S512x6, .f32⟩
  | 27 => ⟨S1x6, .f32⟩
  | 28 => ⟨S512x6, .f32⟩
  | 29 => ⟨S512x6, .f32⟩
  | 30 => ⟨S_, .f32⟩
  | 31 => ⟨S512, .f32⟩
  | 32 => ⟨S_, .f32⟩
  | 33 => ⟨S512, .f32⟩
  | 34 => ⟨S512, .f32⟩
  | 35 => ⟨S512x1, .f32⟩
  | 36 => ⟨S512x6, .f32⟩
  | 37 => ⟨S512x6, .f32⟩
  | 38 => ⟨S512x6, .f32⟩
  | 39 => ⟨S_, .f32⟩
  | 40 => ⟨S512, .f32⟩
  | 41 => ⟨S512x1, .f32⟩
  | 42 => ⟨S512x1, .f32⟩
  | 43 => ⟨S512x6, .f32⟩
  | 44 => ⟨S512x6, .f32⟩
  | _ => ⟨S100000x3, .f32⟩

abbrev hbmTy (i : Nat) : BufTy := match i / 128 with
  | 0 => hbmTy0_0 i
  | 1 => hbmTy0_1 i
  | _ => ⟨S100000x3, .f32⟩

abbrev bufTy : (tb : Table) → Fin (tcTables nBuf tb) → BufTy
  | .hbm, ⟨i, _⟩ => hbmTy i
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_c_1 : Ref sig .tc := ⟨.hbm, 31, rfl⟩
abbrev main_v11 : Ref sig .tc := ⟨.hbm, 32, rfl⟩
abbrev main_v12 : Ref sig .tc := ⟨.hbm, 33, rfl⟩
abbrev main_c_2 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_call0_cst : Ref sig .tc := ⟨.hbm, 45, rfl⟩
abbrev main_call0_v0 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_c_3 : Ref sig .tc := ⟨.hbm, 52, rfl⟩
abbrev main_v28 : Ref sig .tc := ⟨.hbm, 53, rfl⟩
abbrev main_v29 : Ref sig .tc := ⟨.hbm, 54, rfl⟩
abbrev main_c_4 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_call1_cst : Ref sig .tc := ⟨.hbm, 66, rfl⟩
abbrev main_call1_v0 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_5 : Ref sig .tc := ⟨.hbm, 77, rfl⟩
abbrev main_v48 : Ref sig .tc := ⟨.hbm, 78, rfl⟩
abbrev main_cst_6 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_cst_7 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_8 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_cst_9 : Ref sig .tc := ⟨.hbm, 92, rfl⟩
abbrev main_v59 : Ref sig .tc := ⟨.hbm, 93, rfl⟩
abbrev main_cst_10 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_cst_11 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_cst_12 : Ref sig .tc := ⟨.hbm, 107, rfl⟩
abbrev main_v71 : Ref sig .tc := ⟨.hbm, 108, rfl⟩
abbrev main_cst_13 : Ref sig .tc := ⟨.hbm, 109, rfl⟩
abbrev main_v72 : Ref sig .tc := ⟨.hbm, 110, rfl⟩
abbrev main_v73 : Ref sig .tc := ⟨.hbm, 111, rfl⟩
abbrev main_c_14 : Ref sig .tc := ⟨.hbm, 112, rfl⟩
abbrev main_call2_cst : Ref sig .tc := ⟨.hbm, 113, rfl⟩
abbrev main_call2_v0 : Ref sig .tc := ⟨.hbm, 114, rfl⟩
abbrev main_call2_v1 : Ref sig .tc := ⟨.hbm, 115, rfl⟩
abbrev main_call2_cst_0 : Ref sig .tc := ⟨.hbm, 116, rfl⟩
abbrev main_call2_v2 : Ref sig .tc := ⟨.hbm, 117, rfl⟩
abbrev main_call2_v3 : Ref sig .tc := ⟨.hbm, 118, rfl⟩
abbrev main_call2_v4 : Ref sig .tc := ⟨.hbm, 119, rfl⟩
abbrev main_call2_v5 : Ref sig .tc := ⟨.hbm, 120, rfl⟩
abbrev main_call2_v6 : Ref sig .tc := ⟨.hbm, 121, rfl⟩
abbrev main_call2_v7 : Ref sig .tc := ⟨.hbm, 122, rfl⟩
abbrev main_call2_cst_1 : Ref sig .tc := ⟨.hbm, 123, rfl⟩
abbrev main_call2_v8 : Ref sig .tc := ⟨.hbm, 124, rfl⟩
abbrev main_call2_cst_2 : Ref sig .tc := ⟨.hbm, 125, rfl⟩
abbrev main_call2_v9 : Ref sig .tc := ⟨.hbm, 126, rfl⟩
abbrev main_call2_v10 : Ref sig .tc := ⟨.hbm, 127, rfl⟩
abbrev main_call2_v11 : Ref sig .tc := ⟨.hbm, 128, rfl⟩
abbrev main_call2_cst_3 : Ref sig .tc := ⟨.hbm, 129, rfl⟩
abbrev main_call2_v12 : Ref sig .tc := ⟨.hbm, 130, rfl⟩
abbrev main_call2_cst_4 : Ref sig .tc := ⟨.hbm, 131, rfl⟩
abbrev main_call2_call0_v0 : Ref sig .tc := ⟨.hbm, 132, rfl⟩
abbrev main_call2_call0_v1 : Ref sig .tc := ⟨.hbm, 133, rfl⟩
abbrev main_v74 : Ref sig .tc := ⟨.hbm, 134, rfl⟩
abbrev main_v75 : Ref sig .tc := ⟨.hbm, 135, rfl⟩
abbrev main_v76 : Ref sig .tc := ⟨.hbm, 136, rfl⟩
abbrev main_v77 : Ref sig .tc := ⟨.hbm, 137, rfl⟩
abbrev main_v78 : Ref sig .tc := ⟨.hbm, 138, rfl⟩
abbrev main_v79 : Ref sig .tc := ⟨.hbm, 139, rfl⟩
abbrev main_v80 : Ref sig .tc := ⟨.hbm, 140, rfl⟩
abbrev main_cst_15 : Ref sig .tc := ⟨.hbm, 141, rfl⟩
abbrev main_v81 : Ref sig .tc := ⟨.hbm, 142, rfl⟩
abbrev main_v82 : Ref sig .tc := ⟨.hbm, 143, rfl⟩
abbrev main_v83 : Ref sig .tc := ⟨.hbm, 144, rfl⟩
abbrev main_v84 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_v88 : Ref sig .tc := ⟨.hbm, 149, rfl⟩
abbrev main_v89 : Ref sig .tc := ⟨.hbm, 150, rfl⟩
abbrev main_call3_cst : Ref sig .tc := ⟨.hbm, 151, rfl⟩
abbrev main_call3_v0 : Ref sig .tc := ⟨.hbm, 152, rfl⟩
abbrev main_v90 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_v94 : Ref sig .tc := ⟨.hbm, 157, rfl⟩
abbrev main_call4_cst : Ref sig .tc := ⟨.hbm, 158, rfl⟩
abbrev main_call4_v0 : Ref sig .tc := ⟨.hbm, 159, rfl⟩
abbrev main_call4_cst_0 : Ref sig .tc := ⟨.hbm, 160, rfl⟩
abbrev main_call4_v1 : Ref sig .tc := ⟨.hbm, 161, rfl⟩
abbrev main_call4_v2 : Ref sig .tc := ⟨.hbm, 162, rfl⟩
abbrev main_call4_v3 : Ref sig .tc := ⟨.hbm, 163, rfl⟩
abbrev main_call4_v4 : Ref sig .tc := ⟨.hbm, 164, rfl⟩
abbrev main_call4_v5 : Ref sig .tc := ⟨.hbm, 165, rfl⟩
abbrev main_call4_v6 : Ref sig .tc := ⟨.hbm, 166, rfl⟩
abbrev main_call4_cst_1 : Ref sig .tc := ⟨.hbm, 167, rfl⟩
abbrev main_call4_v7 : Ref sig .tc := ⟨.hbm, 168, rfl⟩
abbrev main_call4_v8 : Ref sig .tc := ⟨.hbm, 169, rfl⟩
abbrev main_call4_v9 : Ref sig .tc := ⟨.hbm, 170, rfl⟩
abbrev main_call4_v10 : Ref sig .tc := ⟨.hbm, 171, rfl⟩
abbrev main_v95 : Ref sig .tc := ⟨.hbm, 172, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x3_S1600000x3_S1600000x3_S1600000x9_d1 : Shape.Concatenates [S1600000x3, S1600000x3, S1600000x3] S1600000x9 1
  bcast_S50_S1x50_1 : S50.BroadcastsInDim S1x50 (![1] : Fin 1 → Fin S1x50.rank)
  bcast_S1x50_S1600000x50_0_1 : S1x50.BroadcastsInDim S1600000x50 (![0, 1] : Fin 2 → Fin S1600000x50.rank)
  bcast_S_S1600000x50 : S_.BroadcastsInDim S1600000x50 (![] : Fin 0 → Fin S1600000x50.rank)
  bcast_S15_S1x15_1 : S15.BroadcastsInDim S1x15 (![1] : Fin 1 → Fin S1x15.rank)
  bcast_S1x15_S1600000x15_0_1 : S1x15.BroadcastsInDim S1600000x15 (![0, 1] : Fin 2 → Fin S1600000x15.rank)
  concatenates_S1600000x3_S1600000x15_S1600000x18_d1 : Shape.Concatenates [S1600000x3, S1600000x15] S1600000x18 1
  bcast_S_S100000x15 : S_.BroadcastsInDim S100000x15 (![] : Fin 0 → Fin S100000x15.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x15_0_1 : S100000x1.BroadcastsInDim S100000x15 (![0, 1] : Fin 2 → Fin S100000x15.rank)
  bcast_S_S512x15 : S_.BroadcastsInDim S512x15 (![] : Fin 0 → Fin S512x15.rank)
  bcast_S100000_S100000x1_0 : S100000.BroadcastsInDim S100000x1 (![0] : Fin 1 → Fin S100000x1.rank)
  bcast_S_S512x1 : S_.BroadcastsInDim S512x1 (![] : Fin 0 → Fin S512x1.rank)
  bcast_S512x1_S512x15_0_1 : S512x1.BroadcastsInDim S512x15 (![0, 1] : Fin 2 → Fin S512x15.rank)
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  reducesTo_S512x10_S10_d0 : S512x10.ReducesTo [0] S10
  h_S_ : 0 < S_.numel
  bcast_S_S10 : S_.BroadcastsInDim S10 (![] : Fin 0 → Fin S10.rank)
  bcast_S_S1x10 : S_.BroadcastsInDim S1x10 (![] : Fin 0 → Fin S1x10.rank)
  bcast_S_S512x10 : S_.BroadcastsInDim S512x10 (![] : Fin 0 → Fin S512x10.rank)
  bcast_S6_S1x6_1 : S6.BroadcastsInDim S1x6 (![1] : Fin 1 → Fin S1x6.rank)
  bcast_S1x6_S512x6_0_1 : S1x6.BroadcastsInDim S512x6 (![0, 1] : Fin 2 → Fin S512x6.rank)
  reducesTo_S512x6_S512_d1 : S512x6.ReducesTo [1] S512
  bcast_S_S512 : S_.BroadcastsInDim S512 (![] : Fin 0 → Fin S512.rank)
  bcast_S512_S512x1_0 : S512.BroadcastsInDim S512x1 (![0] : Fin 1 → Fin S512x1.rank)
  bcast_S512x1_S512x6_0_1 : S512x1.BroadcastsInDim S512x6 (![0, 1] : Fin 2 → Fin S512x6.rank)
  gather_S100000x3_S1600000x1_S1600000x3_1_0_n_n_0_1_13_wf : GatherDims.WF S100000x3 S1600000x1 S1600000x3 [1] [0] [] [0] [] 1 ![1, 3]
  dot_S1600000x9_S9x50_S1600000x50_1_0_0_1_n_n_wf : DotDims.WF S1600000x9 S9x50 S1600000x50 [1] [0] [0] [1] [] []
  dot_S1600000x50_S50x15_S1600000x15_1_0_0_1_n_n_wf : DotDims.WF S1600000x50 S50x15 S1600000x15 [1] [0] [0] [1] [] []
  dot_S1600000x18_S18x50_S1600000x50_1_0_0_1_n_n_wf : DotDims.WF S1600000x18 S18x50 S1600000x50 [1] [0] [0] [1] [] []
  scatter_S100000x15_S1600000x1_S1600000x15_1_0_0_1_wf : ScatterDims.WF S100000x15 S1600000x1 S1600000x15 [1] [0] [0] 1
  scatter_S100000x1_S1600000x1_S1600000x1_1_0_0_1_wf : ScatterDims.WF S100000x1 S1600000x1 S1600000x1 [1] [0] [0] 1
  scatter_S512x15_S100000x1_S100000x15_1_0_0_1_wf : ScatterDims.WF S512x15 S100000x1 S100000x15 [1] [0] [0] 1
  scatter_S512x1_S100000x1_S100000x1_1_0_0_1_wf : ScatterDims.WF S512x1 S100000x1 S100000x1 [1] [0] [0] 1
  dot_S512x15_S15x10_S512x10_1_0_0_1_n_n_wf : DotDims.WF S512x15 S15x10 S512x10 [1] [0] [0] [1] [] []
  dot_S512x10_S10x6_S512x6_1_0_0_1_n_n_wf : DotDims.WF S512x10 S10x6 S512x6 [1] [0] [0] [1] [] []

variable [Facts₀]

def gather_S100000x3_S1600000x1_S1600000x3_1_0_n_n_0_1_13 : GatherDims S100000x3 S1600000x1 S1600000x3 where
  offsetDims := [1]
  collapsedSliceDims := [0]
  operandBatchingDims := []
  startIndicesBatchingDims := []
  startIndexMap := [0]
  indexVectorDim := 1
  sliceSizes := ![1, 3]
  wf := gather_S100000x3_S1600000x1_S1600000x3_1_0_n_n_0_1_13_wf
def dot_S1600000x9_S9x50_S1600000x50_1_0_0_1_n_n : DotDims S1600000x9 S9x50 S1600000x50 where
  lhsContracting := [1]
  rhsContracting := [0]
  lhsNonContracting := [0]
  rhsNonContracting := [1]
  lhsBatch := []
  rhsBatch := []
  wf := dot_S1600000x9_S9x50_S1600000x50_1_0_0_1_n_n_wf
def dot_S1600000x50_S50x15_S1600000x15_1_0_0_1_n_n : DotDims S1600000x50 S50x15 S1600000x15 where
  lhsContracting := [1]
  rhsContracting := [0]
  lhsNonContracting := [0]
  rhsNonContracting := [1]
  lhsBatch := []
  rhsBatch := []
  wf := dot_S1600000x50_S50x15_S1600000x15_1_0_0_1_n_n_wf
def dot_S1600000x18_S18x50_S1600000x50_1_0_0_1_n_n : DotDims S1600000x18 S18x50 S1600000x50 where
  lhsContracting := [1]
  rhsContracting := [0]
  lhsNonContracting := [0]
  rhsNonContracting := [1]
  lhsBatch := []
  rhsBatch := []
  wf := dot_S1600000x18_S18x50_S1600000x50_1_0_0_1_n_n_wf
def scatter_S100000x15_S1600000x1_S1600000x15_1_0_0_1 : ScatterDims S100000x15 S1600000x1 S1600000x15 where
  updateWindowDims := [1]
  insertedWindowDims := [0]
  scatterDimsToOperandDims := [0]
  indexVectorDim := 1
  wf := scatter_S100000x15_S1600000x1_S1600000x15_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def scatter_S512x15_S100000x1_S100000x15_1_0_0_1 : ScatterDims S512x15 S100000x1 S100000x15 where
  updateWindowDims := [1]
  insertedWindowDims := [0]
  scatterDimsToOperandDims := [0]
  indexVectorDim := 1
  wf := scatter_S512x15_S100000x1_S100000x15_1_0_0_1_wf
def scatter_S512x1_S100000x1_S100000x1_1_0_0_1 : ScatterDims S512x1 S100000x1 S100000x1 where
  updateWindowDims := [1]
  insertedWindowDims := [0]
  scatterDimsToOperandDims := [0]
  indexVectorDim := 1
  wf := scatter_S512x1_S100000x1_S100000x1_1_0_0_1_wf
def dot_S512x15_S15x10_S512x10_1_0_0_1_n_n : DotDims S512x15 S15x10 S512x10 where
  lhsContracting := [1]
  rhsContracting := [0]
  lhsNonContracting := [0]
  rhsNonContracting := [1]
  lhsBatch := []
  rhsBatch := []
  wf := dot_S512x15_S15x10_S512x10_1_0_0_1_n_n_wf
def dot_S512x10_S10x6_S512x6_1_0_0_1_n_n : DotDims S512x10 S10x6 S512x6 where
  lhsContracting := [1]
  rhsContracting := [0]
  lhsNonContracting := [0]
  rhsNonContracting := [1]
  lhsBatch := []
  rhsBatch := []
  wf := dot_S512x10_S10x6_S512x6_1_0_0_1_n_n_wf

class Facts : Prop extends Facts₀ where

variable [Facts]
-- ==== Proof.KFrameBitsDefs.lean ====
/- The frame of the program around its one kernel region, first part: the shared definitions.
   The region's twelve windows stage eleven host-computed input arrays and one output array. This module
   names the buffer contents when the region is entered (the host operations before it folded over the launch
   memory), each window's block at a grid point read off those contents, the one whole-block value the kernel
   body stores into the output window at a point as a function of the eleven input blocks, and the pipeline's
   proof data built from them: inputs keep their blocks, the output buffer ends each point at that value. -/
import proofs.«124959_j86397562127205_2_alg».proof.Proof.Gen.Kernel.Launch
import proofs.«124959_j86397562127205_2_alg».proof.Proof.Gen.Kernel.Skeleton
import proofs.«124959_j86397562127205_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations after the region, stretch by stretch -/

/-- The six stretches of host operations after the region, in program order. -/
abbrev tailOps : List (List (HloOp τ sig (Elt F))) := [hostOps1, hostOps1_1, hostOps1_2, hostOps1_3, hostOps1_4, hostOps1_5]

/-! ## The contents the region finds -/

/-- Core `c`'s buffer contents when the region is entered: the launch memory after the host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses: every load and the one store take a whole block -/

abbrev rA : Rect S3x16000 := Rect.unit (s := S3x16000) ![0, 0] S3x16000.size inb_S3x16000_S3x16000_0_0
abbrev rB : Rect S50x9 := Rect.unit (s := S50x9) ![0, 0] S50x9.size inb_S50x9_S50x9_0_0
abbrev rC : Rect S50x1 := Rect.unit (s := S50x1) ![0, 0] S50x1.size inb_S50x1_S50x1_0_0
abbrev rD : Rect S15x50 := Rect.unit (s := S15x50) ![0, 0] S15x50.size inb_S15x50_S15x50_0_0
abbrev rE : Rect S15x1 := Rect.unit (s := S15x1) ![0, 0] S15x1.size inb_S15x1_S15x1_0_0
abbrev rG : Rect S50x18 := Rect.unit (s := S50x18) ![0, 0] S50x18.size inb_S50x18_S50x18_0_0
abbrev rOut : Rect S15x16000 := Rect.unit (s := S15x16000) ![0, 0] S15x16000.size inb_S15x16000_S15x16000_0_0

/-! ## What the body leaves in the output window's buffer -/

/-- The output window's staging buffer after the body, from the eleven input blocks: its one whole-block store of the
    second two-layer message over the first one, as a single covering piece. -/
def msgBlock (x0 : Vec F S3x16000 .f32) (x1 : Vec F S3x16000 .f32) (x2 : Vec F S3x16000 .f32) (x3 : Vec F S50x9 .f32) (x4 : Vec F S50x1 .f32) (x5 : Vec F S15x50 .f32) (x6 : Vec F S15x1 .f32) (x7 : Vec F S50x18 .f32) (x8 : Vec F S50x1 .f32) (x9 : Vec F S15x50 .f32) (x10 : Vec F S15x1 .f32) : Vec F S15x16000 .f32 :=
  View.canon [⟨rOut, k0_pay1 (k0_pay2 (View.ld x7 rG)) (k0_pay3 (View.ld x9 rD))
    (k0_pay4 (View.ld x0 rA) (View.ld x1 rA) (View.ld x2 rA) (View.ld x3 rB) (View.ld x5 rD) (View.ld x4 rC) (View.ld x6 rE))
    (constant S50x16000 .f32 0x00000000#32) (View.ld x8 rC) (View.ld x10 rE)⟩]

/-- The one store tiles the buffer, so it covers it. -/
theorem cover_out (p0 : Vec F S15x16000 .f32) (y : S15x16000.Idx) :
    ∃ pc ∈ ([⟨rOut, p0⟩] : List (View.Piece (Elt F) S15x16000 .f32)), y ∈ pc.1.set :=
  View.cover_of_tiled [⟨rOut, p0⟩] S15x16000.size (by rfl) y

/-! ## The pipeline's proof data -/

/-- The proof data of the one pipeline on core `c`: the arrays as the region finds them; after the body at point `t`
    each input's buffer at its block and the output's at `msgBlock` of the input blocks; the invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => msgBlock (iblk m c 0 t) (iblk m c 1 t) (iblk m c 2 t) (iblk m c 3 t) (iblk m c 4 t) (iblk m c 5 t) (iblk m c 6 t) (iblk m c 7 t) (iblk m c 8 t) (iblk m c 9 t) (iblk m c 10 t)
  Φ _ := Pipeline.ΦA spec0 c
  q _ := fullShare
  owed _ := 0

/-- The proof data's arrays are the region-entry contents (the definition projected; the fold over the host prefix
    is never unfolded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after_out (c : Dev nD) (t : Fin cfg0.N) : (dats m 0 c).after 11 t = msgBlock (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]

end Cert.Kernel.Frame

end
-- ==== Proof.KFrameBitsBody.lean ====
/- The frame of the program around its one kernel region, second part: the kernel body's triple.
   On whole staging buffers, the eleven inputs held at given contents and the output held at anything, the body
   runs without fault to a state holding the inputs as they were and the output buffer at the single whole-block
   value it stores (the loads read whole blocks; the one load of the output buffer is unused; the one store covers
   the buffer). -/
import proofs.«124959_j86397562127205_2_alg».proof.Proof.KFrameBitsDefs

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The kernel body on whole staging memrefs, the inputs' at read contents `xW` and the output's at anything, runs to
    the continuation holding the inputs' as they were and the output's at `msgBlock` of the inputs'. -/
theorem sound_kernel (c : Dev nD) (E : Set ℕ) (i : grid0.Coords) (arg1 : Memref sig .tc .vmem S3x16000 .f32) (harg1 : arg1.IsWhole) (arg2 : Memref sig .tc .vmem S3x16000 .f32) (harg2 : arg2.IsWhole) (arg3 : Memref sig .tc .vmem S3x16000 .f32) (harg3 : arg3.IsWhole) (arg4 : Memref sig .tc .vmem S50x9 .f32) (harg4 : arg4.IsWhole) (arg5 : Memref sig .tc .vmem S50x1 .f32) (harg5 : arg5.IsWhole) (arg6 : Memref sig .tc .vmem S15x50 .f32) (harg6 : arg6.IsWhole) (arg7 : Memref sig .tc .vmem S15x1 .f32) (harg7 : arg7.IsWhole) (arg8 : Memref sig .tc .vmem S50x18 .f32) (harg8 : arg8.IsWhole) (arg9 : Memref sig .tc .vmem S50x1 .f32) (harg9 : arg9.IsWhole) (arg10 : Memref sig .tc .vmem S15x50 .f32) (harg10 : arg10.IsWhole) (arg11 : Memref sig .tc .vmem S15x1 .f32) (harg11 : arg11.IsWhole) (arg12 : Memref sig .tc .vmem S15x16000 .f32) (harg12 : arg12.IsWhole)
    (x0 : Vec F S3x16000 .f32) (x1 : Vec F S3x16000 .f32) (x2 : Vec F S3x16000 .f32) (x3 : Vec F S50x9 .f32) (x4 : Vec F S50x1 .f32) (x5 : Vec F S15x50 .f32) (x6 : Vec F S15x1 .f32) (x7 : Vec F S50x18 .f32) (x8 : Vec F S50x1 .f32) (x9 : Vec F S15x50 .f32) (x10 : Vec F S15x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (msgBlock x0 x1 x2 x3 x4 x5 x6 x7 x8 x9 x10)) -∗ K ⟨⟩))
      ⊢ wp frame (wpE (defs₀ (F := F)) Variants.none c none) E (cc0__edge_node_kernel i arg1 harg1 arg2 harg2 arg3 harg3 arg4 harg4 arg5 harg5 arg6 harg6 arg7 harg7 arg8 harg8 arg9 harg9 arg10 harg10 arg11 harg11 arg12 harg12) K := by
  simp only [cc0__edge_node_kernel_eq_skeleton]; unfold cc0__edge_node_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  exact View.read_writes_eq_canon _ _ _ (cover_out _)

end Cert.Kernel.Frame

end
-- ==== Proof.KFrameBitsHost.lean ====
/- The frame of the program around its one kernel region, third part: the host operations around the region.
   Before the region one stretch of host operations runs, after it six; each operation writes exactly its own result
   buffer and allocates nothing. Listing the result buffers of the prefix and of the tail once, a buffer outside the
   list is left as it was: so no argument array is written before or after the region, and no array a window stages is
   written after it. With the program read as the chain prefix, region, tail, this gives the launch theorem's
   hypotheses about the lines around the region. -/
import proofs.«124959_j86397562127205_2_alg».proof.Proof.KFrameBitsDefs

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## No host operation allocates -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor

/-! ## The buffers the host operations write -/

/-- The result buffers of the host operations before the region, in order. -/
def headW : List (Ref sig .tc) := [
    main_v0, main_v1, main_v2, main_v3, main_c, main_v4, main_v5, main_c_0,
    main_v6, main_v7, main_v8, main_v9, main_v10, main_c_1, main_v11, main_v12,
    main_c_2, main_v13, main_v14, main_v15, main_v16, main_v17, main_v18, main_v19,
    main_v20, main_v21, main_v22, main_v23, main_v24, main_v25, main_v26, main_v27,
    main_v28 ]

/-- The result buffers of the host operations after the region, in order, the six stretches one after the other. -/
def tailW : List (Ref sig .tc) := [
    main_v30, main_cst, main_v31, main_v32, main_v33, main_cst_3, main_v34, main_cst_4,
    main_v35, main_v36, main_v37, main_cst_5, main_v38, main_v39, main_v40, main_v41,
    main_cst_6, main_v42, main_v43, main_v44, main_cst_7, main_v45, main_cst_8, main_v46,
    main_v47, main_v48, main_cst_9, main_v49, main_v50, main_v51, main_v52, main_v53,
    main_v54, main_v55, main_v56, main_cst_10, main_v57, main_cst_11, main_v58, main_v59,
    main_c_12, main_call0_cst, main_call0_v0, main_call0_v1, main_call0_cst_0, main_call0_v2, main_call0_v3, main_call0_v4,
    main_call0_v5, main_call0_v6, main_call0_v7, main_call0_cst_1, main_call0_v8, main_call0_cst_2, main_call0_v9, main_call0_v10,
    main_call0_v11, main_call0_cst_3, main_call0_v12, main_call0_cst_4, main_call0_call0_v0, main_call0_call0_v1, main_v60, main_v61,
    main_v62, main_v63, main_v64, main_v65, main_v66, main_cst_13, main_v67, main_v68,
    main_v69, main_v70, main_v71, main_v72, main_v73, main_v74, main_v75, main_call1_cst,
    main_call1_v0, main_v76, main_v77, main_v78, main_v79, main_v80, main_call2_cst, main_call2_v0,
    main_call2_cst_0, main_call2_v1, main_call2_v2, main_call2_v3, main_call2_v4, main_call2_v5, main_call2_v6, main_call2_cst_1,
    main_call2_v7, main_call2_v8, main_call2_v9, main_call2_v10, main_v81 ]

/-- A single written buffer that is on a list lies in the list's image. -/
theorem writes_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, h, rfl⟩))

set_option maxHeartbeats 4000000 in
/-- Every host operation before the region writes a buffer of `headW`. -/
theorem head_writes : (List.flatten [(hostOps0 : List (HloOp τ sig (Elt F)))]).Forall fun op =>
    op.writes ⊆ (headW.map (Proc.devRef (τ := τ) .tc)).toFinset := by
  simp only [hostOps0, List.flatten_cons, List.flatten_nil, List.append_nil, List.cons_append, List.nil_append, List.Forall,
    StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes]
  repeat' apply And.intro
  all_goals exact writes_sub_of_mem (by decide)

set_option maxHeartbeats 4000000 in
/-- Every host operation after the region writes a buffer of `tailW`. -/
theorem tail_writes : (List.flatten (tailOps : List (List (HloOp τ sig (Elt F))))).Forall fun op =>
    op.writes ⊆ (tailW.map (Proc.devRef (τ := τ) .tc)).toFinset := by
  simp only [tailOps, hostOps1, hostOps1_1, hostOps1_2, hostOps1_3, hostOps1_4, hostOps1_5, List.flatten_cons, List.flatten_nil, List.append_nil, List.cons_append, List.nil_append, List.Forall,
    StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes]
  repeat' apply And.intro
  all_goals exact writes_sub_of_mem (by decide)

/-- A buffer no host operation before the region writes is found by the region as launched. -/
theorem V_of (c : Dev nD) (b : Ref sig .tc) (hb : b ∉ headW) : V m c b = m ((c : Thread nD τ).loc b) :=
  StableHlo.after_of_writes_sub (r := b) _ _ head_writes hb

/-- A buffer that no window stages and no host operation after the region writes ends as the region found it. -/
theorem W_of (dats : (p : Fin 1) → (c : Dev nD) → Dat τ (Elt F) Unit ℕ (UR sig nD τ) ℕ (cfgs p) c) (c : Dev nD)
    (b : Ref sig .tc) (hb : b ∉ tailW) (ha : ∀ w, Pipeline.arrRef spec0 w ≠ b) :
    Pipeline.afterTail₀ cfgs dats 0 (V0 m) tailOps c b = V m c b := by
  unfold Pipeline.afterTail₀
  rw [StableHlo.after_of_writes_sub (r := b) _ _ tail_writes hb,
    Pipeline.withArrays_of_ne _ c (V0 m c) _ b (by exact ha)]

/-! ## The program around the region -/

/-- The program is the host prefix, the region, the six tail stretches: it reduces to the region continued by the tail. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps : List (List (HloOp τ sig (Elt F)))).map StableHlo.seq)) :=
  Pipeline.hmain_around cfgs 0 defs₀ 𝒱₀ m main [hostOps0] tailOps (by simp only [List.Forall]; exact hostOps0_sub)
    (by simp only [List.Forall]; exact hostOps0_fresh) main_chain

/-- The operations after the region touch unscoped TensorCore buffers only: the pipeline's arrays and the bypassing ones. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)

/-- They allocate nothing. -/
theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop

/-- And write no array of the pipeline: each writes a buffer of `tailW`, and no window's array is on that list. -/
theorem sfx_keeps : ∀ ops ∈ (tailOps : List (List (HloOp τ sig (Elt F)))), ∀ op ∈ ops,
    ∀ w, Proc.devRef .tc (Pipeline.arrRef spec0 w) ∉ op.writes := by
  intro ops hops op hop w hb
  have h := (List.forall_iff_forall_mem.mp tail_writes) op (List.mem_flatten.mpr ⟨ops, hops, hop⟩) hb
  obtain ⟨y, hy, he⟩ := List.mem_map.mp (List.mem_toFinset.mp h)
  exact (by decide : ∀ w, Pipeline.arrRef spec0 w ∉ tailW) w (Proc.devRef_injective _ he ▸ hy)

/-! ## The argument arrays -/

/-- No host operation before the region writes `main_arg0`. -/
theorem V_main_arg0 (c : Dev nD) : V m c main_arg0 = m ((c : Thread nD τ).loc main_arg0) := V_of m c main_arg0 (by decide)
/-- No window stages `main_arg0` and no host operation after the region writes it. -/
theorem W_main_arg0_of (dats : (p : Fin 1) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) :=
  (W_of m dats c main_arg0 (by decide) (by decide)).trans (V_main_arg0 m c)
/-- No host operation before the region writes `main_arg1`. -/
theorem V_main_arg1 (c : Dev nD) : V m c main_arg1 = m ((c : Thread nD τ).loc main_arg1) := V_of m c main_arg1 (by decide)
/-- No window stages `main_arg1` and no host operation after the region writes it. -/
theorem W_main_arg1_of (dats : (p : Fin 1) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) :=
  (W_of m dats c main_arg1 (by decide) (by decide)).trans (V_main_arg1 m c)
/-- No host operation before the region writes `main_arg2`. -/
theorem V_main_arg2 (c : Dev nD) : V m c main_arg2 = m ((c : Thread nD τ).loc main_arg2) := V_of m c main_arg2 (by decide)
/-- No window stages `main_arg2` and no host operation after the region writes it. -/
theorem W_main_arg2_of (dats : (p : Fin 1) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) :=
  (W_of m dats c main_arg2 (by decide) (by decide)).trans (V_main_arg2 m c)
/-- No host operation before the region writes `main_arg3`. -/
theorem V_main_arg3 (c : Dev nD) : V m c main_arg3 = m ((c : Thread nD τ).loc main_arg3) := V_of m c main_arg3 (by decide)
/-- No window stages `main_arg3` and no host operation after the region writes it. -/
theorem W_main_arg3_of (dats : (p : Fin 1) → (c : Dev nD) → Dat τ (Elt F) Unit ℕ (UR sig nD τ) ℕ (cfgs p) c) (c : Dev nD) :
    Pipeline.afterTail₀ cfgs dats 0 (V0 m) tailOps c main_arg3 = m ((c : Thread nD τ).loc main_arg3) :=
  (W_of m dats c main_arg3 (by decide) (by decide)).trans (V_main_arg3 m c)
/-- No host operation before the region writes `main_arg4`. -/
theorem V_main_arg4 (c : Dev nD) : V m c main_arg4 = m ((c : Thread nD τ).loc main_arg4) := V_of m c main_arg4 (by decide)
/-- No window stages `main_arg4` and no host operation after the region writes it. -/
theorem W_main_arg4_of (dats : (p : Fin 1) → (c : Dev nD) → Dat τ (Elt F) Unit ℕ (UR sig nD τ) ℕ (cfgs p) c) (c : Dev nD) :
    Pipeline.afterTail₀ cfgs dats 0 (V0 m) tailOps c main_arg4 = m ((c : Thread nD τ).loc main_arg4) :=
  (W_of m dats c main_arg4 (by decide) (by decide)).trans (V_main_arg4 m c)
/-- No host operation before the region writes `main_arg5`. -/
theorem V_main_arg5 (c : Dev nD) : V m c main_arg5 = m ((c : Thread nD τ).loc main_arg5) := V_of m c main_arg5 (by decide)
/-- No window stages `main_arg5` and no host operation after the region writes it. -/
theorem W_main_arg5_of (dats : (p : Fin 1) → (c : Dev nD) → Dat τ (Elt F) Unit ℕ (UR sig nD τ) ℕ (cfgs p) c) (c : Dev nD) :
    Pipeline.afterTail₀ cfgs dats 0 (V0 m) tailOps c main_arg5 = m ((c : Thread nD τ).loc main_arg5) :=
  (W_of m dats c main_arg5 (by decide) (by decide)).trans (V_main_arg5 m c)
/-- No host operation before the region writes `main_arg6`. -/
theorem V_main_arg6 (c : Dev nD) : V m c main_arg6 = m ((c : Thread nD τ).loc main_arg6) := V_of m c main_arg6 (by decide)
/-- No window stages `main_arg6` and no host operation after the region writes it. -/
theorem W_main_arg6_of (dats : (p : Fin 1) → (c : Dev nD) → Dat τ (Elt F) Unit ℕ (UR sig nD τ) ℕ (cfgs p) c) (c : Dev nD) :
    Pipeline.afterTail₀ cfgs dats 0 (V0 m) tailOps c main_arg6 = m ((c : Thread nD τ).loc main_arg6) :=
  (W_of m dats c main_arg6 (by decide) (by decide)).trans (V_main_arg6 m c)
/-- No host operation before the region writes `main_arg7`. -/
theorem V_main_arg7 (c : Dev nD) : V m c main_arg7 = m ((c : Thread nD τ).loc main_arg7) := V_of m c main_arg7 (by decide)
/-- No window stages `main_arg7` and no host operation after the region writes it. -/
theorem W_main_arg7_of (dats : (p : Fin 1) → (c : Dev nD) → Dat τ (Elt F) Unit ℕ (UR sig nD τ) ℕ (cfgs p) c) (c : Dev nD) :
    Pipeline.afterTail₀ cfgs dats 0 (V0 m) tailOps c main_arg7 = m ((c : Thread nD τ).loc main_arg7) :=
  (W_of m dats c main_arg7 (by decide) (by decide)).trans (V_main_arg7 m c)
/-- No host operation before the region writes `main_arg8`. -/
theorem V_main_arg8 (c : Dev nD) : V m c main_arg8 = m ((c : Thread nD τ).loc main_arg8) := V_of m c main_arg8 (by decide)
/-- No window stages `main_arg8` and no host operation after the region writes it. -/
theorem W_main_arg8_of (dats : (p : Fin 1) → (c : Dev nD) → Dat τ (Elt F) Unit ℕ (UR sig nD τ) ℕ (cfgs p) c) (c : Dev nD) :
    Pipeline.afterTail₀ cfgs dats 0 (V0 m) tailOps c main_arg8 = m ((c : Thread nD τ).loc main_arg8) :=
  (W_of m dats c main_arg8 (by decide) (by decide)).trans (V_main_arg8 m c)
/-- No host operation before the region writes `main_arg9`. -/
theorem V_main_arg9 (c : Dev nD) : V m c main_arg9 = m ((c : Thread nD τ).loc main_arg9) := V_of m c main_arg9 (by decide)
/-- No window stages `main_arg9` and no host operation after the region writes it. -/
theorem W_main_arg9_of (dats : (p : Fin 1) → (c : Dev nD) → Dat τ (Elt F) Unit ℕ (UR sig nD τ) ℕ (cfgs p) c) (c : Dev nD) :
    Pipeline.afterTail₀ cfgs dats 0 (V0 m) tailOps c main_arg9 = m ((c : Thread nD τ).loc main_arg9) :=
  (W_of m dats c main_arg9 (by decide) (by decide)).trans (V_main_arg9 m c)
/-- No host operation before the region writes `main_arg10`. -/
theorem V_main_arg10 (c : Dev nD) : V m c main_arg10 = m ((c : Thread nD τ).loc main_arg10) := V_of m c main_arg10 (by decide)
/-- No window stages `main_arg10` and no host operation after the region writes it. -/
theorem W_main_arg10_of (dats : (p : Fin 1) → (c : Dev nD) → Dat τ (Elt F) Unit ℕ (UR sig nD τ) ℕ (cfgs p) c) (c : Dev nD) :
    Pipeline.afterTail₀ cfgs dats 0 (V0 m) tailOps c main_arg10 = m ((c : Thread nD τ).loc main_arg10) :=
  (W_of m dats c main_arg10 (by decide) (by decide)).trans (V_main_arg10 m c)
/-- No host operation before the region writes `main_arg11`. -/
theorem V_main_arg11 (c : Dev nD) : V m c main_arg11 = m ((c : Thread nD τ).loc main_arg11) := V_of m c main_arg11 (by decide)
/-- No window stages `main_arg11` and no host operation after the region writes it. -/
theorem W_main_arg11_of (dats : (p : Fin 1) → (c : Dev nD) → Dat τ (Elt F) Unit ℕ (UR sig nD τ) ℕ (cfgs p) c) (c : Dev nD) :
    Pipeline.afterTail₀ cfgs dats 0 (V0 m) tailOps c main_arg11 = m ((c : Thread nD τ).loc main_arg11) :=
  (W_of m dats c main_arg11 (by decide) (by decide)).trans (V_main_arg11 m c)
/-- No host operation before the region writes `main_arg12`. -/
theorem V_main_arg12 (c : Dev nD) : V m c main_arg12 = m ((c : Thread nD τ).loc main_arg12) := V_of m c main_arg12 (by decide)
/-- No window stages `main_arg12` and no host operation after the region writes it. -/
theorem W_main_arg12_of (dats : (p : Fin 1) → (c : Dev nD) → Dat τ (Elt F) Unit ℕ (UR sig nD τ) ℕ (cfgs p) c) (c : Dev nD) :
    Pipeline.afterTail₀ cfgs dats 0 (V0 m) tailOps c main_arg12 = m ((c : Thread nD τ).loc main_arg12) :=
  (W_of m dats c main_arg12 (by decide) (by decide)).trans (V_main_arg12 m c)
/-- No host operation before the region writes `main_arg13`. -/
theorem V_main_arg13 (c : Dev nD) : V m c main_arg13 = m ((c : Thread nD τ).loc main_arg13) := V_of m c main_arg13 (by decide)
/-- No window stages `main_arg13` and no host operation after the region writes it. -/
theorem W_main_arg13_of (dats : (p : Fin 1) → (c : Dev nD) → Dat τ (Elt F) Unit ℕ (UR sig nD τ) ℕ (cfgs p) c) (c : Dev nD) :
    Pipeline.afterTail₀ cfgs dats 0 (V0 m) tailOps c main_arg13 = m ((c : Thread nD τ).loc main_arg13) :=
  (W_of m dats c main_arg13 (by decide) (by decide)).trans (V_main_arg13 m c)
/-- No host operation before the region writes `main_arg14`. -/
theorem V_main_arg14 (c : Dev nD) : V m c main_arg14 = m ((c : Thread nD τ).loc main_arg14) := V_of m c main_arg14 (by decide)
/-- No window stages `main_arg14` and no host operation after the region writes it. -/
theorem W_main_arg14_of (dats : (p : Fin 1) → (c : Dev nD) → Dat τ (Elt F) Unit ℕ (UR sig nD τ) ℕ (cfgs p) c) (c : Dev nD) :
    Pipeline.afterTail₀ cfgs dats 0 (V0 m) tailOps c main_arg14 = m ((c : Thread nD τ).loc main_arg14) :=
  (W_of m dats c main_arg14 (by decide) (by decide)).trans (V_main_arg14 m c)
/-- No host operation before the region writes `main_arg15`. -/
theorem V_main_arg15 (c : Dev nD) : V m c main_arg15 = m ((c : Thread nD τ).loc main_arg15) := V_of m c main_arg15 (by decide)
/-- No window stages `main_arg15` and no host operation after the region writes it. -/
theorem W_main_arg15_of (dats : (p : Fin 1) → (c : Dev nD) → Dat τ (Elt F) Unit ℕ (UR sig nD τ) ℕ (cfgs p) c) (c : Dev nD) :
    Pipeline.afterTail₀ cfgs dats 0 (V0 m) tailOps c main_arg15 = m ((c : Thread nD τ).loc main_arg15) :=
  (W_of m dats c main_arg15 (by decide) (by decide)).trans (V_main_arg15 m c)
/-- No host operation before the region writes `main_arg16`. -/
theorem V_main_arg16 (c : Dev nD) : V m c main_arg16 = m ((c : Thread nD τ).loc main_arg16) := V_of m c main_arg16 (by decide)
/-- No window stages `main_arg16` and no host operation after the region writes it. -/
theorem W_main_arg16_of (dats : (p : Fin 1) → (c : Dev nD) → Dat τ (Elt F) Unit ℕ (UR sig nD τ) ℕ (cfgs p) c) (c : Dev nD) :
    Pipeline.afterTail₀ cfgs dats 0 (V0 m) tailOps c main_arg16 = m ((c : Thread nD τ).loc main_arg16) :=
  (W_of m dats c main_arg16 (by decide) (by decide)).trans (V_main_arg16 m c)
/-- No host operation before the region writes `main_arg17`. -/
theorem V_main_arg17 (c : Dev nD) : V m c main_arg17 = m ((c : Thread nD τ).loc main_arg17) := V_of m c main_arg17 (by decide)
/-- No window stages `main_arg17` and no host operation after the region writes it. -/
theorem W_main_arg17_of (dats : (p : Fin 1) → (c : Dev nD) → Dat τ (Elt F) Unit ℕ (UR sig nD τ) ℕ (cfgs p) c) (c : Dev nD) :
    Pipeline.afterTail₀ cfgs dats 0 (V0 m) tailOps c main_arg17 = m ((c : Thread nD τ).loc main_arg17) :=
  (W_of m dats c main_arg17 (by decide) (by decide)).trans (V_main_arg17 m c)

end Cert.Kernel.Frame

end
-- ==== Proof.KFrameBits.lean ====
/- The frame of the program around its one kernel region: the run and the frame claim.
   Each input window's staging buffer holds its block at every grid point, fetched there or not; so the kernel body's
   triple gives the pipeline's body obligation at every point. The launch theorem for a program that continues after its
   region with host operations then says: every fair execution terminates without fault, each array a window stages
   ends at what the proof data computes, and every other unscoped buffer ends as the operations after the region leave
   it. No operation before or after the region writes an argument array and no window stages one: the eighteen
   argument arrays end as launched. -/
import proofs.«124959_j86397562127205_2_alg».proof.Proof.KFrameBitsDefs
import proofs.«124959_j86397562127205_2_alg».proof.Proof.KFrameBitsBody
import proofs.«124959_j86397562127205_2_alg».proof.Proof.KFrameBitsHost

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Each input's staging buffer holds its block at every point

For any proof data whose array is the region-entry contents and whose body leaves the block in place: at a point that
fetches the window the buffer holds the fetched block; at a point that does not, the block index has not moved since the
point before. The windows are uncut and never idle. -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The argument arrays at the end, for this proof data -/

theorem W_main_arg0 (c : Dev nD) : Pipeline.afterTail₀ cfgs (dats m) 0 (V0 m) tailOps c main_arg0 = m ((c : Thread nD τ).loc main_arg0) :=
  W_main_arg0_of m (dats m) c
theorem W_main_arg1 (c : Dev nD) : Pipeline.afterTail₀ cfgs (dats m) 0 (V0 m) tailOps c main_arg1 = m ((c : Thread nD τ).loc main_arg1) :=
  W_main_arg1_of m (dats m) c
theorem W_main_arg2 (c : Dev nD) : Pipeline.afterTail₀ cfgs (dats m) 0 (V0 m) tailOps c main_arg2 = m ((c : Thread nD τ).loc main_arg2) :=
  W_main_arg2_of m (dats m) c
theorem W_main_arg3 (c : Dev nD) : Pipeline.afterTail₀ cfgs (dats m) 0 (V0 m) tailOps c main_arg3 = m ((c : Thread nD τ).loc main_arg3) :=
  W_main_arg3_of m (dats m) c
theorem W_main_arg4 (c : Dev nD) : Pipeline.afterTail₀ cfgs (dats m) 0 (V0 m) tailOps c main_arg4 = m ((c : Thread nD τ).loc main_arg4) :=
  W_main_arg4_of m (dats m) c
theorem W_main_arg5 (c : Dev nD) : Pipeline.afterTail₀ cfgs (dats m) 0 (V0 m) tailOps c main_arg5 = m ((c : Thread nD τ).loc main_arg5) :=
  W_main_arg5_of m (dats m) c
theorem W_main_arg6 (c : Dev nD) : Pipeline.afterTail₀ cfgs (dats m) 0 (V0 m) tailOps c main_arg6 = m ((c : Thread nD τ).loc main_arg6) :=
  W_main_arg6_of m (dats m) c
theorem W_main_arg7 (c : Dev nD) : Pipeline.afterTail₀ cfgs (dats m) 0 (V0 m) tailOps c main_arg7 = m ((c : Thread nD τ).loc main_arg7) :=
  W_main_arg7_of m (dats m) c
theorem W_main_arg8 (c : Dev nD) : Pipeline.afterTail₀ cfgs (dats m) 0 (V0 m) tailOps c main_arg8 = m ((c : Thread nD τ).loc main_arg8) :=
  W_main_arg8_of m (dats m) c
theorem W_main_arg9 (c : Dev nD) : Pipeline.afterTail₀ cfgs (dats m) 0 (V0 m) tailOps c main_arg9 = m ((c : Thread nD τ).loc main_arg9) :=
  W_main_arg9_of m (dats m) c
theorem W_main_arg10 (c : Dev nD) : Pipeline.afterTail₀ cfgs (dats m) 0 (V0 m) tailOps c main_arg10 = m ((c : Thread nD τ).loc main_arg10) :=
  W_main_arg10_of m (dats m) c
theorem W_main_arg11 (c : Dev nD) : Pipeline.afterTail₀ cfgs (dats m) 0 (V0 m) tailOps c main_arg11 = m ((c : Thread nD τ).loc main_arg11) :=
  W_main_arg11_of m (dats m) c
theorem W_main_arg12 (c : Dev nD) : Pipeline.afterTail₀ cfgs (dats m) 0 (V0 m) tailOps c main_arg12 = m ((c : Thread nD τ).loc main_arg12) :=
  W_main_arg12_of m (dats m) c
theorem W_main_arg13 (c : Dev nD) : Pipeline.afterTail₀ cfgs (dats m) 0 (V0 m) tailOps c main_arg13 = m ((c : Thread nD τ).loc main_arg13) :=
  W_main_arg13_of m (dats m) c
theorem W_main_arg14 (c : Dev nD) : Pipeline.afterTail₀ cfgs (dats m) 0 (V0 m) tailOps c main_arg14 = m ((c : Thread nD τ).loc main_arg14) :=
  W_main_arg14_of m (dats m) c
theorem W_main_arg15 (c : Dev nD) : Pipeline.afterTail₀ cfgs (dats m) 0 (V0 m) tailOps c main_arg15 = m ((c : Thread nD τ).loc main_arg15) :=
  W_main_arg15_of m (dats m) c
theorem W_main_arg16 (c : Dev nD) : Pipeline.afterTail₀ cfgs (dats m) 0 (V0 m) tailOps c main_arg16 = m ((c : Thread nD τ).loc main_arg16) :=
  W_main_arg16_of m (dats m) c
theorem W_main_arg17 (c : Dev nD) : Pipeline.afterTail₀ cfgs (dats m) 0 (V0 m) tailOps c main_arg17 = m ((c : Thread nD τ).loc main_arg17) :=
  W_main_arg17_of m (dats m) c

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

set_option maxHeartbeats 4000000 in
/-- The body at any point: the inputs' memrefs hold their blocks, so the body's triple applies; the invariant and
    the core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding plain
-- definitions in a metavariable's type
set_option backward.isDefEq.respectTransparency.types false in
/-- At the compiled mesh, for any values, from any memory with zero counters: every weakly fair execution of the program on
    the TensorCores terminates, and every final state has every array of the pipeline at what the library computes from the
    proof data and every other unscoped buffer as the operations after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- info: 'Cert.Kernel.Frame.run_main' depends on axioms: [propext, Classical.choice, Quot.sound] -/
#guard_msgs in #print axioms run_main

/-- THE FRAME: the program runs to the end, faults nowhere, and its eighteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => ⟨((h c).2 main_arg0 (Pipeline.mem_restRefs_of main_arg0 (by decide) (by decide))).trans (W_main_arg0 m c),
      ((h c).2 main_arg1 (Pipeline.mem_restRefs_of main_arg1 (by decide) (by decide))).trans (W_main_arg1 m c),
      ((h c).2 main_arg2 (Pipeline.mem_restRefs_of main_arg2 (by decide) (by decide))).trans (W_main_arg2 m c),
      ((h c).2 main_arg3 (Pipeline.mem_restRefs_of main_arg3 (by decide) (by decide))).trans (W_main_arg3 m c),
      ((h c).2 main_arg4 (Pipeline.mem_restRefs_of main_arg4 (by decide) (by decide))).trans (W_main_arg4 m c),
      ((h c).2 main_arg5 (Pipeline.mem_restRefs_of main_arg5 (by decide) (by decide))).trans (W_main_arg5 m c),
      ((h c).2 main_arg6 (Pipeline.mem_restRefs_of main_arg6 (by decide) (by decide))).trans (W_main_arg6 m c),
      ((h c).2 main_arg7 (Pipeline.mem_restRefs_of main_arg7 (by decide) (by decide))).trans (W_main_arg7 m c),
      ((h c).2 main_arg8 (Pipeline.mem_restRefs_of main_arg8 (by decide) (by decide))).trans (W_main_arg8 m c),
      ((h c).2 main_arg9 (Pipeline.mem_restRefs_of main_arg9 (by decide) (by decide))).trans (W_main_arg9 m c),
      ((h c).2 main_arg10 (Pipeline.mem_restRefs_of main_arg10 (by decide) (by decide))).trans (W_main_arg10 m c),
      ((h c).2 main_arg11 (Pipeline.mem_restRefs_of main_arg11 (by decide) (by decide))).trans (W_main_arg11 m c),
      ((h c).2 main_arg12 (Pipeline.mem_restRefs_of main_arg12 (by decide) (by decide))).trans (W_main_arg12 m c),
      ((h c).2 main_arg13 (Pipeline.mem_restRefs_of main_arg13 (by decide) (by decide))).trans (W_main_arg13 m c),
      ((h c).2 main_arg14 (Pipeline.mem_restRefs_of main_arg14 (by decide) (by decide))).trans (W_main_arg14 m c),
      ((h c).2 main_arg15 (Pipeline.mem_restRefs_of main_arg15 (by decide) (by decide))).trans (W_main_arg15 m c),
      ((h c).2 main_arg16 (Pipeline.mem_restRefs_of main_arg16 (by decide) (by decide))).trans (W_main_arg16 m c),
      ((h c).2 main_arg17 (Pipeline.mem_restRefs_of main_arg17 (by decide) (by decide))).trans (W_main_arg17 m c)⟩) (run_main m ρ)

end Cert.Kernel.Frame

end
-- ==== Proof.KFrameDefs.lean ====
/- The frame of the program around its one kernel region, first part: the shared definitions.
   The region's twelve windows stage eleven host-computed input arrays and one output array. This module
   names the buffer contents when the region is entered (the host operations before it folded over the launch
   memory), each window's block at a grid point read off those contents, the one whole-block value the kernel
   body stores into the output window at a point as a function of the eleven input blocks, and the pipeline's
   proof data built from them: inputs keep their blocks, the output buffer ends each point at that value. -/
import proofs.«124959_j86397562127205_2_alg».proof.Proof.Gen.KernelIdeal.Launch
import proofs.«124959_j86397562127205_2_alg».proof.Proof.Gen.KernelIdeal.Skeleton
import proofs.«124959_j86397562127205_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations after the region, stretch by stretch -/

/-- The six stretches of host operations after the region, in program order. -/
abbrev tailOps : List (List (HloOp τ sig (Elt F))) := [hostOps1, hostOps1_1, hostOps1_2, hostOps1_3, hostOps1_4, hostOps1_5]

/-! ## The contents the region finds -/

/-- Core `c`'s buffer contents when the region is entered: the launch memory after the host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses: every load and the one store take a whole block -/

abbrev rA : Rect S3x16000 := Rect.unit (s := S3x16000) ![0, 0] S3x16000.size inb_S3x16000_S3x16000_0_0
abbrev rB : Rect S50x9 := Rect.unit (s := S50x9) ![0, 0] S50x9.size inb_S50x9_S50x9_0_0
abbrev rC : Rect S50x1 := Rect.unit (s := S50x1) ![0, 0] S50x1.size inb_S50x1_S50x1_0_0
abbrev rD : Rect S15x50 := Rect.unit (s := S15x50) ![0, 0] S15x50.size inb_S15x50_S15x50_0_0
abbrev rE : Rect S15x1 := Rect.unit (s := S15x1) ![0, 0] S15x1.size inb_S15x1_S15x1_0_0
abbrev rG : Rect S50x18 := Rect.unit (s := S50x18) ![0, 0] S50x18.size inb_S50x18_S50x18_0_0
abbrev rOut : Rect S15x16000 := Rect.unit (s := S15x16000) ![0, 0] S15x16000.size inb_S15x16000_S15x16000_0_0

/-! ## What the body leaves in the output window's buffer -/

/-- The output window's staging buffer after the body, from the eleven input blocks: its one whole-block store of the
    second two-layer message over the first one, as a single covering piece. -/
def msgBlock (x0 : Vec F S3x16000 .f32) (x1 : Vec F S3x16000 .f32) (x2 : Vec F S3x16000 .f32) (x3 : Vec F S50x9 .f32) (x4 : Vec F S50x1 .f32) (x5 : Vec F S15x50 .f32) (x6 : Vec F S15x1 .f32) (x7 : Vec F S50x18 .f32) (x8 : Vec F S50x1 .f32) (x9 : Vec F S15x50 .f32) (x10 : Vec F S15x1 .f32) : Vec F S15x16000 .f32 :=
  View.canon [⟨rOut, k0_pay1 (k0_pay2 (View.ld x7 rG)) (k0_pay3 (View.ld x9 rD))
    (k0_pay4 (View.ld x0 rA) (View.ld x1 rA) (View.ld x2 rA) (View.ld x3 rB) (View.ld x5 rD) (View.ld x4 rC) (View.ld x6 rE))
    (constant S50x16000 .f32 0x00000000#32) (View.ld x8 rC) (View.ld x10 rE)⟩]

/-- The one store tiles the buffer, so it covers it. -/
theorem cover_out (p0 : Vec F S15x16000 .f32) (y : S15x16000.Idx) :
    ∃ pc ∈ ([⟨rOut, p0⟩] : List (View.Piece (Elt F) S15x16000 .f32)), y ∈ pc.1.set :=
  View.cover_of_tiled [⟨rOut, p0⟩] S15x16000.size (by rfl) y

/-! ## The pipeline's proof data -/

/-- The proof data of the one pipeline on core `c`: the arrays as the region finds them; after the body at point `t`
    each input's buffer at its block and the output's at `msgBlock` of the input blocks; the invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => msgBlock (iblk m c 0 t) (iblk m c 1 t) (iblk m c 2 t) (iblk m c 3 t) (iblk m c 4 t) (iblk m c 5 t) (iblk m c 6 t) (iblk m c 7 t) (iblk m c 8 t) (iblk m c 9 t) (iblk m c 10 t)
  Φ _ := Pipeline.ΦA spec0 c
  q _ := fullShare
  owed _ := 0

/-- The proof data's arrays are the region-entry contents (the definition projected; the fold over the host prefix
    is never unfolded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after_out (c : Dev nD) (t : Fin cfg0.N) : (dats m 0 c).after 11 t = msgBlock (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]

end Cert.KernelIdeal.Frame

end
-- ==== Proof.KFrameBody.lean ====
/- The frame of the program around its one kernel region, second part: the kernel body's triple.
   On whole staging buffers, the eleven inputs held at given contents and the output held at anything, the body
   runs without fault to a state holding the inputs as they were and the output buffer at the single whole-block
   value it stores (the loads read whole blocks; the one load of the output buffer is unused; the one store covers
   the buffer). -/
import proofs.«124959_j86397562127205_2_alg».proof.Proof.KFrameDefs

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The kernel body on whole staging memrefs, the inputs' at read contents `xW` and the output's at anything, runs to
    the continuation holding the inputs' as they were and the output's at `msgBlock` of the inputs'. -/
theorem sound_kernel (c : Dev nD) (E : Set ℕ) (i : grid0.Coords) (arg1 : Memref sig .tc .vmem S3x16000 .f32) (harg1 : arg1.IsWhole) (arg2 : Memref sig .tc .vmem S3x16000 .f32) (harg2 : arg2.IsWhole) (arg3 : Memref sig .tc .vmem S3x16000 .f32) (harg3 : arg3.IsWhole) (arg4 : Memref sig .tc .vmem S50x9 .f32) (harg4 : arg4.IsWhole) (arg5 : Memref sig .tc .vmem S50x1 .f32) (harg5 : arg5.IsWhole) (arg6 : Memref sig .tc .vmem S15x50 .f32) (harg6 : arg6.IsWhole) (arg7 : Memref sig .tc .vmem S15x1 .f32) (harg7 : arg7.IsWhole) (arg8 : Memref sig .tc .vmem S50x18 .f32) (harg8 : arg8.IsWhole) (arg9 : Memref sig .tc .vmem S50x1 .f32) (harg9 : arg9.IsWhole) (arg10 : Memref sig .tc .vmem S15x50 .f32) (harg10 : arg10.IsWhole) (arg11 : Memref sig .tc .vmem S15x1 .f32) (harg11 : arg11.IsWhole) (arg12 : Memref sig .tc .vmem S15x16000 .f32) (harg12 : arg12.IsWhole)
    (x0 : Vec F S3x16000 .f32) (x1 : Vec F S3x16000 .f32) (x2 : Vec F S3x16000 .f32) (x3 : Vec F S50x9 .f32) (x4 : Vec F S50x1 .f32) (x5 : Vec F S15x50 .f32) (x6 : Vec F S15x1 .f32) (x7 : Vec F S50x18 .f32) (x8 : Vec F S50x1 .f32) (x9 : Vec F S15x50 .f32) (x10 : Vec F S15x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (msgBlock x0 x1 x2 x3 x4 x5 x6 x7 x8 x9 x10)) -∗ K ⟨⟩))
      ⊢ wp frame (wpE (defs₀ (F := F)) Variants.none c none) E (cc0__edge_node_kernel i arg1 harg1 arg2 harg2 arg3 harg3 arg4 harg4 arg5 harg5 arg6 harg6 arg7 harg7 arg8 harg8 arg9 harg9 arg10 harg10 arg11 harg11 arg12 harg12) K := by
  simp only [cc0__edge_node_kernel_eq_skeleton]; unfold cc0__edge_node_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  exact View.read_writes_eq_canon _ _ _ (cover_out _)

end Cert.KernelIdeal.Frame

end
-- ==== Proof.KFrameHost.lean ====
/- The frame of the program around its one kernel region, third part: the host operations around the region.
   Before the region one stretch of host operations runs, after it six; each operation writes exactly its own result
   buffer and allocates nothing. Listing the result buffers of the prefix and of the tail once, a buffer outside the
   list is left as it was: so no argument array is written before or after the region, and no array a window stages is
   written after it. With the program read as the chain prefix, region, tail, this gives the launch theorem's
   hypotheses about the lines around the region. -/
import proofs.«124959_j86397562127205_2_alg».proof.Proof.KFrameDefs

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## No host operation allocates -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor

/-! ## The buffers the host operations write -/

/-- The result buffers of the host operations before the region, in order. -/
def headW : List (Ref sig .tc) := [
    main_v0, main_v1, main_v2, main_v3, main_c, main_v4, main_v5, main_c_0,
    main_v6, main_v7, main_v8, main_v9, main_v10, main_c_1, main_v11, main_v12,
    main_c_2, main_v13, main_v14, main_v15, main_v16, main_v17, main_v18, main_v19,
    main_v20, main_v21, main_v22, main_v23, main_v24, main_v25, main_v26, main_v27,
    main_v28 ]

/-- The result buffers of the host operations after the region, in order, the six stretches one after the other. -/
def tailW : List (Ref sig .tc) := [
    main_v30, main_cst, main_v31, main_v32, main_v33, main_cst_3, main_v34, main_cst_4,
    main_v35, main_v36, main_v37, main_cst_5, main_v38, main_v39, main_v40, main_v41,
    main_cst_6, main_v42, main_v43, main_v44, main_cst_7, main_v45, main_cst_8, main_v46,
    main_v47, main_v48, main_cst_9, main_v49, main_v50, main_v51, main_v52, main_v53,
    main_v54, main_v55, main_v56, main_cst_10, main_v57, main_cst_11, main_v58, main_v59,
    main_c_12, main_call0_cst, main_call0_v0, main_call0_v1, main_call0_cst_0, main_call0_v2, main_call0_v3, main_call0_v4,
    main_call0_v5, main_call0_v6, main_call0_v7, main_call0_cst_1, main_call0_v8, main_call0_cst_2, main_call0_v9, main_call0_v10,
    main_call0_v11, main_call0_cst_3, main_call0_v12, main_call0_cst_4, main_call0_call0_v0, main_call0_call0_v1, main_v60, main_v61,
    main_v62, main_v63, main_v64, main_v65, main_v66, main_cst_13, main_v67, main_v68,
    main_v69, main_v70, main_v71, main_v72, main_v73, main_v74, main_v75, main_call1_cst,
    main_call1_v0, main_v76, main_v77, main_v78, main_v79, main_v80, main_call2_cst, main_call2_v0,
    main_call2_cst_0, main_call2_v1, main_call2_v2, main_call2_v3, main_call2_v4, main_call2_v5, main_call2_v6, main_call2_cst_1,
    main_call2_v7, main_call2_v8, main_call2_v9, main_call2_v10, main_v81 ]

/-- A single written buffer that is on a list lies in the list's image. -/
theorem writes_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, h, rfl⟩))

set_option maxHeartbeats 4000000 in
/-- Every host operation before the region writes a buffer of `headW`. -/
theorem head_writes : (List.flatten [(hostOps0 : List (HloOp τ sig (Elt F)))]).Forall fun op =>
    op.writes ⊆ (headW.map (Proc.devRef (τ := τ) .tc)).toFinset := by
  simp only [hostOps0, List.flatten_cons, List.flatten_nil, List.append_nil, List.cons_append, List.nil_append, List.Forall,
    StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes]
  repeat' apply And.intro
  all_goals exact writes_sub_of_mem (by decide)

set_option maxHeartbeats 4000000 in
/-- Every host operation after the region writes a buffer of `tailW`. -/
theorem tail_writes : (List.flatten (tailOps : List (List (HloOp τ sig (Elt F))))).Forall fun op =>
    op.writes ⊆ (tailW.map (Proc.devRef (τ := τ) .tc)).toFinset := by
  simp only [tailOps, hostOps1, hostOps1_1, hostOps1_2, hostOps1_3, hostOps1_4, hostOps1_5, List.flatten_cons, List.flatten_nil, List.append_nil, List.cons_append, List.nil_append, List.Forall,
    StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes]
  repeat' apply And.intro
  all_goals exact writes_sub_of_mem (by decide)

/-- A buffer no host operation before the region writes is found by the region as launched. -/
theorem V_of (c : Dev nD) (b : Ref sig .tc) (hb : b ∉ headW) : V m c b = m ((c : Thread nD τ).loc b) :=
  StableHlo.after_of_writes_sub (r := b) _ _ head_writes hb

/-- A buffer that no window stages and no host operation after the region writes ends as the region found it. -/
theorem W_of (dats : (p : Fin 1) → (c : Dev nD) → Dat τ (Elt F) Unit ℕ (UR sig nD τ) ℕ (cfgs p) c) (c : Dev nD)
    (b : Ref sig .tc) (hb : b ∉ tailW) (ha : ∀ w, Pipeline.arrRef spec0 w ≠ b) :
    Pipeline.afterTail₀ cfgs dats 0 (V0 m) tailOps c b = V m c b := by
  unfold Pipeline.afterTail₀
  rw [StableHlo.after_of_writes_sub (r := b) _ _ tail_writes hb,
    Pipeline.withArrays_of_ne _ c (V0 m c) _ b (by exact ha)]

/-! ## The program around the region -/

/-- The program is the host prefix, the region, the six tail stretches: it reduces to the region continued by the tail. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps : List (List (HloOp τ sig (Elt F)))).map StableHlo.seq)) :=
  Pipeline.hmain_around cfgs 0 defs₀ 𝒱₀ m main [hostOps0] tailOps (by simp only [List.Forall]; exact hostOps0_sub)
    (by simp only [List.Forall]; exact hostOps0_fresh) main_chain

/-- The operations after the region touch unscoped TensorCore buffers only: the pipeline's arrays and the bypassing ones. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)

/-- They allocate nothing. -/
theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop

/-- And write no array of the pipeline: each writes a buffer of `tailW`, and no window's array is on that list. -/
theorem sfx_keeps : ∀ ops ∈ (tailOps : List (List (HloOp τ sig (Elt F)))), ∀ op ∈ ops,
    ∀ w, Proc.devRef .tc (Pipeline.arrRef spec0 w) ∉ op.writes := by
  intro ops hops op hop w hb
  have h := (List.forall_iff_forall_mem.mp tail_writes) op (List.mem_flatten.mpr ⟨ops, hops, hop⟩) hb
  obtain ⟨y, hy, he⟩ := List.mem_map.mp (List.mem_toFinset.mp h)
  exact (by decide : ∀ w, Pipeline.arrRef spec0 w ∉ tailW) w (Proc.devRef_injective _ he ▸ hy)

/-! ## The argument arrays -/

/-- No host operation before the region writes `main_arg0`. -/
theorem V_main_arg0 (c : Dev nD) : V m c main_arg0 = m ((c : Thread nD τ).loc main_arg0) := V_of m c main_arg0 (by decide)
/-- No window stages `main_arg0` and no host operation after the region writes it. -/
theorem W_main_arg0_of (dats : (p : Fin 1) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) :=
  (W_of m dats c main_arg0 (by decide) (by decide)).trans (V_main_arg0 m c)
/-- No host operation before the region writes `main_arg1`. -/
theorem V_main_arg1 (c : Dev nD) : V m c main_arg1 = m ((c : Thread nD τ).loc main_arg1) := V_of m c main_arg1 (by decide)
/-- No window stages `main_arg1` and no host operation after the region writes it. -/
theorem W_main_arg1_of (dats : (p : Fin 1) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) :=
  (W_of m dats c main_arg1 (by decide) (by decide)).trans (V_main_arg1 m c)
/-- No host operation before the region writes `main_arg2`. -/
theorem V_main_arg2 (c : Dev nD) : V m c main_arg2 = m ((c : Thread nD τ).loc main_arg2) := V_of m c main_arg2 (by decide)
/-- No window stages `main_arg2` and no host operation after the region writes it. -/
theorem W_main_arg2_of (dats : (p : Fin 1) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) :=
  (W_of m dats c main_arg2 (by decide) (by decide)).trans (V_main_arg2 m c)
/-- No host operation before the region writes `main_arg3`. -/
theorem V_main_arg3 (c : Dev nD) : V m c main_arg3 = m ((c : Thread nD τ).loc main_arg3) := V_of m c main_arg3 (by decide)
/-- No window stages `main_arg3` and no host operation after the region writes it. -/
theorem W_main_arg3_of (dats : (p : Fin 1) → (c : Dev nD) → Dat τ (Elt F) Unit ℕ (UR sig nD τ) ℕ (cfgs p) c) (c : Dev nD) :
    Pipeline.afterTail₀ cfgs dats 0 (V0 m) tailOps c main_arg3 = m ((c : Thread nD τ).loc main_arg3) :=
  (W_of m dats c main_arg3 (by decide) (by decide)).trans (V_main_arg3 m c)
/-- No host operation before the region writes `main_arg4`. -/
theorem V_main_arg4 (c : Dev nD) : V m c main_arg4 = m ((c : Thread nD τ).loc main_arg4) := V_of m c main_arg4 (by decide)
/-- No window stages `main_arg4` and no host operation after the region writes it. -/
theorem W_main_arg4_of (dats : (p : Fin 1) → (c : Dev nD) → Dat τ (Elt F) Unit ℕ (UR sig nD τ) ℕ (cfgs p) c) (c : Dev nD) :
    Pipeline.afterTail₀ cfgs dats 0 (V0 m) tailOps c main_arg4 = m ((c : Thread nD τ).loc main_arg4) :=
  (W_of m dats c main_arg4 (by decide) (by decide)).trans (V_main_arg4 m c)
/-- No host operation before the region writes `main_arg5`. -/
theorem V_main_arg5 (c : Dev nD) : V m c main_arg5 = m ((c : Thread nD τ).loc main_arg5) := V_of m c main_arg5 (by decide)
/-- No window stages `main_arg5` and no host operation after the region writes it. -/
theorem W_main_arg5_of (dats : (p : Fin 1) → (c : Dev nD) → Dat τ (Elt F) Unit ℕ (UR sig nD τ) ℕ (cfgs p) c) (c : Dev nD) :
    Pipeline.afterTail₀ cfgs dats 0 (V0 m) tailOps c main_arg5 = m ((c : Thread nD τ).loc main_arg5) :=
  (W_of m dats c main_arg5 (by decide) (by decide)).trans (V_main_arg5 m c)
/-- No host operation before the region writes `main_arg6`. -/
theorem V_main_arg6 (c : Dev nD) : V m c main_arg6 = m ((c : Thread nD τ).loc main_arg6) := V_of m c main_arg6 (by decide)
/-- No window stages `main_arg6` and no host operation after the region writes it. -/
theorem W_main_arg6_of (dats : (p : Fin 1) → (c : Dev nD) → Dat τ (Elt F) Unit ℕ (UR sig nD τ) ℕ (cfgs p) c) (c : Dev nD) :
    Pipeline.afterTail₀ cfgs dats 0 (V0 m) tailOps c main_arg6 = m ((c : Thread nD τ).loc main_arg6) :=
  (W_of m dats c main_arg6 (by decide) (by decide)).trans (V_main_arg6 m c)
/-- No host operation before the region writes `main_arg7`. -/
theorem V_main_arg7 (c : Dev nD) : V m c main_arg7 = m ((c : Thread nD τ).loc main_arg7) := V_of m c main_arg7 (by decide)
/-- No window stages `main_arg7` and no host operation after the region writes it. -/
theorem W_main_arg7_of (dats : (p : Fin 1) → (c : Dev nD) → Dat τ (Elt F) Unit ℕ (UR sig nD τ) ℕ (cfgs p) c) (c : Dev nD) :
    Pipeline.afterTail₀ cfgs dats 0 (V0 m) tailOps c main_arg7 = m ((c : Thread nD τ).loc main_arg7) :=
  (W_of m dats c main_arg7 (by decide) (by decide)).trans (V_main_arg7 m c)
/-- No host operation before the region writes `main_arg8`. -/
theorem V_main_arg8 (c : Dev nD) : V m c main_arg8 = m ((c : Thread nD τ).loc main_arg8) := V_of m c main_arg8 (by decide)
/-- No window stages `main_arg8` and no host operation after the region writes it. -/
theorem W_main_arg8_of (dats : (p : Fin 1) → (c : Dev nD) → Dat τ (Elt F) Unit ℕ (UR sig nD τ) ℕ (cfgs p) c) (c : Dev nD) :
    Pipeline.afterTail₀ cfgs dats 0 (V0 m) tailOps c main_arg8 = m ((c : Thread nD τ).loc main_arg8) :=
  (W_of m dats c main_arg8 (by decide) (by decide)).trans (V_main_arg8 m c)
/-- No host operation before the region writes `main_arg9`. -/
theorem V_main_arg9 (c : Dev nD) : V m c main_arg9 = m ((c : Thread nD τ).loc main_arg9) := V_of m c main_arg9 (by decide)
/-- No window stages `main_arg9` and no host operation after the region writes it. -/
theorem W_main_arg9_of (dats : (p : Fin 1) → (c : Dev nD) → Dat τ (Elt F) Unit ℕ (UR sig nD τ) ℕ (cfgs p) c) (c : Dev nD) :
    Pipeline.afterTail₀ cfgs dats 0 (V0 m) tailOps c main_arg9 = m ((c : Thread nD τ).loc main_arg9) :=
  (W_of m dats c main_arg9 (by decide) (by decide)).trans (V_main_arg9 m c)
/-- No host operation before the region writes `main_arg10`. -/
theorem V_main_arg10 (c : Dev nD) : V m c main_arg10 = m ((c : Thread nD τ).loc main_arg10) := V_of m c main_arg10 (by decide)
/-- No window stages `main_arg10` and no host operation after the region writes it. -/
theorem W_main_arg10_of (dats : (p : Fin 1) → (c : Dev nD) → Dat τ (Elt F) Unit ℕ (UR sig nD τ) ℕ (cfgs p) c) (c : Dev nD) :
    Pipeline.afterTail₀ cfgs dats 0 (V0 m) tailOps c main_arg10 = m ((c : Thread nD τ).loc main_arg10) :=
  (W_of m dats c main_arg10 (by decide) (by decide)).trans (V_main_arg10 m c)
/-- No host operation before the region writes `main_arg11`. -/
theorem V_main_arg11 (c : Dev nD) : V m c main_arg11 = m ((c : Thread nD τ).loc main_arg11) := V_of m c main_arg11 (by decide)
/-- No window stages `main_arg11` and no host operation after the region writes it. -/
theorem W_main_arg11_of (dats : (p : Fin 1) → (c : Dev nD) → Dat τ (Elt F) Unit ℕ (UR sig nD τ) ℕ (cfgs p) c) (c : Dev nD) :
    Pipeline.afterTail₀ cfgs dats 0 (V0 m) tailOps c main_arg11 = m ((c : Thread nD τ).loc main_arg11) :=
  (W_of m dats c main_arg11 (by decide) (by decide)).trans (V_main_arg11 m c)
/-- No host operation before the region writes `main_arg12`. -/
theorem V_main_arg12 (c : Dev nD) : V m c main_arg12 = m ((c : Thread nD τ).loc main_arg12) := V_of m c main_arg12 (by decide)
/-- No window stages `main_arg12` and no host operation after the region writes it. -/
theorem W_main_arg12_of (dats : (p : Fin 1) → (c : Dev nD) → Dat τ (Elt F) Unit ℕ (UR sig nD τ) ℕ (cfgs p) c) (c : Dev nD) :
    Pipeline.afterTail₀ cfgs dats 0 (V0 m) tailOps c main_arg12 = m ((c : Thread nD τ).loc main_arg12) :=
  (W_of m dats c main_arg12 (by decide) (by decide)).trans (V_main_arg12 m c)
/-- No host operation before the region writes `main_arg13`. -/
theorem V_main_arg13 (c : Dev nD) : V m c main_arg13 = m ((c : Thread nD τ).loc main_arg13) := V_of m c main_arg13 (by decide)
/-- No window stages `main_arg13` and no host operation after the region writes it. -/
theorem W_main_arg13_of (dats : (p : Fin 1) → (c : Dev nD) → Dat τ (Elt F) Unit ℕ (UR sig nD τ) ℕ (cfgs p) c) (c : Dev nD) :
    Pipeline.afterTail₀ cfgs dats 0 (V0 m) tailOps c main_arg13 = m ((c : Thread nD τ).loc main_arg13) :=
  (W_of m dats c main_arg13 (by decide) (by decide)).trans (V_main_arg13 m c)
/-- No host operation before the region writes `main_arg14`. -/
theorem V_main_arg14 (c : Dev nD) : V m c main_arg14 = m ((c : Thread nD τ).loc main_arg14) := V_of m c main_arg14 (by decide)
/-- No window stages `main_arg14` and no host operation after the region writes it. -/
theorem W_main_arg14_of (dats : (p : Fin 1) → (c : Dev nD) → Dat τ (Elt F) Unit ℕ (UR sig nD τ) ℕ (cfgs p) c) (c : Dev nD) :
    Pipeline.afterTail₀ cfgs dats 0 (V0 m) tailOps c main_arg14 = m ((c : Thread nD τ).loc main_arg14) :=
  (W_of m dats c main_arg14 (by decide) (by decide)).trans (V_main_arg14 m c)
/-- No host operation before the region writes `main_arg15`. -/
theorem V_main_arg15 (c : Dev nD) : V m c main_arg15 = m ((c : Thread nD τ).loc main_arg15) := V_of m c main_arg15 (by decide)
/-- No window stages `main_arg15` and no host operation after the region writes it. -/
theorem W_main_arg15_of (dats : (p : Fin 1) → (c : Dev nD) → Dat τ (Elt F) Unit ℕ (UR sig nD τ) ℕ (cfgs p) c) (c : Dev nD) :
    Pipeline.afterTail₀ cfgs dats 0 (V0 m) tailOps c main_arg15 = m ((c : Thread nD τ).loc main_arg15) :=
  (W_of m dats c main_arg15 (by decide) (by decide)).trans (V_main_arg15 m c)
/-- No host operation before the region writes `main_arg16`. -/
theorem V_main_arg16 (c : Dev nD) : V m c main_arg16 = m ((c : Thread nD τ).loc main_arg16) := V_of m c main_arg16 (by decide)
/-- No window stages `main_arg16` and no host operation after the region writes it. -/
theorem W_main_arg16_of (dats : (p : Fin 1) → (c : Dev nD) → Dat τ (Elt F) Unit ℕ (UR sig nD τ) ℕ (cfgs p) c) (c : Dev nD) :
    Pipeline.afterTail₀ cfgs dats 0 (V0 m) tailOps c main_arg16 = m ((c : Thread nD τ).loc main_arg16) :=
  (W_of m dats c main_arg16 (by decide) (by decide)).trans (V_main_arg16 m c)
/-- No host operation before the region writes `main_arg17`. -/
theorem V_main_arg17 (c : Dev nD) : V m c main_arg17 = m ((c : Thread nD τ).loc main_arg17) := V_of m c main_arg17 (by decide)
/-- No window stages `main_arg17` and no host operation after the region writes it. -/
theorem W_main_arg17_of (dats : (p : Fin 1) → (c : Dev nD) → Dat τ (Elt F) Unit ℕ (UR sig nD τ) ℕ (cfgs p) c) (c : Dev nD) :
    Pipeline.afterTail₀ cfgs dats 0 (V0 m) tailOps c main_arg17 = m ((c : Thread nD τ).loc main_arg17) :=
  (W_of m dats c main_arg17 (by decide) (by decide)).trans (V_main_arg17 m c)

end Cert.KernelIdeal.Frame

end
-- ==== Proof.KFrame.lean ====
/- The frame of the program around its one kernel region: the run and the frame claim.
   Each input window's staging buffer holds its block at every grid point, fetched there or not; so the kernel body's
   triple gives the pipeline's body obligation at every point. The launch theorem for a program that continues after its
   region with host operations then says: every fair execution terminates without fault, each array a window stages
   ends at what the proof data computes, and every other unscoped buffer ends as the operations after the region leave
   it. No operation before or after the region writes an argument array and no window stages one: the eighteen
   argument arrays end as launched. -/
import proofs.«124959_j86397562127205_2_alg».proof.Proof.KFrameDefs
import proofs.«124959_j86397562127205_2_alg».proof.Proof.KFrameBody
import proofs.«124959_j86397562127205_2_alg».proof.Proof.KFrameHost

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Each input's staging buffer holds its block at every point

For any proof data whose array is the region-entry contents and whose body leaves the block in place: at a point that
fetches the window the buffer holds the fetched block; at a point that does not, the block index has not moved since the
point before. The windows are uncut and never idle. -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The argument arrays at the end, for this proof data -/

theorem W_main_arg0 (c : Dev nD) : Pipeline.afterTail₀ cfgs (dats m) 0 (V0 m) tailOps c main_arg0 = m ((c : Thread nD τ).loc main_arg0) :=
  W_main_arg0_of m (dats m) c
theorem W_main_arg1 (c : Dev nD) : Pipeline.afterTail₀ cfgs (dats m) 0 (V0 m) tailOps c main_arg1 = m ((c : Thread nD τ).loc main_arg1) :=
  W_main_arg1_of m (dats m) c
theorem W_main_arg2 (c : Dev nD) : Pipeline.afterTail₀ cfgs (dats m) 0 (V0 m) tailOps c main_arg2 = m ((c : Thread nD τ).loc main_arg2) :=
  W_main_arg2_of m (dats m) c
theorem W_main_arg3 (c : Dev nD) : Pipeline.afterTail₀ cfgs (dats m) 0 (V0 m) tailOps c main_arg3 = m ((c : Thread nD τ).loc main_arg3) :=
  W_main_arg3_of m (dats m) c
theorem W_main_arg4 (c : Dev nD) : Pipeline.afterTail₀ cfgs (dats m) 0 (V0 m) tailOps c main_arg4 = m ((c : Thread nD τ).loc main_arg4) :=
  W_main_arg4_of m (dats m) c
theorem W_main_arg5 (c : Dev nD) : Pipeline.afterTail₀ cfgs (dats m) 0 (V0 m) tailOps c main_arg5 = m ((c : Thread nD τ).loc main_arg5) :=
  W_main_arg5_of m (dats m) c
theorem W_main_arg6 (c : Dev nD) : Pipeline.afterTail₀ cfgs (dats m) 0 (V0 m) tailOps c main_arg6 = m ((c : Thread nD τ).loc main_arg6) :=
  W_main_arg6_of m (dats m) c
theorem W_main_arg7 (c : Dev nD) : Pipeline.afterTail₀ cfgs (dats m) 0 (V0 m) tailOps c main_arg7 = m ((c : Thread nD τ).loc main_arg7) :=
  W_main_arg7_of m (dats m) c
theorem W_main_arg8 (c : Dev nD) : Pipeline.afterTail₀ cfgs (dats m) 0 (V0 m) tailOps c main_arg8 = m ((c : Thread nD τ).loc main_arg8) :=
  W_main_arg8_of m (dats m) c
theorem W_main_arg9 (c : Dev nD) : Pipeline.afterTail₀ cfgs (dats m) 0 (V0 m) tailOps c main_arg9 = m ((c : Thread nD τ).loc main_arg9) :=
  W_main_arg9_of m (dats m) c
theorem W_main_arg10 (c : Dev nD) : Pipeline.afterTail₀ cfgs (dats m) 0 (V0 m) tailOps c main_arg10 = m ((c : Thread nD τ).loc main_arg10) :=
  W_main_arg10_of m (dats m) c
theorem W_main_arg11 (c : Dev nD) : Pipeline.afterTail₀ cfgs (dats m) 0 (V0 m) tailOps c main_arg11 = m ((c : Thread nD τ).loc main_arg11) :=
  W_main_arg11_of m (dats m) c
theorem W_main_arg12 (c : Dev nD) : Pipeline.afterTail₀ cfgs (dats m) 0 (V0 m) tailOps c main_arg12 = m ((c : Thread nD τ).loc main_arg12) :=
  W_main_arg12_of m (dats m) c
theorem W_main_arg13 (c : Dev nD) : Pipeline.afterTail₀ cfgs (dats m) 0 (V0 m) tailOps c main_arg13 = m ((c : Thread nD τ).loc main_arg13) :=
  W_main_arg13_of m (dats m) c
theorem W_main_arg14 (c : Dev nD) : Pipeline.afterTail₀ cfgs (dats m) 0 (V0 m) tailOps c main_arg14 = m ((c : Thread nD τ).loc main_arg14) :=
  W_main_arg14_of m (dats m) c
theorem W_main_arg15 (c : Dev nD) : Pipeline.afterTail₀ cfgs (dats m) 0 (V0 m) tailOps c main_arg15 = m ((c : Thread nD τ).loc main_arg15) :=
  W_main_arg15_of m (dats m) c
theorem W_main_arg16 (c : Dev nD) : Pipeline.afterTail₀ cfgs (dats m) 0 (V0 m) tailOps c main_arg16 = m ((c : Thread nD τ).loc main_arg16) :=
  W_main_arg16_of m (dats m) c
theorem W_main_arg17 (c : Dev nD) : Pipeline.afterTail₀ cfgs (dats m) 0 (V0 m) tailOps c main_arg17 = m ((c : Thread nD τ).loc main_arg17) :=
  W_main_arg17_of m (dats m) c

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

set_option maxHeartbeats 4000000 in
/-- The body at any point: the inputs' memrefs hold their blocks, so the body's triple applies; the invariant and
    the core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding plain
-- definitions in a metavariable's type
set_option backward.isDefEq.respectTransparency.types false in
/-- At the compiled mesh, for any values, from any memory with zero counters: every weakly fair execution of the program on
    the TensorCores terminates, and every final state has every array of the pipeline at what the library computes from the
    proof data and every other unscoped buffer as the operations after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- info: 'Cert.KernelIdeal.Frame.run_main' depends on axioms: [propext, Classical.choice, Quot.sound] -/
#guard_msgs in #print axioms run_main

/-- THE FRAME: the program runs to the end, faults nowhere, and its eighteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => ⟨((h c).2 main_arg0 (Pipeline.mem_restRefs_of main_arg0 (by decide) (by decide))).trans (W_main_arg0 m c),
      ((h c).2 main_arg1 (Pipeline.mem_restRefs_of main_arg1 (by decide) (by decide))).trans (W_main_arg1 m c),
      ((h c).2 main_arg2 (Pipeline.mem_restRefs_of main_arg2 (by decide) (by decide))).trans (W_main_arg2 m c),
      ((h c).2 main_arg3 (Pipeline.mem_restRefs_of main_arg3 (by decide) (by decide))).trans (W_main_arg3 m c),
      ((h c).2 main_arg4 (Pipeline.mem_restRefs_of main_arg4 (by decide) (by decide))).trans (W_main_arg4 m c),
      ((h c).2 main_arg5 (Pipeline.mem_restRefs_of main_arg5 (by decide) (by decide))).trans (W_main_arg5 m c),
      ((h c).2 main_arg6 (Pipeline.mem_restRefs_of main_arg6 (by decide) (by decide))).trans (W_main_arg6 m c),
      ((h c).2 main_arg7 (Pipeline.mem_restRefs_of main_arg7 (by decide) (by decide))).trans (W_main_arg7 m c),
      ((h c).2 main_arg8 (Pipeline.mem_restRefs_of main_arg8 (by decide) (by decide))).trans (W_main_arg8 m c),
      ((h c).2 main_arg9 (Pipeline.mem_restRefs_of main_arg9 (by decide) (by decide))).trans (W_main_arg9 m c),
      ((h c).2 main_arg10 (Pipeline.mem_restRefs_of main_arg10 (by decide) (by decide))).trans (W_main_arg10 m c),
      ((h c).2 main_arg11 (Pipeline.mem_restRefs_of main_arg11 (by decide) (by decide))).trans (W_main_arg11 m c),
      ((h c).2 main_arg12 (Pipeline.mem_restRefs_of main_arg12 (by decide) (by decide))).trans (W_main_arg12 m c),
      ((h c).2 main_arg13 (Pipeline.mem_restRefs_of main_arg13 (by decide) (by decide))).trans (W_main_arg13 m c),
      ((h c).2 main_arg14 (Pipeline.mem_restRefs_of main_arg14 (by decide) (by decide))).trans (W_main_arg14 m c),
      ((h c).2 main_arg15 (Pipeline.mem_restRefs_of main_arg15 (by decide) (by decide))).trans (W_main_arg15 m c),
      ((h c).2 main_arg16 (Pipeline.mem_restRefs_of main_arg16 (by decide) (by decide))).trans (W_main_arg16 m c),
      ((h c).2 main_arg17 (Pipeline.mem_restRefs_of main_arg17 (by decide) (by decide))).trans (W_main_arg17 m c)⟩) (run_main m ρ)

end Cert.KernelIdeal.Frame

end
-- ==== Proof.GatherSpec.lean ====
/- The edges' end nodes and their features: the two rows of the edge list as vectors of node numbers, and the rows of the
   node-feature array those numbers select (a negative number counted from the end, as jnp indexing does) — the host
   operations both programs start with, composed in their order. -/
import proofs.«124959_j86397562127205_2_alg».proof.Proof.Gen.ReferenceIdeal

noncomputable section

namespace Cert.EdgeStage

open Idealize.ShloMosaic Cert.ReferenceIdeal Cert.ReferenceIdeal.Gen

variable {F : FTy → Type} [FloatOps F]

/-- Row 0 of the edge list: each edge's target node. -/
def targets (ei : (⟨S2x1600000, .i32⟩ : BufTy).Contents (Elt F)) : (⟨S1600000, .i32⟩ : BufTy).Contents (Elt F) :=
  shapeCast S1600000 (extractStridedSlice S1x1600000 ![0, 0] ei slices_S2x1600000_S1x1600000_0_0) shapeCasts_S1x1600000_S1600000

/-- Row 1 of the edge list: each edge's source node. -/
def sources (ei : (⟨S2x1600000, .i32⟩ : BufTy).Contents (Elt F)) : (⟨S1600000, .i32⟩ : BufTy).Contents (Elt F) :=
  shapeCast S1600000 (extractStridedSlice S1x1600000 ![1, 0] ei slices_S2x1600000_S1x1600000_1_0) shapeCasts_S1x1600000_S1600000

/-- The feature rows `x[v]` of the nodes `v` names, one per edge. -/
def nodeFeatures (x : (⟨S100000x3, .f32⟩ : BufTy).Contents (Elt F)) (v : (⟨S1600000, .i32⟩ : BufTy).Contents (Elt F)) :
    (⟨S1600000x3, .f32⟩ : BufTy).Contents (Elt F) :=
  Host.gather gather_S100000x3_S1600000x1_S1600000x3_1_0_n_n_0_1_13 x
    (broadcastInDim S1600000x1 ![0] bcast_S1600000_S1600000x1_0
      (select (cmpi .slt v (broadcastInDim S1600000 ![] bcast_S_S1600000 (constantI S_ 32 0#32)))
        (addi v (broadcastInDim S1600000 ![] bcast_S_S1600000 (constantI S_ 32 100000#32))) v))

end Cert.EdgeStage

end
-- ==== Proof.MsgSpec.lean ====
/- The per-edge messages of the edge stage, as the reference computes them: for every edge, the two-layer perceptron
   (9 → 50 → 15, a rectifier between the layers) of the concatenated features of the edge's two end nodes and of the edge
   itself, then the two-layer perceptron (18 → 50 → 15) of the source node's features joined with that first result —
   the reference's host operations from the first concatenation to the second bias addition, composed in their order as
   ONE function of the gathered node features, the edge features and the eight parameter arrays. -/
import proofs.«124959_j86397562127205_2_alg».proof.Proof.Gen.ReferenceIdeal

noncomputable section

namespace Cert.EdgeStage

open Idealize.ShloMosaic Cert.ReferenceIdeal Cert.ReferenceIdeal.Gen

variable {F : FTy → Type} [FloatOps F]

/-- `messages xr xc ea w1 b1 w2 b2 nw1 nb1 nw2 nb2`: row `e` is
    `relu([xc e, relu([xr e, xc e, ea e] · w1 + b1) · w2 + b2] · nw1 + nb1) · nw2 + nb2`
    (`xr`, `xc`: the features of edge `e`'s target and source node; `ea`: the edge's own features). -/
def messages
    (xr xc ea : (⟨S1600000x3, .f32⟩ : BufTy).Contents (Elt F))
    (w1 : (⟨S9x50, .f32⟩ : BufTy).Contents (Elt F)) (b1 : (⟨S50, .f32⟩ : BufTy).Contents (Elt F))
    (w2 : (⟨S50x15, .f32⟩ : BufTy).Contents (Elt F)) (b2 : (⟨S15, .f32⟩ : BufTy).Contents (Elt F))
    (nw1 : (⟨S18x50, .f32⟩ : BufTy).Contents (Elt F)) (nb1 : (⟨S50, .f32⟩ : BufTy).Contents (Elt F))
    (nw2 : (⟨S50x15, .f32⟩ : BufTy).Contents (Elt F)) (nb2 : (⟨S15, .f32⟩ : BufTy).Contents (Elt F)) :
    (⟨S1600000x15, .f32⟩ : BufTy).Contents (Elt F) :=
  have v18 : (⟨S1600000x9, .f32⟩ : BufTy).Contents (Elt F) := concatenate S1600000x9 1 [⟨S1600000x3, xr⟩, ⟨S1600000x3, xc⟩, ⟨S1600000x3, ea⟩] concatenates_S1600000x3_S1600000x3_S1600000x3_S1600000x9_d1
  have v19 : (⟨S1600000x50, .f32⟩ : BufTy).Contents (Elt F) := Host.dotGeneral dot_S1600000x9_S9x50_S1600000x50_1_0_0_1_n_n none v18 w1
  have v20 : (⟨S1x50, .f32⟩ : BufTy).Contents (Elt F) := broadcastInDim S1x50 ![1] bcast_S50_S1x50_1 b1
  have v21 : (⟨S1600000x50, .f32⟩ : BufTy).Contents (Elt F) := broadcastInDim S1600000x50 ![0, 1] bcast_S1x50_S1600000x50_0_1 v20
  have v22 : (⟨S1600000x50, .f32⟩ : BufTy).Contents (Elt F) := addf v19 v21
  have z0 : (⟨S_, .f32⟩ : BufTy).Contents (Elt F) := constant S_ .f32 0x00000000#32
  have v23 : (⟨S1600000x50, .f32⟩ : BufTy).Contents (Elt F) := maximumf v22 (broadcastInDim S1600000x50 ![] bcast_S_S1600000x50 z0)
  have v24 : (⟨S1600000x15, .f32⟩ : BufTy).Contents (Elt F) := Host.dotGeneral dot_S1600000x50_S50x15_S1600000x15_1_0_0_1_n_n none v23 w2
  have v25 : (⟨S1x15, .f32⟩ : BufTy).Contents (Elt F) := broadcastInDim S1x15 ![1] bcast_S15_S1x15_1 b2
  have v26 : (⟨S1600000x15, .f32⟩ : BufTy).Contents (Elt F) := broadcastInDim S1600000x15 ![0, 1] bcast_S1x15_S1600000x15_0_1 v25
  have v27 : (⟨S1600000x15, .f32⟩ : BufTy).Contents (Elt F) := addf v24 v26
  have v35 : (⟨S1600000x18, .f32⟩ : BufTy).Contents (Elt F) := concatenate S1600000x18 1 [⟨S1600000x3, xc⟩, ⟨S1600000x15, v27⟩] concatenates_S1600000x3_S1600000x15_S1600000x18_d1
  have v36 : (⟨S1600000x50, .f32⟩ : BufTy).Contents (Elt F) := Host.dotGeneral dot_S1600000x18_S18x50_S1600000x50_1_0_0_1_n_n none v35 nw1
  have v37 : (⟨S1x50, .f32⟩ : BufTy).Contents (Elt F) := broadcastInDim S1x50 ![1] bcast_S50_S1x50_1 nb1
  have v38 : (⟨S1600000x50, .f32⟩ : BufTy).Contents (Elt F) := broadcastInDim S1600000x50 ![0, 1] bcast_S1x50_S1600000x50_0_1 v37
  have v39 : (⟨S1600000x50, .f32⟩ : BufTy).Contents (Elt F) := addf v36 v38
  have v40 : (⟨S1600000x50, .f32⟩ : BufTy).Contents (Elt F) := maximumf v39 (broadcastInDim S1600000x50 ![] bcast_S_S1600000x50 z0)
  have v41 : (⟨S1600000x15, .f32⟩ : BufTy).Contents (Elt F) := Host.dotGeneral dot_S1600000x50_S50x15_S1600000x15_1_0_0_1_n_n none v40 nw2
  have v42 : (⟨S1x15, .f32⟩ : BufTy).Contents (Elt F) := broadcastInDim S1x15 ![1] bcast_S15_S1x15_1 nb2
  have v43 : (⟨S1600000x15, .f32⟩ : BufTy).Contents (Elt F) := broadcastInDim S1600000x15 ![0, 1] bcast_S1x15_S1600000x15_0_1 v42
  addf v41 v43

end Cert.EdgeStage

end
-- ==== Proof.EntrySpec.lean ====
/- One edge's message as a plain formula on the extended reals, over the ENTRIES it depends on: the features of the edge's
   target node `xr`, of its source node `xc` and of the edge `ea` (three numbers each) and the eight parameter arrays.
   Both programs compute exactly this at every edge: the reference row by row, the kernel lane by lane of its transposed
   blocks (where each product appears with its factors in the other order). -/
import Idealize.ShloMosaic.PureOps.Ideal

noncomputable section

namespace Cert.EdgeStage.Entry

open scoped BigOperators

variable (xr xc ea : Fin 3 → EReal) (w1 : Fin 9 → Fin 50 → EReal) (b1 : Fin 50 → EReal)
  (w2 : Fin 50 → Fin 15 → EReal) (b2 : Fin 15 → EReal) (nw1 : Fin 18 → Fin 50 → EReal) (nb1 : Fin 50 → EReal)
  (nw2 : Fin 50 → Fin 15 → EReal) (nb2 : Fin 15 → EReal)

/-- The edge model's input: target features, source features, edge features, joined. -/
def edgeIn (i : Fin 9) : EReal :=
  if h : i.val < 3 then xr ⟨i.val, h⟩
  else if h' : i.val < 6 then xc ⟨i.val - 3, by omega⟩
  else ea ⟨i.val - 6, by omega⟩

/-- The edge model's hidden layer: `relu(edgeIn · w1 + b1)`. -/
def hidden1 (k : Fin 50) : EReal := max ((∑ i : Fin 9, edgeIn xr xc ea i * w1 i k) + b1 k) 0

/-- The edge model's output: `hidden1 · w2 + b2`. -/
def edgeOut (j : Fin 15) : EReal := (∑ k : Fin 50, hidden1 xr xc ea w1 b1 k * w2 k j) + b2 j

/-- The node model's input: source features joined with the edge model's output. -/
def nodeIn (i : Fin 18) : EReal :=
  if h : i.val < 3 then xc ⟨i.val, h⟩ else edgeOut xr xc ea w1 b1 w2 b2 ⟨i.val - 3, by omega⟩

/-- The node model's hidden layer: `relu(nodeIn · nw1 + nb1)`. -/
def hidden2 (k : Fin 50) : EReal := max ((∑ i : Fin 18, nodeIn xr xc ea w1 b1 w2 b2 i * nw1 i k) + nb1 k) 0

/-- The message: `hidden2 · nw2 + nb2`. -/
def message (j : Fin 15) : EReal := (∑ k : Fin 50, hidden2 xr xc ea w1 b1 w2 b2 nw1 nb1 k * nw2 k j) + nb2 j

end Cert.EdgeStage.Entry

end
-- ==== Proof.KFound.lean ====
/- The kernel's side of the edge stage, first part: names and what the region finds.
   The kernel's program gathers the features of each edge's two end nodes, transposes them and the edge features to
   feature-major arrays (3 by edges), transposes the four weight matrices and makes the four bias vectors columns; its
   one kernel region then stages those eleven arrays. This module names the per-edge messages as the reference defines
   them (`msgs`, edges by 15) and their transpose (`msgsT`, 15 by edges: what the region's output array will be shown to
   hold), states the two entry-level laws the comparison rests on, and reads each staged array off the launch memory. -/
import proofs.«124959_j86397562127205_2_alg».proof.Proof.KFrameDefs
import proofs.«124959_j86397562127205_2_alg».proof.Proof.GatherSpec
import proofs.«124959_j86397562127205_2_alg».proof.Proof.MsgSpec
import proofs.«124959_j86397562127205_2_alg».proof.Proof.EntrySpec
import Idealize.ShloMosaic.Lib.Pipeline.Value
import Idealize.ShloMosaic.Lib.ValueIdx
import Idealize.ShloMosaic.Lib.StableHlo.Run

set_option maxRecDepth 16384

noncomputable section

namespace Cert.KernelIdeal.Msg

open Cert.KernelIdeal Cert.KernelIdeal.Gen Cert.KernelIdeal.Frame Cert.EdgeStage
open Idealize.ShloMosaic Idealize.ShloMosaic.TcCoe Idealize.SL.Sem Idealize.ShloMosaic.StableHlo Idealize.ShloMosaic.ValueIdx

variable (m : (ℓ : Loc nD τ sig) → Buf (Elt Ideal) ℓ)

/-! ## The two entry-level laws -/

/-- Entry `(j, l)` of the block the kernel body stores is the message formula of LANE `l` of its three feature blocks,
    the weights read transposed and the biases from their one column. -/
def KernelEntryLaw : Prop :=
  ∀ (x0 x1 x2 : Vec Ideal S3x16000 .f32) (x3 : Vec Ideal S50x9 .f32) (x4 : Vec Ideal S50x1 .f32) (x5 : Vec Ideal S15x50 .f32)
    (x6 : Vec Ideal S15x1 .f32) (x7 : Vec Ideal S50x18 .f32) (x8 : Vec Ideal S50x1 .f32) (x9 : Vec Ideal S15x50 .f32)
    (x10 : Vec Ideal S15x1 .f32) (j : Fin 15) (l : Fin 16000),
    k0_pay1 (F := Ideal) (k0_pay2 x7) (k0_pay3 x9) (k0_pay4 x0 x1 x2 x3 x5 x4 x6) (constant S50x16000 .f32 0x00000000#32) x8 x10 (ix2 j l)
      = Entry.message (fun i => x0 (ix2 i l)) (fun i => x1 (ix2 i l)) (fun i => x2 (ix2 i l))
          (fun i k => x3 (ix2 k i)) (fun k => x4 (ix2 k 0)) (fun k j' => x5 (ix2 j' k)) (fun j' => x6 (ix2 j' 0))
          (fun i k => x7 (ix2 k i)) (fun k => x8 (ix2 k 0)) (fun k j' => x9 (ix2 j' k)) (fun j' => x10 (ix2 j' 0)) j

/-- Entry `(e, j)` of the reference's message array is the message formula of ROW `e` of its three feature arrays. -/
def ReferenceEntryLaw : Prop :=
  ∀ (xr xc ea : (⟨Cert.ReferenceIdeal.S1600000x3, .f32⟩ : BufTy).Contents (Elt Ideal))
    (w1 : (⟨Cert.ReferenceIdeal.S9x50, .f32⟩ : BufTy).Contents (Elt Ideal)) (b1 : (⟨Cert.ReferenceIdeal.S50, .f32⟩ : BufTy).Contents (Elt Ideal))
    (w2 : (⟨Cert.ReferenceIdeal.S50x15, .f32⟩ : BufTy).Contents (Elt Ideal)) (b2 : (⟨Cert.ReferenceIdeal.S15, .f32⟩ : BufTy).Contents (Elt Ideal))
    (nw1 : (⟨Cert.ReferenceIdeal.S18x50, .f32⟩ : BufTy).Contents (Elt Ideal)) (nb1 : (⟨Cert.ReferenceIdeal.S50, .f32⟩ : BufTy).Contents (Elt Ideal))
    (nw2 : (⟨Cert.ReferenceIdeal.S50x15, .f32⟩ : BufTy).Contents (Elt Ideal)) (nb2 : (⟨Cert.ReferenceIdeal.S15, .f32⟩ : BufTy).Contents (Elt Ideal))
    (e : Fin 1600000) (j : Fin 15),
    messages (F := Ideal) xr xc ea w1 b1 w2 b2 nw1 nb1 nw2 nb2 (ix2 e j)
      = Entry.message (fun i => xr (ix2 e i)) (fun i => xc (ix2 e i)) (fun i => ea (ix2 e i))
          (fun i k => w1 (ix2 i k)) (fun k => b1 (ix1 k)) (fun k j' => w2 (ix2 k j')) (fun j' => b2 (ix1 j'))
          (fun i k => nw1 (ix2 i k)) (fun k => nb1 (ix1 k)) (fun k j' => nw2 (ix2 k j')) (fun j' => nb2 (ix1 j')) j

/-! ## The messages, from the launch memory -/

/-- The features of each edge's target node. -/
abbrev xr (c : Dev nD) := nodeFeatures (m ((c : Thread nD τ).loc main_arg0)) (targets (m ((c : Thread nD τ).loc main_arg16)))
/-- The features of each edge's source node. -/
abbrev xc (c : Dev nD) := nodeFeatures (m ((c : Thread nD τ).loc main_arg0)) (sources (m ((c : Thread nD τ).loc main_arg16)))

/-- The edge stage's messages, edges by 15, as the reference computes them from the launch memory on core `c`. -/
abbrev msgs (c : Dev nD) : (⟨Cert.ReferenceIdeal.S1600000x15, .f32⟩ : BufTy).Contents (Elt Ideal) :=
  messages (xr m c) (xc m c) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9))

/-- The same array feature-major, 15 by edges. -/
def msgsT (c : Dev nD) : S15x1600000.Idx → Elt Ideal .f32 :=
  fun i => msgs m c (ix2 (⟨(i 1).val, idx2_lt1 i⟩ : Fin 1600000) (⟨(i 0).val, idx2_lt0 i⟩ : Fin 15))

/-! ## What the region finds in the arrays its windows stage, and in the edges' target nodes -/

theorem found_v1 (c : Dev nD) : V m c main_v1 = targets (m ((c : Thread nD τ).loc main_arg16)) := by
  show StableHlo.after hostOps0 (fun b => m (c, b)) (Proc.devRef .tc main_v1) = _
  after_results_simp
  all_goals rfl

theorem found_v18 (c : Dev nD) : V m c main_v18 = transpose S3x1600000 [1, 0] (xr m c) transposes_S1600000x3_S3x1600000_1_0 := by
  show StableHlo.after hostOps0 (fun b => m (c, b)) (Proc.devRef .tc main_v18) = _
  after_results_simp
  all_goals rfl

theorem found_v19 (c : Dev nD) : V m c main_v19 = transpose S3x1600000 [1, 0] (xc m c) transposes_S1600000x3_S3x1600000_1_0 := by
  show StableHlo.after hostOps0 (fun b => m (c, b)) (Proc.devRef .tc main_v19) = _
  after_results_simp
  all_goals rfl

theorem found_v20 (c : Dev nD) :
    V m c main_v20 = transpose S3x1600000 [1, 0] (m ((c : Thread nD τ).loc main_arg1)) transposes_S1600000x3_S3x1600000_1_0 := by
  show StableHlo.after hostOps0 (fun b => m (c, b)) (Proc.devRef .tc main_v20) = _
  after_results_simp
  all_goals rfl

theorem found_v21 (c : Dev nD) :
    V m c main_v21 = transpose S50x9 [1, 0] (m ((c : Thread nD τ).loc main_arg2)) transposes_S9x50_S50x9_1_0 := by
  show StableHlo.after hostOps0 (fun b => m (c, b)) (Proc.devRef .tc main_v21) = _
  after_results_simp
  all_goals rfl

theorem found_v22 (c : Dev nD) : V m c main_v22 = shapeCast S50x1 (m ((c : Thread nD τ).loc main_arg3)) shapeCasts_S50_S50x1 := by
  show StableHlo.after hostOps0 (fun b => m (c, b)) (Proc.devRef .tc main_v22) = _
  after_results_simp
  all_goals rfl

theorem found_v23 (c : Dev nD) :
    V m c main_v23 = transpose S15x50 [1, 0] (m ((c : Thread nD τ).loc main_arg4)) transposes_S50x15_S15x50_1_0 := by
  show StableHlo.after hostOps0 (fun b => m (c, b)) (Proc.devRef .tc main_v23) = _
  after_results_simp
  all_goals rfl

theorem found_v24 (c : Dev nD) : V m c main_v24 = shapeCast S15x1 (m ((c : Thread nD τ).loc main_arg5)) shapeCasts_S15_S15x1 := by
  show StableHlo.after hostOps0 (fun b => m (c, b)) (Proc.devRef .tc main_v24) = _
  after_results_simp
  all_goals rfl

theorem found_v25 (c : Dev nD) :
    V m c main_v25 = transpose S50x18 [1, 0] (m ((c : Thread nD τ).loc main_arg6)) transposes_S18x50_S50x18_1_0 := by
  show StableHlo.after hostOps0 (fun b => m (c, b)) (Proc.devRef .tc main_v25) = _
  after_results_simp
  all_goals rfl

theorem found_v26 (c : Dev nD) : V m c main_v26 = shapeCast S50x1 (m ((c : Thread nD τ).loc main_arg7)) shapeCasts_S50_S50x1 := by
  show StableHlo.after hostOps0 (fun b => m (c, b)) (Proc.devRef .tc main_v26) = _
  after_results_simp
  all_goals rfl

theorem found_v27 (c : Dev nD) :
    V m c main_v27 = transpose S15x50 [1, 0] (m ((c : Thread nD τ).loc main_arg8)) transposes_S50x15_S15x50_1_0 := by
  show StableHlo.after hostOps0 (fun b => m (c, b)) (Proc.devRef .tc main_v27) = _
  after_results_simp
  all_goals rfl

theorem found_v28 (c : Dev nD) : V m c main_v28 = shapeCast S15x1 (m ((c : Thread nD τ).loc main_arg9)) shapeCasts_S15_S15x1 := by
  show StableHlo.after hostOps0 (fun b => m (c, b)) (Proc.devRef .tc main_v28) = _
  after_results_simp
  all_goals rfl

end Cert.KernelIdeal.Msg

end
-- ==== Proof.LibLayout.lean ====
/-
  Layout operations of small shapes read at an index, in the forms a row-wise normalisation needs: a vector made a
  column and a column spread over the columns of a matrix (the two halves of a `keepdims` reduction's broadcast), a
  row vector made a one-row matrix and spread over the rows, and a scalar spread over any shape. Each says which
  operand entry the result reads at `(p, c)`.
-/
import Idealize.ShloMosaic.Lib.ValueIdx
import Idealize.ShloMosaic.Lib.ValueLayout
import Idealize.ShloMosaic.Lib.Pipeline.Value

namespace Cert.LibLayout

open Idealize.ShloMosaic Idealize.ShloMosaic.ValueIdx

variable {α : Type}

/-- An `[a]` array cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A scalar spread over any shape (`broadcast_in_dim` with no axis) reads the scalar everywhere. -/
theorem broadcastInDim_scalar_apply {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply _ h x j ix0 fun ax => ax.elim0

/-- A vector `[b]` made the one row of `[1, b]` (`broadcast_in_dim` on axis 1) reads, at `(u, c)`, the operand at `c`. -/
theorem broadcastInDim_b_1b_apply {b : ℕ} (x : (⟨1, ![b]⟩ : Shape).Idx → α)
    (h : (⟨1, ![b]⟩ : Shape).BroadcastsInDim ⟨2, ![1, b]⟩ (![1] : Fin 1 → Fin 2)) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- A one-row matrix `[1, b]` spread over `a` rows (`broadcast_in_dim` on axes 0, 1) reads, at `(p, c)`, the row at `c`. -/
theorem broadcastInDim_1b_ab_apply {a b : ℕ} (x : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[a]` made a column `[a, 1]` (`broadcast_in_dim` on axis 0) reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- A column `[a, 1]` spread over `b` columns (`broadcast_in_dim` on axes 0, 1) reads, at `(p, c)`, the column's entry of row `p`. -/
theorem broadcastInDim_a1_ab_apply {a b : ℕ} (x : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

end Cert.LibLayout
-- ==== Proof.KBlocks.lean ====
/- The kernel's side of the edge stage, second part: each window's block at a grid point, entry by entry.
   The three feature windows take, at point `t`, the 16000 columns `16000·t …` of their 3-by-edges arrays; the eight
   parameter windows take their whole array at every point. Read through what the region found in those arrays, lane
   `l` of a feature block at point `t` is row `16000·t + l` of the gathered / given features, an entry of a weight block
   is the transposed entry of the weight matrix, and an entry of a bias column is the bias vector's entry. -/
import proofs.«124959_j86397562127205_2_alg».proof.Proof.KFound
import proofs.«124959_j86397562127205_2_alg».proof.Proof.LibLayout

set_option maxRecDepth 16384

noncomputable section

namespace Cert.KernelIdeal.Msg

open Cert.KernelIdeal Cert.KernelIdeal.Gen Cert.KernelIdeal.Frame Cert.EdgeStage
open Idealize.ShloMosaic Idealize.ShloMosaic.TcCoe Idealize.SL.Sem Idealize.ShloMosaic.ValueIdx

variable (m : (ℓ : Loc nD τ sig) → Buf (Elt Ideal) ℓ)

/-! ## The windows' block indices over the grid -/

theorem idx0 : ∀ t : Fin cfg0.N, win0_0.index t (0 : Fin 2) = 0 ∧ win0_0.index t (1 : Fin 2) = t.val :=
  (by decide +kernel : ∀ t : Fin grid0.N, win0_0.index t (0 : Fin 2) = 0 ∧ win0_0.index t (1 : Fin 2) = t.val)
theorem idx1 : ∀ t : Fin cfg0.N, win0_1.index t (0 : Fin 2) = 0 ∧ win0_1.index t (1 : Fin 2) = t.val :=
  (by decide +kernel : ∀ t : Fin grid0.N, win0_1.index t (0 : Fin 2) = 0 ∧ win0_1.index t (1 : Fin 2) = t.val)
theorem idx2 : ∀ t : Fin cfg0.N, win0_2.index t (0 : Fin 2) = 0 ∧ win0_2.index t (1 : Fin 2) = t.val :=
  (by decide +kernel : ∀ t : Fin grid0.N, win0_2.index t (0 : Fin 2) = 0 ∧ win0_2.index t (1 : Fin 2) = t.val)
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem idx7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
theorem idx8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)
theorem idx9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)
theorem idx10 : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)
theorem idx11 : ∀ t : Fin cfg0.N, win0_11.index t (0 : Fin 2) = 0 ∧ win0_11.index t (1 : Fin 2) = t.val :=
  (by decide +kernel : ∀ t : Fin grid0.N, win0_11.index t (0 : Fin 2) = 0 ∧ win0_11.index t (1 : Fin 2) = t.val)

/-! ## A block's entry is the staged array's entry at block index × block size + the coordinate inside the block -/

/-- The three feature windows: columns `16000·t …` of the 3-by-edges array. -/
theorem iblk0_apply (c : Dev nD) (t : Fin cfg0.N) (x : S3x16000.Idx) (k : S3x1600000.Idx)
    (hk0 : (k 0).val = (x 0).val) (hk1 : (k 1).val = 16000 * t.val + (x 1).val) :
    (iblk m c 0 t : Vec Ideal S3x16000 .f32) x = (V m c main_v18 : S3x1600000.Idx → Elt Ideal .f32) k := by
  obtain ⟨h0, h1⟩ := idx0 t
  unfold iblk
  rw [View.read_apply]
  refine congrArg (V m c main_v18 : S3x1600000.Idx → Elt Ideal .f32) (funext fun a => Fin.ext ?_)
  match a with
  | ⟨0, _⟩ => show win0_0.index t (0 : Fin 2) * 3 + 1 * (x 0).val = (k 0).val; omega
  | ⟨1, _⟩ => show win0_0.index t (1 : Fin 2) * 16000 + 1 * (x 1).val = (k 1).val; omega

theorem iblk1_apply (c : Dev nD) (t : Fin cfg0.N) (x : S3x16000.Idx) (k : S3x1600000.Idx)
    (hk0 : (k 0).val = (x 0).val) (hk1 : (k 1).val = 16000 * t.val + (x 1).val) :
    (iblk m c 1 t : Vec Ideal S3x16000 .f32) x = (V m c main_v19 : S3x1600000.Idx → Elt Ideal .f32) k := by
  obtain ⟨h0, h1⟩ := idx1 t
  unfold iblk
  rw [View.read_apply]
  refine congrArg (V m c main_v19 : S3x1600000.Idx → Elt Ideal .f32) (funext fun a => Fin.ext ?_)
  match a with
  | ⟨0, _⟩ => show win0_1.index t (0 : Fin 2) * 3 + 1 * (x 0).val = (k 0).val; omega
  | ⟨1, _⟩ => show win0_1.index t (1 : Fin 2) * 16000 + 1 * (x 1).val = (k 1).val; omega

theorem iblk2_apply (c : Dev nD) (t : Fin cfg0.N) (x : S3x16000.Idx) (k : S3x1600000.Idx)
    (hk0 : (k 0).val = (x 0).val) (hk1 : (k 1).val = 16000 * t.val + (x 1).val) :
    (iblk m c 2 t : Vec Ideal S3x16000 .f32) x = (V m c main_v20 : S3x1600000.Idx → Elt Ideal .f32) k := by
  obtain ⟨h0, h1⟩ := idx2 t
  unfold iblk
  rw [View.read_apply]
  refine congrArg (V m c main_v20 : S3x1600000.Idx → Elt Ideal .f32) (funext fun a => Fin.ext ?_)
  match a with
  | ⟨0, _⟩ => show win0_2.index t (0 : Fin 2) * 3 + 1 * (x 0).val = (k 0).val; omega
  | ⟨1, _⟩ => show win0_2.index t (1 : Fin 2) * 16000 + 1 * (x 1).val = (k 1).val; omega

/-- The eight parameter windows: the whole array at every point. -/
theorem iblk3_apply (c : Dev nD) (t : Fin cfg0.N) (x : S50x9.Idx) :
    (iblk m c 3 t : Vec Ideal S50x9 .f32) x = (V m c main_v21 : S50x9.Idx → Elt Ideal .f32) x := by
  obtain ⟨h0, h1⟩ := idx3 t
  unfold iblk
  rw [View.read_apply]
  refine congrArg (V m c main_v21 : S50x9.Idx → Elt Ideal .f32) (funext fun a => Fin.ext ?_)
  match a with
  | ⟨0, _⟩ => show win0_3.index t (0 : Fin 2) * 50 + 1 * (x 0).val = (x 0).val; omega
  | ⟨1, _⟩ => show win0_3.index t (1 : Fin 2) * 9 + 1 * (x 1).val = (x 1).val; omega

theorem iblk4_apply (c : Dev nD) (t : Fin cfg0.N) (x : S50x1.Idx) :
    (iblk m c 4 t : Vec Ideal S50x1 .f32) x = (V m c main_v22 : S50x1.Idx → Elt Ideal .f32) x := by
  obtain ⟨h0, h1⟩ := idx4 t
  unfold iblk
  rw [View.read_apply]
  refine congrArg (V m c main_v22 : S50x1.Idx → Elt Ideal .f32) (funext fun a => Fin.ext ?_)
  match a with
  | ⟨0, _⟩ => show win0_4.index t (0 : Fin 2) * 50 + 1 * (x 0).val = (x 0).val; omega
  | ⟨1, _⟩ => show win0_4.index t (1 : Fin 2) * 1 + 1 * (x 1).val = (x 1).val; omega

theorem iblk5_apply (c : Dev nD) (t : Fin cfg0.N) (x : S15x50.Idx) :
    (iblk m c 5 t : Vec Ideal S15x50 .f32) x = (V m c main_v23 : S15x50.Idx → Elt Ideal .f32) x := by
  obtain ⟨h0, h1⟩ := idx5 t
  unfold iblk
  rw [View.read_apply]
  refine congrArg (V m c main_v23 : S15x50.Idx → Elt Ideal .f32) (funext fun a => Fin.ext ?_)
  match a with
  | ⟨0, _⟩ => show win0_5.index t (0 : Fin 2) * 15 + 1 * (x 0).val = (x 0).val; omega
  | ⟨1, _⟩ => show win0_5.index t (1 : Fin 2) * 50 + 1 * (x 1).val = (x 1).val; omega

theorem iblk6_apply (c : Dev nD) (t : Fin cfg0.N) (x : S15x1.Idx) :
    (iblk m c 6 t : Vec Ideal S15x1 .f32) x = (V m c main_v24 : S15x1.Idx → Elt Ideal .f32) x := by
  obtain ⟨h0, h1⟩ := idx6 t
  unfold iblk
  rw [View.read_apply]
  refine congrArg (V m c main_v24 : S15x1.Idx → Elt Ideal .f32) (funext fun a => Fin.ext ?_)
  match a with
  | ⟨0, _⟩ => show win0_6.index t (0 : Fin 2) * 15 + 1 * (x 0).val = (x 0).val; omega
  | ⟨1, _⟩ => show win0_6.index t (1 : Fin 2) * 1 + 1 * (x 1).val = (x 1).val; omega

theorem iblk7_apply (c : Dev nD) (t : Fin cfg0.N) (x : S50x18.Idx) :
    (iblk m c 7 t : Vec Ideal S50x18 .f32) x = (V m c main_v25 : S50x18.Idx → Elt Ideal .f32) x := by
  obtain ⟨h0, h1⟩ := idx7 t
  unfold iblk
  rw [View.read_apply]
  refine congrArg (V m c main_v25 : S50x18.Idx → Elt Ideal .f32) (funext fun a => Fin.ext ?_)
  match a with
  | ⟨0, _⟩ => show win0_7.index t (0 : Fin 2) * 50 + 1 * (x 0).val = (x 0).val; omega
  | ⟨1, _⟩ => show win0_7.index t (1 : Fin 2) * 18 + 1 * (x 1).val = (x 1).val; omega

theorem iblk8_apply (c : Dev nD) (t : Fin cfg0.N) (x : S50x1.Idx) :
    (iblk m c 8 t : Vec Ideal S50x1 .f32) x = (V m c main_v26 : S50x1.Idx → Elt Ideal .f32) x := by
  obtain ⟨h0, h1⟩ := idx8 t
  unfold iblk
  rw [View.read_apply]
  refine congrArg (V m c main_v26 : S50x1.Idx → Elt Ideal .f32) (funext fun a => Fin.ext ?_)
  match a with
  | ⟨0, _⟩ => show win0_8.index t (0 : Fin 2) * 50 + 1 * (x 0).val = (x 0).val; omega
  | ⟨1, _⟩ => show win0_8.index t (1 : Fin 2) * 1 + 1 * (x 1).val = (x 1).val; omega

theorem iblk9_apply (c : Dev nD) (t : Fin cfg0.N) (x : S15x50.Idx) :
    (iblk m c 9 t : Vec Ideal S15x50 .f32) x = (V m c main_v27 : S15x50.Idx → Elt Ideal .f32) x := by
  obtain ⟨h0, h1⟩ := idx9 t
  unfold iblk
  rw [View.read_apply]
  refine congrArg (V m c main_v27 : S15x50.Idx → Elt Ideal .f32) (funext fun a => Fin.ext ?_)
  match a with
  | ⟨0, _⟩ => show win0_9.index t (0 : Fin 2) * 15 + 1 * (x 0).val = (x 0).val; omega
  | ⟨1, _⟩ => show win0_9.index t (1 : Fin 2) * 50 + 1 * (x 1).val = (x 1).val; omega

theorem iblk10_apply (c : Dev nD) (t : Fin cfg0.N) (x : S15x1.Idx) :
    (iblk m c 10 t : Vec Ideal S15x1 .f32) x = (V m c main_v28 : S15x1.Idx → Elt Ideal .f32) x := by
  obtain ⟨h0, h1⟩ := idx10 t
  unfold iblk
  rw [View.read_apply]
  refine congrArg (V m c main_v28 : S15x1.Idx → Elt Ideal .f32) (funext fun a => Fin.ext ?_)
  match a with
  | ⟨0, _⟩ => show win0_10.index t (0 : Fin 2) * 15 + 1 * (x 0).val = (x 0).val; omega
  | ⟨1, _⟩ => show win0_10.index t (1 : Fin 2) * 1 + 1 * (x 1).val = (x 1).val; omega

/-! ## One lane of each input block is one row of the reference's operands -/

theorem perm10 {n0 n1 : Nat} {α : Type} (x : (⟨2, ![n0, n1]⟩ : Shape).Idx → α) (h : (⟨2, ![n0, n1]⟩ : Shape).Transposes [1, 0] ⟨2, ![n1, n0]⟩)
    (p : Fin n1) (q : Fin n0) : transpose ⟨2, ![n1, n0]⟩ [1, 0] x h (ix2 p q) = x (ix2 q p) :=
  transpose_apply [1, 0] x h (ix2 p q) (ix2 q p) (fun b => by match b with | ⟨0, _⟩ => rfl | ⟨1, _⟩ => rfl)

theorem lane_xr (c : Dev nD) (t : Fin cfg0.N) (l : Fin 16000) (e : Fin 1600000) (he : e.val = 16000 * t.val + l.val) (i : Fin 3) :
    (iblk m c 0 t : Vec Ideal S3x16000 .f32) (ix2 i l) = xr m c (ix2 e i) := by
  rw [iblk0_apply m c t (ix2 i l) (ix2 i e) rfl he, found_v18]
  exact perm10 _ _ i e
theorem lane_xc (c : Dev nD) (t : Fin cfg0.N) (l : Fin 16000) (e : Fin 1600000) (he : e.val = 16000 * t.val + l.val) (i : Fin 3) :
    (iblk m c 1 t : Vec Ideal S3x16000 .f32) (ix2 i l) = xc m c (ix2 e i) := by
  rw [iblk1_apply m c t (ix2 i l) (ix2 i e) rfl he, found_v19]
  exact perm10 _ _ i e
theorem lane_ea (c : Dev nD) (t : Fin cfg0.N) (l : Fin 16000) (e : Fin 1600000) (he : e.val = 16000 * t.val + l.val) (i : Fin 3) :
    (iblk m c 2 t : Vec Ideal S3x16000 .f32) (ix2 i l) = ((m ((c : Thread nD τ).loc main_arg1)) : Cert.ReferenceIdeal.S1600000x3.Idx → Elt Ideal .f32) (ix2 e i) := by
  rw [iblk2_apply m c t (ix2 i l) (ix2 i e) rfl he, found_v20]
  exact perm10 _ _ i e
theorem entry_w1 (c : Dev nD) (t : Fin cfg0.N) (k : Fin 50) (i : Fin 9) :
    (iblk m c 3 t : Vec Ideal S50x9 .f32) (ix2 k i) = ((m ((c : Thread nD τ).loc main_arg2)) : Cert.ReferenceIdeal.S9x50.Idx → Elt Ideal .f32) (ix2 i k) := by
  rw [iblk3_apply m c t (ix2 k i), found_v21]
  exact perm10 _ _ k i
theorem entry_b1 (c : Dev nD) (t : Fin cfg0.N) (k : Fin 50) :
    (iblk m c 4 t : Vec Ideal S50x1 .f32) (ix2 k (0 : Fin 1)) = ((m ((c : Thread nD τ).loc main_arg3)) : Cert.ReferenceIdeal.S50.Idx → Elt Ideal .f32) (ix1 k) := by
  rw [iblk4_apply m c t (ix2 k (0 : Fin 1)), found_v22]
  exact Cert.LibLayout.shapeCast_a_a1_apply _ _ k 0
theorem entry_w2 (c : Dev nD) (t : Fin cfg0.N) (k : Fin 50) (j : Fin 15) :
    (iblk m c 5 t : Vec Ideal S15x50 .f32) (ix2 j k) = ((m ((c : Thread nD τ).loc main_arg4)) : Cert.ReferenceIdeal.S50x15.Idx → Elt Ideal .f32) (ix2 k j) := by
  rw [iblk5_apply m c t (ix2 j k), found_v23]
  exact perm10 _ _ j k
theorem entry_b2 (c : Dev nD) (t : Fin cfg0.N) (j : Fin 15) :
    (iblk m c 6 t : Vec Ideal S15x1 .f32) (ix2 j (0 : Fin 1)) = ((m ((c : Thread nD τ).loc main_arg5)) : Cert.ReferenceIdeal.S15.Idx → Elt Ideal .f32) (ix1 j) := by
  rw [iblk6_apply m c t (ix2 j (0 : Fin 1)), found_v24]
  exact Cert.LibLayout.shapeCast_a_a1_apply _ _ j 0
theorem entry_nw1 (c : Dev nD) (t : Fin cfg0.N) (k : Fin 50) (i : Fin 18) :
    (iblk m c 7 t : Vec Ideal S50x18 .f32) (ix2 k i) = ((m ((c : Thread nD τ).loc main_arg6)) : Cert.ReferenceIdeal.S18x50.Idx → Elt Ideal .f32) (ix2 i k) := by
  rw [iblk7_apply m c t (ix2 k i), found_v25]
  exact perm10 _ _ k i
theorem entry_nb1 (c : Dev nD) (t : Fin cfg0.N) (k : Fin 50) :
    (iblk m c 8 t : Vec Ideal S50x1 .f32) (ix2 k (0 : Fin 1)) = ((m ((c : Thread nD τ).loc main_arg7)) : Cert.ReferenceIdeal.S50.Idx → Elt Ideal .f32) (ix1 k) := by
  rw [iblk8_apply m c t (ix2 k (0 : Fin 1)), found_v26]
  exact Cert.LibLayout.shapeCast_a_a1_apply _ _ k 0
theorem entry_nw2 (c : Dev nD) (t : Fin cfg0.N) (k : Fin 50) (j : Fin 15) :
    (iblk m c 9 t : Vec Ideal S15x50 .f32) (ix2 j k) = ((m ((c : Thread nD τ).loc main_arg8)) : Cert.ReferenceIdeal.S50x15.Idx → Elt Ideal .f32) (ix2 k j) := by
  rw [iblk9_apply m c t (ix2 j k), found_v27]
  exact perm10 _ _ j k
theorem entry_nb2 (c : Dev nD) (t : Fin cfg0.N) (j : Fin 15) :
    (iblk m c 10 t : Vec Ideal S15x1 .f32) (ix2 j (0 : Fin 1)) = ((m ((c : Thread nD τ).loc main_arg9)) : Cert.ReferenceIdeal.S15.Idx → Elt Ideal .f32) (ix1 j) := by
  rw [iblk10_apply m c t (ix2 j (0 : Fin 1)), found_v28]
  exact Cert.LibLayout.shapeCast_a_a1_apply _ _ j 0

end Cert.KernelIdeal.Msg

end
-- ==== Proof.KArray.lean ====
/- The kernel's side, fourth part: the region's output array after the run is the transposed message array.
   At grid point `t` the body stores one 15-by-16000 block; its entry `(j, l)` is the message formula of lane `l` of the
   point's feature blocks (the kernel's entry law), which is row `16000·t + l` of the reference's operands, whose message
   formula is entry `(16000·t + l, j)` of the reference's message array (the reference's entry law). The hundred blocks
   tile the 15-by-edges array — the point that covers column `e` is `e / 16000` — so the array ends as `msgsT`, and its
   transpose is the reference's message array. -/
import proofs.«124959_j86397562127205_2_alg».proof.Proof.KBlocks

set_option maxRecDepth 16384

noncomputable section

namespace Cert.KernelIdeal.Msg

open Cert.KernelIdeal Cert.KernelIdeal.Gen Cert.KernelIdeal.Frame Cert.EdgeStage
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

theorem zero_offsets : (![0, 0] : Fin 2 → Nat) = fun _ => 0 := funext fun a => by fin_cases a <;> rfl

/-- WHAT POINT `t` WRITES BACK is block `t` of the transposed message array. -/
theorem flushed_eq (hK : KernelEntryLaw) (hR : ReferenceEntryLaw) (c : Dev nD) (t : Fin cfg0.N) :
    (dats m 0 c).flushed 11 t = ((cfg0.win 11).blk t).view.read (Elt Ideal) (msgsT m c) := by
  show (cfg0.win 11).cut (grid0.coords t) ((dats m 0 c).after 11 t) = _
  rw [after_out]
  unfold msgBlock
  rw [View.canon_unit_zero zero_offsets]
  simp only [View.ld_unit_zero (S := S3x16000) zero_offsets, View.ld_unit_zero (S := S50x9) zero_offsets,
    View.ld_unit_zero (S := S50x1) zero_offsets, View.ld_unit_zero (S := S15x50) zero_offsets,
    View.ld_unit_zero (S := S15x1) zero_offsets, View.ld_unit_zero (S := S50x18) zero_offsets]
  obtain ⟨h0, h1⟩ := idx11 t
  have hN : cfg0.N = 100 := N_0
  refine funext fun (y : S15x16000.Idx) => ?_
  obtain ⟨j, l, rfl⟩ : ∃ (j : Fin 15) (l : Fin 16000), y = ix2 j l := ⟨y 0, y 1, eq_ix2 y⟩
  have hlt : 16000 * t.val + l.val < 1600000 := by have := t.isLt; have := l.isLt; omega
  show k0_pay1 (F := Ideal) (k0_pay2 (iblk m c 7 t : Vec Ideal S50x18 .f32)) (k0_pay3 (iblk m c 9 t : Vec Ideal S15x50 .f32))
      (k0_pay4 (iblk m c 0 t : Vec Ideal S3x16000 .f32) (iblk m c 1 t : Vec Ideal S3x16000 .f32) (iblk m c 2 t : Vec Ideal S3x16000 .f32) (iblk m c 3 t : Vec Ideal S50x9 .f32) (iblk m c 5 t : Vec Ideal S15x50 .f32) (iblk m c 4 t : Vec Ideal S50x1 .f32) (iblk m c 6 t : Vec Ideal S15x1 .f32))
      (constant S50x16000 .f32 0x00000000#32) (iblk m c 8 t : Vec Ideal S50x1 .f32) (iblk m c 10 t : Vec Ideal S15x1 .f32) (ix2 j l)
    = msgsT m c (((cfg0.win 11).blk t).view.emb (ix2 j l))
  have hemb : msgsT m c (((cfg0.win 11).blk t).view.emb (ix2 j l))
      = msgs m c (ix2 (⟨16000 * t.val + l.val, hlt⟩ : Fin 1600000) j) := by
    unfold msgsT
    refine congrArg (msgs m c) (funext fun a => ?_)
    match a with
    | ⟨0, _⟩ => exact Fin.ext (by show win0_11.index t (1 : Fin 2) * 16000 + 1 * l.val = 16000 * t.val + l.val; omega)
    | ⟨1, _⟩ => exact Fin.ext (by show win0_11.index t (0 : Fin 2) * 15 + 1 * j.val = j.val; omega)
  rw [hemb]
  refine (hK (iblk m c 0 t : Vec Ideal S3x16000 .f32) (iblk m c 1 t : Vec Ideal S3x16000 .f32) (iblk m c 2 t : Vec Ideal S3x16000 .f32) (iblk m c 3 t : Vec Ideal S50x9 .f32) (iblk m c 4 t : Vec Ideal S50x1 .f32) (iblk m c 5 t : Vec Ideal S15x50 .f32) (iblk m c 6 t : Vec Ideal S15x1 .f32)
    (iblk m c 7 t : Vec Ideal S50x18 .f32) (iblk m c 8 t : Vec Ideal S50x1 .f32) (iblk m c 9 t : Vec Ideal S15x50 .f32) (iblk m c 10 t : Vec Ideal S15x1 .f32) j l).trans ?_
  refine Eq.trans ?_ (hR (xr m c) (xc m c) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) ⟨16000 * t.val + l.val, hlt⟩ j).symm
  have e0 := funext fun i => lane_xr m c t l ⟨16000 * t.val + l.val, hlt⟩ rfl i
  have e1 := funext fun i => lane_xc m c t l ⟨16000 * t.val + l.val, hlt⟩ rfl i
  have e2 := funext fun i => lane_ea m c t l ⟨16000 * t.val + l.val, hlt⟩ rfl i
  have e3 := funext fun i => funext fun k => entry_w1 m c t k i
  have e4 := funext fun k => entry_b1 m c t k
  have e5 := funext fun k => funext fun j' => entry_w2 m c t k j'
  have e6 := funext fun j' => entry_b2 m c t j'
  have e7 := funext fun i => funext fun k => entry_nw1 m c t k i
  have e8 := funext fun k => entry_nb1 m c t k
  have e9 := funext fun k => funext fun j' => entry_nw2 m c t k j'
  have e10 := funext fun j' => entry_nb2 m c t j'
  rw [e0, e1, e2, e3, e4, e5, e6, e7, e8, e9, e10]

/-- An index of the output array is in point `t`'s block iff each coordinate is in the block's range on its axis. -/
theorem mem_blk_out (t : Fin cfg0.N) (i : S15x1600000.Idx) :
    i ∈ ((cfg0.win 11).blk t).view.set ↔ ∀ a : Fin 2, win0_11.index t a * S15x16000.size a ≤ (i a).val
      ∧ (i a).val < win0_11.index t a * S15x16000.size a + S15x16000.size a := by
  show i ∈ ((View.whole main_v29).slice (win0_11.rect t)).set ↔ _
  rw [View.set_slice_whole, Rect.mem_set_unit]
  exact Iff.rfl

/-- THE OUTPUT ARRAY after the run is the transposed message array: the point that covers column `e` is `e / 16000`. -/
theorem final_out (hK : KernelEntryLaw) (hR : ReferenceEntryLaw) (c : Dev nD) : (dats m 0 c).arrAt 11 cfg0.N = msgsT m c :=
  (dats m 0 c).arrAt_eq_of_cover 11 (msgsT m c) (fun t _ => flushed_eq m hK hR c t) fun (i : S15x1600000.Idx) => by
    have hN : cfg0.N = 100 := N_0
    have hi0 : (i 0).val < 15 := idx2_lt0 i
    have hi1 : (i 1).val < 1600000 := idx2_lt1 i
    have ht : (i 1).val / 16000 < cfg0.N := by rw [hN]; omega
    obtain ⟨h0, h1⟩ := idx11 ⟨(i 1).val / 16000, ht⟩
    refine ⟨⟨(i 1).val / 16000, ht⟩, flush0_11 _, ?_⟩
    rw [mem_blk_out]
    intro a
    match a with
    | ⟨0, _⟩ =>
      show win0_11.index ⟨(i 1).val / 16000, ht⟩ (0 : Fin 2) * 15 ≤ (i 0).val
        ∧ (i 0).val < win0_11.index ⟨(i 1).val / 16000, ht⟩ (0 : Fin 2) * 15 + 15
      omega
    | ⟨1, _⟩ =>
      show win0_11.index ⟨(i 1).val / 16000, ht⟩ (1 : Fin 2) * 16000 ≤ (i 1).val
        ∧ (i 1).val < win0_11.index ⟨(i 1).val / 16000, ht⟩ (1 : Fin 2) * 16000 + 16000
      have h1' : win0_11.index ⟨(i 1).val / 16000, ht⟩ (1 : Fin 2) = (i 1).val / 16000 := h1
      omega

/-- Transposed back to edges by 15, the output array is the reference's message array. -/
theorem transposed_out (hK : KernelEntryLaw) (hR : ReferenceEntryLaw) (c : Dev nD) :
    transpose S1600000x15 [1, 0] ((dats m 0 c).arrAt 11 cfg0.N : S15x1600000.Idx → Elt Ideal .f32) transposes_S15x1600000_S1600000x15_1_0
      = msgs m c := by
  rw [final_out m hK hR c]
  funext (q : S1600000x15.Idx)
  obtain ⟨e, j, rfl⟩ : ∃ (e : Fin 1600000) (j : Fin 15), q = ix2 e j := ⟨q 0, q 1, eq_ix2 q⟩
  rw [perm10 (msgsT m c) transposes_S15x1600000_S1600000x15_1_0 e j]
  rfl

end Cert.KernelIdeal.Msg

end
-- ==== Proof.TailDef.lean ====
/- From the per-edge messages to the class scores: the mean of the messages over each node's incoming edges, the mean of
   those over each graph's nodes, a linear layer, normalisation by the batch mean and variance, the rectifier, a second
   linear layer and the logarithm of the softmax of each row: the host operations that follow the edge stage, composed in
   their order as ONE function of the message array (edges by 15), the edges' target nodes, the nodes' graphs and the
   readout head's parameters. -/
import proofs.«124959_j86397562127205_2_alg».proof.Proof.Gen.KernelIdeal

set_option maxHeartbeats 4000000

noncomputable section

namespace Cert.Readout

open Idealize.ShloMosaic Cert.KernelIdeal Cert.KernelIdeal.Gen

variable {F : FTy → Type} [FloatOps F]

/-- The class scores as a function of the per-edge messages (v30), the edges' target nodes (v1), the nodes' graphs (arg17)
    and the readout head's parameters (arg10 to arg15): each line is one host operation, in the program's order. -/
def scores
    (v30 : (⟨S1600000x15, .f32⟩ : BufTy).Contents (Elt F))
    (v1 : (⟨S1600000, .i32⟩ : BufTy).Contents (Elt F))
    (arg17 : (⟨S100000, .i32⟩ : BufTy).Contents (Elt F))
    (arg10 : (⟨S15x10, .f32⟩ : BufTy).Contents (Elt F))
    (arg11 : (⟨S10, .f32⟩ : BufTy).Contents (Elt F))
    (arg12 : (⟨S10, .f32⟩ : BufTy).Contents (Elt F))
    (arg13 : (⟨S10, .f32⟩ : BufTy).Contents (Elt F))
    (arg14 : (⟨S10x6, .f32⟩ : BufTy).Contents (Elt F))
    (arg15 : (⟨S6, .f32⟩ : BufTy).Contents (Elt F)) :
    (⟨S512x6, .f32⟩ : BufTy).Contents (Elt F) :=
  have cst : (⟨S_, .f32⟩ : BufTy).Contents (Elt F) := (constant S_ .f32 0x00000000#32)
  have v31 : (⟨S100000x15, .f32⟩ : BufTy).Contents (Elt F) := (broadcastInDim S100000x15 ![] bcast_S_S100000x15) cst
  have v32 : (⟨S1600000x1, .i32⟩ : BufTy).Contents (Elt F) := (broadcastInDim S1600000x1 ![0] bcast_S1600000_S1600000x1_0) v1
  have v33 : (⟨S100000x15, .f32⟩ : BufTy).Contents (Elt F) := ((fun x i u => Host.scatterAdd scatter_S100000x15_S1600000x1_S1600000x15_1_0_0_1 x i u)) v31 v32 v30
  have cst_3 : (⟨S_, .f32⟩ : BufTy).Contents (Elt F) := (constant S_ .f32 0x3F800000#32)
  have v34 : (⟨S1600000x1, .f32⟩ : BufTy).Contents (Elt F) := (broadcastInDim S1600000x1 ![] bcast_S_S1600000x1) cst_3
  have cst_4 : (⟨S_, .f32⟩ : BufTy).Contents (Elt F) := (constant S_ .f32 0x00000000#32)
  have v35 : (⟨S100000x1, .f32⟩ : BufTy).Contents (Elt F) := (broadcastInDim S100000x1 ![] bcast_S_S100000x1) cst_4
  have v36 : (⟨S1600000x1, .i32⟩ : BufTy).Contents (Elt F) := (broadcastInDim S1600000x1 ![0] bcast_S1600000_S1600000x1_0) v1
  have v37 : (⟨S100000x1, .f32⟩ : BufTy).Contents (Elt F) := ((fun x i u => Host.scatterAdd scatter_S100000x1_S1600000x1_S1600000x1_1_0_0_1 x i u)) v35 v36 v34
  have cst_5 : (⟨S_, .f32⟩ : BufTy).Contents (Elt F) := (constant S_ .f32 0x3F800000#32)
  have v38 : (⟨S100000x1, .f32⟩ : BufTy).Contents (Elt F) := (broadcastInDim S100000x1 ![] bcast_S_S100000x1) cst_5
  have v39 : (⟨S100000x1, .f32⟩ : BufTy).Contents (Elt F) := (maximumf) v37 v38
  have v40 : (⟨S100000x15, .f32⟩ : BufTy).Contents (Elt F) := (broadcastInDim S100000x15 ![0, 1] bcast_S100000x1_S100000x15_0_1) v39
  have v41 : (⟨S100000x15, .f32⟩ : BufTy).Contents (Elt F) := (Host.divf) v33 v40
  have cst_6 : (⟨S_, .f32⟩ : BufTy).Contents (Elt F) := (constant S_ .f32 0x00000000#32)
  have v42 : (⟨S512x15, .f32⟩ : BufTy).Contents (Elt F) := (broadcastInDim S512x15 ![] bcast_S_S512x15) cst_6
  have v43 : (⟨S100000x1, .i32⟩ : BufTy).Contents (Elt F) := (broadcastInDim S100000x1 ![0] bcast_S100000_S100000x1_0) arg17
  have v44 : (⟨S512x15, .f32⟩ : BufTy).Contents (Elt F) := ((fun x i u => Host.scatterAdd scatter_S512x15_S100000x1_S100000x15_1_0_0_1 x i u)) v42 v43 v41
  have cst_7 : (⟨S_, .f32⟩ : BufTy).Contents (Elt F) := (constant S_ .f32 0x3F800000#32)
  have v45 : (⟨S100000x1, .f32⟩ : BufTy).Contents (Elt F) := (broadcastInDim S100000x1 ![] bcast_S_S100000x1) cst_7
  have cst_8 : (⟨S_, .f32⟩ : BufTy).Contents (Elt F) := (constant S_ .f32 0x00000000#32)
  have v46 : (⟨S512x1, .f32⟩ : BufTy).Contents (Elt F) := (broadcastInDim S512x1 ![] bcast_S_S512x1) cst_8
  have v47 : (⟨S100000x1, .i32⟩ : BufTy).Contents (Elt F) := (broadcastInDim S100000x1 ![0] bcast_S100000_S100000x1_0) arg17
  have v48 : (⟨S512x1, .f32⟩ : BufTy).Contents (Elt F) := ((fun x i u => Host.scatterAdd scatter_S512x1_S100000x1_S100000x1_1_0_0_1 x i u)) v46 v47 v45
  have cst_9 : (⟨S_, .f32⟩ : BufTy).Contents (Elt F) := (constant S_ .f32 0x3F800000#32)
  have v49 : (⟨S512x1, .f32⟩ : BufTy).Contents (Elt F) := (broadcastInDim S512x1 ![] bcast_S_S512x1) cst_9
  have v50 : (⟨S512x1, .f32⟩ : BufTy).Contents (Elt F) := (maximumf) v48 v49
  have v51 : (⟨S512x15, .f32⟩ : BufTy).Contents (Elt F) := (broadcastInDim S512x15 ![0, 1] bcast_S512x1_S512x15_0_1) v50
  have v52 : (⟨S512x15, .f32⟩ : BufTy).Contents (Elt F) := (Host.divf) v44 v51
  have v53 : (⟨S512x10, .f32⟩ : BufTy).Contents (Elt F) := ((fun l r => Host.dotGeneral dot_S512x15_S15x10_S512x10_1_0_0_1_n_n none l r)) v52 arg10
  have v54 : (⟨S1x10, .f32⟩ : BufTy).Contents (Elt F) := (broadcastInDim S1x10 ![1] bcast_S10_S1x10_1) arg11
  have v55 : (⟨S512x10, .f32⟩ : BufTy).Contents (Elt F) := (broadcastInDim S512x10 ![0, 1] bcast_S1x10_S512x10_0_1) v54
  have v56 : (⟨S512x10, .f32⟩ : BufTy).Contents (Elt F) := (addf) v53 v55
  have cst_10 : (⟨S_, .f32⟩ : BufTy).Contents (Elt F) := (constant S_ .f32 0x00000000#32)
  have v57 : (⟨S10, .f32⟩ : BufTy).Contents (Elt F) := ((fun x v => Host.reduceAdd x v reducesTo_S512x10_S10_d0 h_S_)) v56 cst_10
  have cst_11 : (⟨S_, .f32⟩ : BufTy).Contents (Elt F) := (constant S_ .f32 0x44000000#32)
  have v58 : (⟨S10, .f32⟩ : BufTy).Contents (Elt F) := (broadcastInDim S10 ![] bcast_S_S10) cst_11
  have v59 : (⟨S10, .f32⟩ : BufTy).Contents (Elt F) := (Host.divf) v57 v58
  have c_12 : (⟨S_, .i32⟩ : BufTy).Contents (Elt F) := (constantI S_ 32 0#32)
  have call0_cst : (⟨S_, .f32⟩ : BufTy).Contents (Elt F) := (constant S_ .f32 0x00000000#32)
  have call0_v0 : (⟨S10, .f32⟩ : BufTy).Contents (Elt F) := (fun x v => Host.reduceAdd x v reducesTo_S512x10_S10_d0 h_S_) v56 call0_cst
  have call0_v1 : (⟨S1x10, .f32⟩ : BufTy).Contents (Elt F) := (broadcastInDim S1x10 ![1] bcast_S10_S1x10_1) call0_v0
  have call0_cst_0 : (⟨S_, .f32⟩ : BufTy).Contents (Elt F) := (constant S_ .f32 0x44000000#32)
  have call0_v2 : (⟨S1x10, .f32⟩ : BufTy).Contents (Elt F) := (broadcastInDim S1x10 ![] bcast_S_S1x10) call0_cst_0
  have call0_v3 : (⟨S1x10, .f32⟩ : BufTy).Contents (Elt F) := Host.divf call0_v1 call0_v2
  have call0_v4 : (⟨S512x10, .f32⟩ : BufTy).Contents (Elt F) := (broadcastInDim S512x10 ![0, 1] bcast_S1x10_S512x10_0_1) call0_v3
  have call0_v5 : (⟨S512x10, .f32⟩ : BufTy).Contents (Elt F) := subf v56 call0_v4
  have call0_v6 : (⟨S512x10, .f32⟩ : BufTy).Contents (Elt F) := mulf call0_v5 call0_v5
  have call0_v7 : (⟨S_, .f32⟩ : BufTy).Contents (Elt F) := (sitofp .f32) c_12
  have call0_cst_1 : (⟨S_, .f32⟩ : BufTy).Contents (Elt F) := (constant S_ .f32 0x44000000#32)
  have call0_v8 : (⟨S_, .f32⟩ : BufTy).Contents (Elt F) := subf call0_cst_1 call0_v7
  have call0_cst_2 : (⟨S_, .f32⟩ : BufTy).Contents (Elt F) := (constant S_ .f32 0x00000000#32)
  have call0_v9 : (⟨S10, .f32⟩ : BufTy).Contents (Elt F) := (fun x v => Host.reduceAdd x v reducesTo_S512x10_S10_d0 h_S_) call0_v6 call0_cst_2
  have call0_v10 : (⟨S10, .f32⟩ : BufTy).Contents (Elt F) := (broadcastInDim S10 ![] bcast_S_S10) call0_v8
  have call0_v11 : (⟨S10, .f32⟩ : BufTy).Contents (Elt F) := Host.divf call0_v9 call0_v10
  have call0_cst_3 : (⟨S_, .f32⟩ : BufTy).Contents (Elt F) := (constant S_ .f32 0x00000000#32)
  have call0_v12 : (⟨S_, .i1⟩ : BufTy).Contents (Elt F) := (cmpf .ogt) call0_v8 call0_cst_3
  have call0_cst_4 : (⟨S_, .f32⟩ : BufTy).Contents (Elt F) := (constant S_ .f32 0x7FC00000#32)
  have call0_call0_v0 : (⟨S_, .f32⟩ : BufTy).Contents (Elt F) := id call0_cst_4
  have call0_call0_v1 : (⟨S10, .f32⟩ : BufTy).Contents (Elt F) := (broadcastInDim S10 ![] bcast_S_S10) call0_call0_v0
  have v60 : (⟨S10, .f32⟩ : BufTy).Contents (Elt F) := (fun p a b => select (broadcastInDim S10 ![] bcast_S_S10 p) a b) call0_v12 call0_v11 call0_call0_v1
  have v61 : (⟨S1x10, .f32⟩ : BufTy).Contents (Elt F) := (broadcastInDim S1x10 ![1] bcast_S10_S1x10_1) v59
  have v62 : (⟨S512x10, .f32⟩ : BufTy).Contents (Elt F) := (broadcastInDim S512x10 ![0, 1] bcast_S1x10_S512x10_0_1) v61
  have v63 : (⟨S512x10, .f32⟩ : BufTy).Contents (Elt F) := (subf) v56 v62
  have v64 : (⟨S1x10, .f32⟩ : BufTy).Contents (Elt F) := (broadcastInDim S1x10 ![1] bcast_S10_S1x10_1) arg12
  have v65 : (⟨S512x10, .f32⟩ : BufTy).Contents (Elt F) := (broadcastInDim S512x10 ![0, 1] bcast_S1x10_S512x10_0_1) v64
  have v66 : (⟨S512x10, .f32⟩ : BufTy).Contents (Elt F) := (mulf) v65 v63
  have cst_13 : (⟨S_, .f32⟩ : BufTy).Contents (Elt F) := (constant S_ .f32 0x3727C5AC#32)
  have v67 : (⟨S10, .f32⟩ : BufTy).Contents (Elt F) := (broadcastInDim S10 ![] bcast_S_S10) cst_13
  have v68 : (⟨S10, .f32⟩ : BufTy).Contents (Elt F) := (addf) v60 v67
  have v69 : (⟨S10, .f32⟩ : BufTy).Contents (Elt F) := (Host.rsqrt) v68
  have v70 : (⟨S1x10, .f32⟩ : BufTy).Contents (Elt F) := (broadcastInDim S1x10 ![1] bcast_S10_S1x10_1) v69
  have v71 : (⟨S512x10, .f32⟩ : BufTy).Contents (Elt F) := (broadcastInDim S512x10 ![0, 1] bcast_S1x10_S512x10_0_1) v70
  have v72 : (⟨S512x10, .f32⟩ : BufTy).Contents (Elt F) := (mulf) v66 v71
  have v73 : (⟨S1x10, .f32⟩ : BufTy).Contents (Elt F) := (broadcastInDim S1x10 ![1] bcast_S10_S1x10_1) arg13
  have v74 : (⟨S512x10, .f32⟩ : BufTy).Contents (Elt F) := (broadcastInDim S512x10 ![0, 1] bcast_S1x10_S512x10_0_1) v73
  have v75 : (⟨S512x10, .f32⟩ : BufTy).Contents (Elt F) := (addf) v72 v74
  have call1_cst : (⟨S_, .f32⟩ : BufTy).Contents (Elt F) := (constant S_ .f32 0x00000000#32)
  have call1_v0 : (⟨S512x10, .f32⟩ : BufTy).Contents (Elt F) := (broadcastInDim S512x10 ![] bcast_S_S512x10) call1_cst
  have v76 : (⟨S512x10, .f32⟩ : BufTy).Contents (Elt F) := maximumf v75 call1_v0
  have v77 : (⟨S512x6, .f32⟩ : BufTy).Contents (Elt F) := ((fun l r => Host.dotGeneral dot_S512x10_S10x6_S512x6_1_0_0_1_n_n none l r)) v76 arg14
  have v78 : (⟨S1x6, .f32⟩ : BufTy).Contents (Elt F) := (broadcastInDim S1x6 ![1] bcast_S6_S1x6_1) arg15
  have v79 : (⟨S512x6, .f32⟩ : BufTy).Contents (Elt F) := (broadcastInDim S512x6 ![0, 1] bcast_S1x6_S512x6_0_1) v78
  have v80 : (⟨S512x6, .f32⟩ : BufTy).Contents (Elt F) := (addf) v77 v79
  have call2_cst : (⟨S_, .f32⟩ : BufTy).Contents (Elt F) := (constant S_ .f32 0xFF800000#32)
  have call2_v0 : (⟨S512, .f32⟩ : BufTy).Contents (Elt F) := (fun x v => Host.reduce FloatOps.maximumf x v reducesTo_S512x6_S512_d1 h_S_) v80 call2_cst
  have call2_cst_0 : (⟨S_, .f32⟩ : BufTy).Contents (Elt F) := (constant S_ .f32 0xFF800000#32)
  have call2_v1 : (⟨S512, .f32⟩ : BufTy).Contents (Elt F) := (broadcastInDim S512 ![] bcast_S_S512) call2_cst_0
  have call2_v2 : (⟨S512, .f32⟩ : BufTy).Contents (Elt F) := maximumf call2_v1 call2_v0
  have call2_v3 : (⟨S512x1, .f32⟩ : BufTy).Contents (Elt F) := (broadcastInDim S512x1 ![0] bcast_S512_S512x1_0) call2_v2
  have call2_v4 : (⟨S512x6, .f32⟩ : BufTy).Contents (Elt F) := (broadcastInDim S512x6 ![0, 1] bcast_S512x1_S512x6_0_1) call2_v3
  have call2_v5 : (⟨S512x6, .f32⟩ : BufTy).Contents (Elt F) := subf v80 call2_v4
  have call2_v6 : (⟨S512x6, .f32⟩ : BufTy).Contents (Elt F) := Host.exp call2_v5
  have call2_cst_1 : (⟨S_, .f32⟩ : BufTy).Contents (Elt F) := (constant S_ .f32 0x00000000#32)
  have call2_v7 : (⟨S512, .f32⟩ : BufTy).Contents (Elt F) := (fun x v => Host.reduceAdd x v reducesTo_S512x6_S512_d1 h_S_) call2_v6 call2_cst_1
  have call2_v8 : (⟨S512x1, .f32⟩ : BufTy).Contents (Elt F) := (broadcastInDim S512x1 ![0] bcast_S512_S512x1_0) call2_v7
  have call2_v9 : (⟨S512x1, .f32⟩ : BufTy).Contents (Elt F) := Host.log call2_v8
  have call2_v10 : (⟨S512x6, .f32⟩ : BufTy).Contents (Elt F) := (broadcastInDim S512x6 ![0, 1] bcast_S512x1_S512x6_0_1) call2_v9
  have v81 : (⟨S512x6, .f32⟩ : BufTy).Contents (Elt F) := subf call2_v5 call2_v10
  v81

end Cert.Readout

end
-- ==== Proof.KTail.lean ====
/- The kernel's side, third part: the host lines after the region. Run from the contents the region leaves (its arrays
   at what the pipeline wrote back, every other buffer as the region found it), they transpose the output array to edges
   by 15 and then compute the class scores from it — the same operations, in the same order, as the function `scores`. -/
import proofs.«124959_j86397562127205_2_alg».proof.Proof.KFrameDefs
import proofs.«124959_j86397562127205_2_alg».proof.Proof.TailDef
import Idealize.ShloMosaic.Lib.Pipeline.Value
import Idealize.ShloMosaic.Lib.StableHlo.Run

set_option maxRecDepth 16384

noncomputable section

namespace Cert.KernelIdeal.Msg

open Cert.KernelIdeal Cert.KernelIdeal.Gen Cert.KernelIdeal.Frame
open Idealize.ShloMosaic Idealize.ShloMosaic.TcCoe Idealize.SL.Sem Idealize.ShloMosaic.StableHlo

variable {F : FTy → Type} [FloatOps F]
variable (m : (ℓ : Loc nD τ sig) → Buf (Elt F) ℓ)

/-- The buffer contents the host lines after the region start from. -/
abbrev afterRegion (c : Dev nD) : Valuation τ sig (Elt F) :=
  Pipeline.withArrays (cfgs 0).spec c (V0 m c) fun w => (dats m 0 c).arrAt w (cfgs 0).N

set_option maxHeartbeats 4000000 in
/-- The result buffer after the host lines: `scores` of the transposed output array, of the edges' target nodes, the nodes'
    graphs and the head's parameters, each as the region left it. -/
theorem tail_value (c : Dev nD) :
    Pipeline.afterTail₀ cfgs (dats m) 0 (V0 m) tailOps c main_v81
      = Cert.Readout.scores
          (transpose S1600000x15 [1, 0] (afterRegion m c (Proc.devRef .tc main_v29)) transposes_S15x1600000_S1600000x15_1_0)
          (afterRegion m c (Proc.devRef .tc main_v1)) (afterRegion m c (Proc.devRef .tc main_arg17))
          (afterRegion m c (Proc.devRef .tc main_arg10)) (afterRegion m c (Proc.devRef .tc main_arg11))
          (afterRegion m c (Proc.devRef .tc main_arg12)) (afterRegion m c (Proc.devRef .tc main_arg13))
          (afterRegion m c (Proc.devRef .tc main_arg14)) (afterRegion m c (Proc.devRef .tc main_arg15)) := by
  unfold Pipeline.afterTail₀
  show StableHlo.after (hostOps1 ++ (hostOps1_1 ++ (hostOps1_2 ++ (hostOps1_3 ++ (hostOps1_4 ++ (hostOps1_5 ++ []))))))
    (afterRegion m c) (Proc.devRef .tc main_v81) = _
  simp only [hostOps1, hostOps1_1, hostOps1_2, hostOps1_3, hostOps1_4, hostOps1_5, List.append_nil, List.cons_append, List.nil_append]
  after_results_simp
  rfl

/-- The output array after the region is what the pipeline wrote back. -/
theorem afterRegion_out (c : Dev nD) : afterRegion m c (Proc.devRef .tc main_v29) = (dats m 0 c).arrAt 11 cfg0.N :=
  Pipeline.withArrays_arr spec0 launch0.win.arr_inj c _ _ 11

/-- A buffer that is no window's array is as the region found it. -/
theorem afterRegion_other (c : Dev nD) (b : Ref sig .tc) (hb : ∀ w, Pipeline.arrRef spec0 w ≠ b) :
    afterRegion m c (Proc.devRef .tc b) = V m c b :=
  Pipeline.withArrays_of_ne _ c (V0 m c) _ b hb

end Cert.KernelIdeal.Msg

end
-- ==== Proof.KRun.lean ====
/- The kernel's side, last part: the run of the kernel's program, read. Every weakly fair execution terminates with the
   result buffer at the class scores of the reference's message array — the region's output array, transposed by the first
   host line after the region, is that array — and with the eighteen argument arrays as launched. -/
import proofs.«124959_j86397562127205_2_alg».proof.Proof.KFrame
import proofs.«124959_j86397562127205_2_alg».proof.Proof.KArray
import proofs.«124959_j86397562127205_2_alg».proof.Proof.KTail

set_option maxRecDepth 16384

noncomputable section

namespace Cert.KernelIdeal.Msg

open Cert.KernelIdeal Cert.KernelIdeal.Gen Cert.KernelIdeal.Frame Cert.EdgeStage
open Idealize.ShloMosaic Idealize.ShloMosaic.TcCoe Idealize.SL.Sem

variable (m : (ℓ : Loc nD τ sig) → Buf (Elt Ideal) ℓ) (ρ : Dev nD → PrngReg)

/-- The class scores, from the launch memory on core `c`: the readout of the reference's message array. -/
abbrev result (c : Dev nD) : Buf (Elt Ideal) ((c.tc : Thread nD τ).loc main_v81) :=
  Cert.Readout.scores (msgs m c) (targets (m ((c : Thread nD τ).loc main_arg16))) (m ((c : Thread nD τ).loc main_arg17))
    (m ((c : Thread nD τ).loc main_arg10)) (m ((c : Thread nD τ).loc main_arg11)) (m ((c : Thread nD τ).loc main_arg12))
    (m ((c : Thread nD τ).loc main_arg13)) (m ((c : Thread nD τ).loc main_arg14)) (m ((c : Thread nD τ).loc main_arg15))

/-- What the host lines after the region leave in the result buffer. -/
theorem result_eq (hK : KernelEntryLaw) (hR : ReferenceEntryLaw) (c : Dev nD) :
    Pipeline.afterTail₀ cfgs (dats m) 0 (V0 m) tailOps c main_v81 = result m c := by
  rw [tail_value, afterRegion_out,
    afterRegion_other m c main_v1 (by decide), afterRegion_other m c main_arg17 (by decide),
    afterRegion_other m c main_arg10 (by decide), afterRegion_other m c main_arg11 (by decide),
    afterRegion_other m c main_arg12 (by decide), afterRegion_other m c main_arg13 (by decide),
    afterRegion_other m c main_arg14 (by decide), afterRegion_other m c main_arg15 (by decide),
    transposed_out m hK hR c, found_v1, V_main_arg17, V_main_arg10, V_main_arg11, V_main_arg12, V_main_arg13,
    V_main_arg14, V_main_arg15]

/-- THE RUN, READ: the result buffer ends at `result`, the arguments as launched. -/
theorem run (hK : KernelEntryLaw) (hR : ReferenceEntryLaw) :
    θ_run defs (onTc (τ := τ) (main (F := Ideal))) ⟨m, fun _ => 0, ρ⟩ (fun r => ∀ c : Dev nD,
      r.2.mem ((c.tc : Thread nD τ).loc main_v81) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => ⟨((h c).2 main_v81 (Pipeline.mem_restRefs_of main_v81 (by decide) (by decide))).trans (result_eq m hK hR c),
      ((h c).2 main_arg0 (Pipeline.mem_restRefs_of main_arg0 (by decide) (by decide))).trans (W_main_arg0 m c),
      ((h c).2 main_arg1 (Pipeline.mem_restRefs_of main_arg1 (by decide) (by decide))).trans (W_main_arg1 m c),
      ((h c).2 main_arg2 (Pipeline.mem_restRefs_of main_arg2 (by decide) (by decide))).trans (W_main_arg2 m c),
      ((h c).2 main_arg3 (Pipeline.mem_restRefs_of main_arg3 (by decide) (by decide))).trans (W_main_arg3 m c),
      ((h c).2 main_arg4 (Pipeline.mem_restRefs_of main_arg4 (by decide) (by decide))).trans (W_main_arg4 m c),
      ((h c).2 main_arg5 (Pipeline.mem_restRefs_of main_arg5 (by decide) (by decide))).trans (W_main_arg5 m c),
      ((h c).2 main_arg6 (Pipeline.mem_restRefs_of main_arg6 (by decide) (by decide))).trans (W_main_arg6 m c),
      ((h c).2 main_arg7 (Pipeline.mem_restRefs_of main_arg7 (by decide) (by decide))).trans (W_main_arg7 m c),
      ((h c).2 main_arg8 (Pipeline.mem_restRefs_of main_arg8 (by decide) (by decide))).trans (W_main_arg8 m c),
      ((h c).2 main_arg9 (Pipeline.mem_restRefs_of main_arg9 (by decide) (by decide))).trans (W_main_arg9 m c),
      ((h c).2 main_arg10 (Pipeline.mem_restRefs_of main_arg10 (by decide) (by decide))).trans (W_main_arg10 m c),
      ((h c).2 main_arg11 (Pipeline.mem_restRefs_of main_arg11 (by decide) (by decide))).trans (W_main_arg11 m c),
      ((h c).2 main_arg12 (Pipeline.mem_restRefs_of main_arg12 (by decide) (by decide))).trans (W_main_arg12 m c),
      ((h c).2 main_arg13 (Pipeline.mem_restRefs_of main_arg13 (by decide) (by decide))).trans (W_main_arg13 m c),
      ((h c).2 main_arg14 (Pipeline.mem_restRefs_of main_arg14 (by decide) (by decide))).trans (W_main_arg14 m c),
      ((h c).2 main_arg15 (Pipeline.mem_restRefs_of main_arg15 (by decide) (by decide))).trans (W_main_arg15 m c),
      ((h c).2 main_arg16 (Pipeline.mem_restRefs_of main_arg16 (by decide) (by decide))).trans (W_main_arg16 m c),
      ((h c).2 main_arg17 (Pipeline.mem_restRefs_of main_arg17 (by decide) (by decide))).trans (W_main_arg17 m c)⟩) (run_main m ρ)

end Cert.KernelIdeal.Msg

end
-- ==== Proof.RefOps.lean ====
/- The reference program's @main as ONE list of host operations: the 115 statements of its two windows in order, each
   call of an outlined function (the two rectifiers of the edge perceptrons, the batch variance with its guarded
   quotient, the head's rectifier, the logarithm of the softmax) replaced by the function's own operations over that
   call's buffers. The list is cut where the specification functions are cut: the two rows of the edge list; the
   gathers and the two perceptrons up to the per-edge messages; the two means, the head and the class scores. -/
import proofs.«124959_j86397562127205_2_alg».proof.Proof.Gen.ReferenceIdeal
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- The two rows of the edge list as vectors (statements 1 … 4). -/
abbrev opsA : List (HloOp τ sig (Elt F)) :=
  [ StableHlo.unary main_arg16 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg16 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000 ]

/-- From the index arithmetic of the first gather to the per-edge messages (statements 5 … 51; the two rectifier
    calls inline). -/
abbrev opsB : List (HloOp τ sig (Elt F)) :=
  [ StableHlo.nullary main_c (constantI S_ 32 0#32),
    StableHlo.unary main_c main_v4 (broadcastInDim S1600000 ![] bcast_S_S1600000 : (⟨S_, .i32⟩ : BufTy).Contents (Elt F) → (⟨S1600000, .i32⟩ : BufTy).Contents (Elt F)),
    StableHlo.binary main_v1 main_v4 main_v5 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v6 (broadcastInDim S1600000 ![] bcast_S_S1600000 : (⟨S_, .i32⟩ : BufTy).Contents (Elt F) → (⟨S1600000, .i32⟩ : BufTy).Contents (Elt F)),
    StableHlo.binary main_v1 main_v6 main_v7 (addi : (⟨S1600000, .i32⟩ : BufTy).Contents (Elt F) → (⟨S1600000, .i32⟩ : BufTy).Contents (Elt F) → (⟨S1600000, .i32⟩ : BufTy).Contents (Elt F)),
    StableHlo.ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v8 main_v9 (broadcastInDim S1600000x1 ![0] bcast_S1600000_S1600000x1_0 : (⟨S1600000, .i32⟩ : BufTy).Contents (Elt F) → (⟨S1600000x1, .i32⟩ : BufTy).Contents (Elt F)),
    StableHlo.binary main_arg0 main_v9 main_v10 ((fun x i => Host.gather gather_S100000x3_S1600000x1_S1600000x3_1_0_n_n_0_1_13 x i) : (⟨S100000x3, .f32⟩ : BufTy).Contents (Elt F) → (⟨S1600000x1, .i32⟩ : BufTy).Contents (Elt F) → (⟨S1600000x3, .f32⟩ : BufTy).Contents (Elt F)),
    StableHlo.nullary main_c_1 (constantI S_ 32 0#32),
    StableHlo.unary main_c_1 main_v11 (broadcastInDim S1600000 ![] bcast_S_S1600000 : (⟨S_, .i32⟩ : BufTy).Contents (Elt F) → (⟨S1600000, .i32⟩ : BufTy).Contents (Elt F)),
    StableHlo.binary main_v3 main_v11 main_v12 (cmpi .slt : (⟨S1600000, .i32⟩ : BufTy).Contents (Elt F) → (⟨S1600000, .i32⟩ : BufTy).Contents (Elt F) → (⟨S1600000, .i1⟩ : BufTy).Contents (Elt F)),
    StableHlo.nullary main_c_2 (constantI S_ 32 100000#32),
    StableHlo.unary main_c_2 main_v13 (broadcastInDim S1600000 ![] bcast_S_S1600000 : (⟨S_, .i32⟩ : BufTy).Contents (Elt F) → (⟨S1600000, .i32⟩ : BufTy).Contents (Elt F)),
    StableHlo.binary main_v3 main_v13 main_v14 (addi : (⟨S1600000, .i32⟩ : BufTy).Contents (Elt F) → (⟨S1600000, .i32⟩ : BufTy).Contents (Elt F) → (⟨S1600000, .i32⟩ : BufTy).Contents (Elt F)),
    StableHlo.ternary main_v12 main_v14 main_v3 main_v15 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v15 main_v16 (broadcastInDim S1600000x1 ![0] bcast_S1600000_S1600000x1_0 : (⟨S1600000, .i32⟩ : BufTy).Contents (Elt F) → (⟨S1600000x1, .i32⟩ : BufTy).Contents (Elt F)),
    StableHlo.binary main_arg0 main_v16 main_v17 ((fun x i => Host.gather gather_S100000x3_S1600000x1_S1600000x3_1_0_n_n_0_1_13 x i) : (⟨S100000x3, .f32⟩ : BufTy).Contents (Elt F) → (⟨S1600000x1, .i32⟩ : BufTy).Contents (Elt F) → (⟨S1600000x3, .f32⟩ : BufTy).Contents (Elt F)),
    StableHlo.nary ![main_v10, main_v17, main_arg1] main_v18 (fun u => concatenate S1600000x9 1 [⟨S1600000x3, u 0⟩, ⟨S1600000x3, u 1⟩, ⟨S1600000x3, u 2⟩] concatenates_S1600000x3_S1600000x3_S1600000x3_S1600000x9_d1),
    StableHlo.binary main_v18 main_arg2 main_v19 ((fun l r => Host.dotGeneral dot_S1600000x9_S9x50_S1600000x50_1_0_0_1_n_n none l r) : (⟨S1600000x9, .f32⟩ : BufTy).Contents (Elt F) → (⟨S9x50, .f32⟩ : BufTy).Contents (Elt F) → (⟨S1600000x50, .f32⟩ : BufTy).Contents (Elt F)),
    StableHlo.unary main_arg3 main_v20 (broadcastInDim S1x50 ![1] bcast_S50_S1x50_1 : (⟨S50, .f32⟩ : BufTy).Contents (Elt F) → (⟨S1x50, .f32⟩ : BufTy).Contents (Elt F)),
    StableHlo.unary main_v20 main_v21 (broadcastInDim S1600000x50 ![0, 1] bcast_S1x50_S1600000x50_0_1 : (⟨S1x50, .f32⟩ : BufTy).Contents (Elt F) → (⟨S1600000x50, .f32⟩ : BufTy).Contents (Elt F)),
    StableHlo.binary main_v19 main_v21 main_v22 (addf : (⟨S1600000x50, .f32⟩ : BufTy).Contents (Elt F) → (⟨S1600000x50, .f32⟩ : BufTy).Contents (Elt F) → (⟨S1600000x50, .f32⟩ : BufTy).Contents (Elt F)),
    StableHlo.TRef.nullary main_call0.cst (constant S_ .f32 0x00000000#32),
    StableHlo.TRef.unary main_call0.cst main_call0.v0 (broadcastInDim S1600000x50 ![] bcast_S_S1600000x50),
    StableHlo.TRef.binary (.of main_v22 : StableHlo.TRef sig ⟨S1600000x50, .f32⟩) main_call0.v0 main_call0.v1 maximumf,
    StableHlo.binary main_v23 main_arg4 main_v24 ((fun l r => Host.dotGeneral dot_S1600000x50_S50x15_S1600000x15_1_0_0_1_n_n none l r) : (⟨S1600000x50, .f32⟩ : BufTy).Contents (Elt F) → (⟨S50x15, .f32⟩ : BufTy).Contents (Elt F) → (⟨S1600000x15, .f32⟩ : BufTy).Contents (Elt F)),
    StableHlo.unary main_arg5 main_v25 (broadcastInDim S1x15 ![1] bcast_S15_S1x15_1 : (⟨S15, .f32⟩ : BufTy).Contents (Elt F) → (⟨S1x15, .f32⟩ : BufTy).Contents (Elt F)),
    StableHlo.unary main_v25 main_v26 (broadcastInDim S1600000x15 ![0, 1] bcast_S1x15_S1600000x15_0_1 : (⟨S1x15, .f32⟩ : BufTy).Contents (Elt F) → (⟨S1600000x15, .f32⟩ : BufTy).Contents (Elt F)),
    StableHlo.binary main_v24 main_v26 main_v27 (addf : (⟨S1600000x15, .f32⟩ : BufTy).Contents (Elt F) → (⟨S1600000x15, .f32⟩ : BufTy).Contents (Elt F) → (⟨S1600000x15, .f32⟩ : BufTy).Contents (Elt F)),
    StableHlo.nullary main_c_3 (constantI S_ 32 0#32),
    StableHlo.unary main_c_3 main_v28 (broadcastInDim S1600000 ![] bcast_S_S1600000 : (⟨S_, .i32⟩ : BufTy).Contents (Elt F) → (⟨S1600000, .i32⟩ : BufTy).Contents (Elt F)),
    StableHlo.binary main_v3 main_v28 main_v29 (cmpi .slt : (⟨S1600000, .i32⟩ : BufTy).Contents (Elt F) → (⟨S1600000, .i32⟩ : BufTy).Contents (Elt F) → (⟨S1600000, .i1⟩ : BufTy).Contents (Elt F)),
    StableHlo.nullary main_c_4 (constantI S_ 32 100000#32),
    StableHlo.unary main_c_4 main_v30 (broadcastInDim S1600000 ![] bcast_S_S1600000 : (⟨S_, .i32⟩ : BufTy).Contents (Elt F) → (⟨S1600000, .i32⟩ : BufTy).Contents (Elt F)),
    StableHlo.binary main_v3 main_v30 main_v31 (addi : (⟨S1600000, .i32⟩ : BufTy).Contents (Elt F) → (⟨S1600000, .i32⟩ : BufTy).Contents (Elt F) → (⟨S1600000, .i32⟩ : BufTy).Contents (Elt F)),
    StableHlo.ternary main_v29 main_v31 main_v3 main_v32 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v32 main_v33 (broadcastInDim S1600000x1 ![0] bcast_S1600000_S1600000x1_0 : (⟨S1600000, .i32⟩ : BufTy).Contents (Elt F) → (⟨S1600000x1, .i32⟩ : BufTy).Contents (Elt F)),
    StableHlo.binary main_arg0 main_v33 main_v34 ((fun x i => Host.gather gather_S100000x3_S1600000x1_S1600000x3_1_0_n_n_0_1_13 x i) : (⟨S100000x3, .f32⟩ : BufTy).Contents (Elt F) → (⟨S1600000x1, .i32⟩ : BufTy).Contents (Elt F) → (⟨S1600000x3, .f32⟩ : BufTy).Contents (Elt F)),
    StableHlo.binary main_v34 main_v27 main_v35 ((fun a b => concatenate S1600000x18 1 [⟨S1600000x3, a⟩, ⟨S1600000x15, b⟩] concatenates_S1600000x3_S1600000x15_S1600000x18_d1) : (⟨S1600000x3, .f32⟩ : BufTy).Contents (Elt F) → (⟨S1600000x15, .f32⟩ : BufTy).Contents (Elt F) → (⟨S1600000x18, .f32⟩ : BufTy).Contents (Elt F)),
    StableHlo.binary main_v35 main_arg6 main_v36 ((fun l r => Host.dotGeneral dot_S1600000x18_S18x50_S1600000x50_1_0_0_1_n_n none l r) : (⟨S1600000x18, .f32⟩ : BufTy).Contents (Elt F) → (⟨S18x50, .f32⟩ : BufTy).Contents (Elt F) → (⟨S1600000x50, .f32⟩ : BufTy).Contents (Elt F)),
    StableHlo.unary main_arg7 main_v37 (broadcastInDim S1x50 ![1] bcast_S50_S1x50_1 : (⟨S50, .f32⟩ : BufTy).Contents (Elt F) → (⟨S1x50, .f32⟩ : BufTy).Contents (Elt F)),
    StableHlo.unary main_v37 main_v38 (broadcastInDim S1600000x50 ![0, 1] bcast_S1x50_S1600000x50_0_1 : (⟨S1x50, .f32⟩ : BufTy).Contents (Elt F) → (⟨S1600000x50, .f32⟩ : BufTy).Contents (Elt F)),
    StableHlo.binary main_v36 main_v38 main_v39 (addf : (⟨S1600000x50, .f32⟩ : BufTy).Contents (Elt F) → (⟨S1600000x50, .f32⟩ : BufTy).Contents (Elt F) → (⟨S1600000x50, .f32⟩ : BufTy).Contents (Elt F)),
    StableHlo.TRef.nullary main_call1.cst (constant S_ .f32 0x00000000#32),
    StableHlo.TRef.unary main_call1.cst main_call1.v0 (broadcastInDim S1600000x50 ![] bcast_S_S1600000x50),
    StableHlo.TRef.binary (.of main_v39 : StableHlo.TRef sig ⟨S1600000x50, .f32⟩) main_call1.v0 main_call1.v1 maximumf,
    StableHlo.binary main_v40 main_arg8 main_v41 ((fun l r => Host.dotGeneral dot_S1600000x50_S50x15_S1600000x15_1_0_0_1_n_n none l r) : (⟨S1600000x50, .f32⟩ : BufTy).Contents (Elt F) → (⟨S50x15, .f32⟩ : BufTy).Contents (Elt F) → (⟨S1600000x15, .f32⟩ : BufTy).Contents (Elt F)),
    StableHlo.unary main_arg9 main_v42 (broadcastInDim S1x15 ![1] bcast_S15_S1x15_1 : (⟨S15, .f32⟩ : BufTy).Contents (Elt F) → (⟨S1x15, .f32⟩ : BufTy).Contents (Elt F)),
    StableHlo.unary main_v42 main_v43 (broadcastInDim S1600000x15 ![0, 1] bcast_S1x15_S1600000x15_0_1 : (⟨S1x15, .f32⟩ : BufTy).Contents (Elt F) → (⟨S1600000x15, .f32⟩ : BufTy).Contents (Elt F)),
    StableHlo.binary main_v41 main_v43 main_v44 (addf : (⟨S1600000x15, .f32⟩ : BufTy).Contents (Elt F) → (⟨S1600000x15, .f32⟩ : BufTy).Contents (Elt F) → (⟨S1600000x15, .f32⟩ : BufTy).Contents (Elt F)) ]

/-- The start of the first mean (statements 52 … 60: the rest of the first window). -/
abbrev opsC0 : List (HloOp τ sig (Elt F)) :=
  [ StableHlo.nullary main_cst (constant S_ .f32 0x00000000#32),
    StableHlo.unary main_cst main_v45 (broadcastInDim S100000x15 ![] bcast_S_S100000x15 : (⟨S_, .f32⟩ : BufTy).Contents (Elt F) → (⟨S100000x15, .f32⟩ : BufTy).Contents (Elt F)),
    StableHlo.unary main_v1 main_v46 (broadcastInDim S1600000x1 ![0] bcast_S1600000_S1600000x1_0 : (⟨S1600000, .i32⟩ : BufTy).Contents (Elt F) → (⟨S1600000x1, .i32⟩ : BufTy).Contents (Elt F)),
    StableHlo.ternary main_v45 main_v46 main_v44 main_v47 ((fun x i u => Host.scatterAdd scatter_S100000x15_S1600000x1_S1600000x15_1_0_0_1 x i u) : (⟨S100000x15, .f32⟩ : BufTy).Contents (Elt F) → (⟨S1600000x1, .i32⟩ : BufTy).Contents (Elt F) → (⟨S1600000x15, .f32⟩ : BufTy).Contents (Elt F) → (⟨S100000x15, .f32⟩ : BufTy).Contents (Elt F)),
    StableHlo.nullary main_cst_5 (constant S_ .f32 0x3F800000#32),
    StableHlo.unary main_cst_5 main_v48 (broadcastInDim S1600000x1 ![] bcast_S_S1600000x1 : (⟨S_, .f32⟩ : BufTy).Contents (Elt F) → (⟨S1600000x1, .f32⟩ : BufTy).Contents (Elt F)),
    StableHlo.nullary main_cst_6 (constant S_ .f32 0x00000000#32),
    StableHlo.unary main_cst_6 main_v49 (broadcastInDim S100000x1 ![] bcast_S_S100000x1 : (⟨S_, .f32⟩ : BufTy).Contents (Elt F) → (⟨S100000x1, .f32⟩ : BufTy).Contents (Elt F)),
    StableHlo.unary main_v1 main_v50 (broadcastInDim S1600000x1 ![0] bcast_S1600000_S1600000x1_0 : (⟨S1600000, .i32⟩ : BufTy).Contents (Elt F) → (⟨S1600000x1, .i32⟩ : BufTy).Contents (Elt F)) ]

/-- The second window (statements 61 … 115; the variance, the rectifier and the log-softmax calls inline). -/
abbrev opsC1 : List (HloOp τ sig (Elt F)) :=
  [ StableHlo.ternary main_v49 main_v50 main_v48 main_v51 ((fun x i u => Host.scatterAdd scatter_S100000x1_S1600000x1_S1600000x1_1_0_0_1 x i u) : (⟨S100000x1, .f32⟩ : BufTy).Contents (Elt F) → (⟨S1600000x1, .i32⟩ : BufTy).Contents (Elt F) → (⟨S1600000x1, .f32⟩ : BufTy).Contents (Elt F) → (⟨S100000x1, .f32⟩ : BufTy).Contents (Elt F)),
    StableHlo.nullary main_cst_7 (constant S_ .f32 0x3F800000#32),
    StableHlo.unary main_cst_7 main_v52 (broadcastInDim S100000x1 ![] bcast_S_S100000x1 : (⟨S_, .f32⟩ : BufTy).Contents (Elt F) → (⟨S100000x1, .f32⟩ : BufTy).Contents (Elt F)),
    StableHlo.binary main_v51 main_v52 main_v53 (maximumf : (⟨S100000x1, .f32⟩ : BufTy).Contents (Elt F) → (⟨S100000x1, .f32⟩ : BufTy).Contents (Elt F) → (⟨S100000x1, .f32⟩ : BufTy).Contents (Elt F)),
    StableHlo.unary main_v53 main_v54 (broadcastInDim S100000x15 ![0, 1] bcast_S100000x1_S100000x15_0_1 : (⟨S100000x1, .f32⟩ : BufTy).Contents (Elt F) → (⟨S100000x15, .f32⟩ : BufTy).Contents (Elt F)),
    StableHlo.binary main_v47 main_v54 main_v55 (Host.divf : (⟨S100000x15, .f32⟩ : BufTy).Contents (Elt F) → (⟨S100000x15, .f32⟩ : BufTy).Contents (Elt F) → (⟨S100000x15, .f32⟩ : BufTy).Contents (Elt F)),
    StableHlo.nullary main_cst_8 (constant S_ .f32 0x00000000#32),
    StableHlo.unary main_cst_8 main_v56 (broadcastInDim S512x15 ![] bcast_S_S512x15 : (⟨S_, .f32⟩ : BufTy).Contents (Elt F) → (⟨S512x15, .f32⟩ : BufTy).Contents (Elt F)),
    StableHlo.unary main_arg17 main_v57 (broadcastInDim S100000x1 ![0] bcast_S100000_S100000x1_0 : (⟨S100000, .i32⟩ : BufTy).Contents (Elt F) → (⟨S100000x1, .i32⟩ : BufTy).Contents (Elt F)),
    StableHlo.ternary main_v56 main_v57 main_v55 main_v58 ((fun x i u => Host.scatterAdd scatter_S512x15_S100000x1_S100000x15_1_0_0_1 x i u) : (⟨S512x15, .f32⟩ : BufTy).Contents (Elt F) → (⟨S100000x1, .i32⟩ : BufTy).Contents (Elt F) → (⟨S100000x15, .f32⟩ : BufTy).Contents (Elt F) → (⟨S512x15, .f32⟩ : BufTy).Contents (Elt F)),
    StableHlo.nullary main_cst_9 (constant S_ .f32 0x3F800000#32),
    StableHlo.unary main_cst_9 main_v59 (broadcastInDim S100000x1 ![] bcast_S_S100000x1 : (⟨S_, .f32⟩ : BufTy).Contents (Elt F) → (⟨S100000x1, .f32⟩ : BufTy).Contents (Elt F)),
    StableHlo.nullary main_cst_10 (constant S_ .f32 0x00000000#32),
    StableHlo.unary main_cst_10 main_v60 (broadcastInDim S512x1 ![] bcast_S_S512x1 : (⟨S_, .f32⟩ : BufTy).Contents (Elt F) → (⟨S512x1, .f32⟩ : BufTy).Contents (Elt F)),
    StableHlo.unary main_arg17 main_v61 (broadcastInDim S100000x1 ![0] bcast_S100000_S100000x1_0 : (⟨S100000, .i32⟩ : BufTy).Contents (Elt F) → (⟨S100000x1, .i32⟩ : BufTy).Contents (Elt F)),
    StableHlo.ternary main_v60 main_v61 main_v59 main_v62 ((fun x i u => Host.scatterAdd scatter_S512x1_S100000x1_S100000x1_1_0_0_1 x i u) : (⟨S512x1, .f32⟩ : BufTy).Contents (Elt F) → (⟨S100000x1, .i32⟩ : BufTy).Contents (Elt F) → (⟨S100000x1, .f32⟩ : BufTy).Contents (Elt F) → (⟨S512x1, .f32⟩ : BufTy).Contents (Elt F)),
    StableHlo.nullary main_cst_11 (constant S_ .f32 0x3F800000#32),
    StableHlo.unary main_cst_11 main_v63 (broadcastInDim S512x1 ![] bcast_S_S512x1 : (⟨S_, .f32⟩ : BufTy).Contents (Elt F) → (⟨S512x1, .f32⟩ : BufTy).Contents (Elt F)),
    StableHlo.binary main_v62 main_v63 main_v64 (maximumf : (⟨S512x1, .f32⟩ : BufTy).Contents (Elt F) → (⟨S512x1, .f32⟩ : BufTy).Contents (Elt F) → (⟨S512x1, .f32⟩ : BufTy).Contents (Elt F)),
    StableHlo.unary main_v64 main_v65 (broadcastInDim S512x15 ![0, 1] bcast_S512x1_S512x15_0_1 : (⟨S512x1, .f32⟩ : BufTy).Contents (Elt F) → (⟨S512x15, .f32⟩ : BufTy).Contents (Elt F)),
    StableHlo.binary main_v58 main_v65 main_v66 (Host.divf : (⟨S512x15, .f32⟩ : BufTy).Contents (Elt F) → (⟨S512x15, .f32⟩ : BufTy).Contents (Elt F) → (⟨S512x15, .f32⟩ : BufTy).Contents (Elt F)),
    StableHlo.binary main_v66 main_arg10 main_v67 ((fun l r => Host.dotGeneral dot_S512x15_S15x10_S512x10_1_0_0_1_n_n none l r) : (⟨S512x15, .f32⟩ : BufTy).Contents (Elt F) → (⟨S15x10, .f32⟩ : BufTy).Contents (Elt F) → (⟨S512x10, .f32⟩ : BufTy).Contents (Elt F)),
    StableHlo.unary main_arg11 main_v68 (broadcastInDim S1x10 ![1] bcast_S10_S1x10_1 : (⟨S10, .f32⟩ : BufTy).Contents (Elt F) → (⟨S1x10, .f32⟩ : BufTy).Contents (Elt F)),
    StableHlo.unary main_v68 main_v69 (broadcastInDim S512x10 ![0, 1] bcast_S1x10_S512x10_0_1 : (⟨S1x10, .f32⟩ : BufTy).Contents (Elt F) → (⟨S512x10, .f32⟩ : BufTy).Contents (Elt F)),
    StableHlo.binary main_v67 main_v69 main_v70 (addf : (⟨S512x10, .f32⟩ : BufTy).Contents (Elt F) → (⟨S512x10, .f32⟩ : BufTy).Contents (Elt F) → (⟨S512x10, .f32⟩ : BufTy).Contents (Elt F)),
    StableHlo.nullary main_cst_12 (constant S_ .f32 0x00000000#32),
    StableHlo.binary main_v70 main_cst_12 main_v71 ((fun x v => Host.reduceAdd x v reducesTo_S512x10_S10_d0 h_S_) : (⟨S512x10, .f32⟩ : BufTy).Contents (Elt F) → (⟨S_, .f32⟩ : BufTy).Contents (Elt F) → (⟨S10, .f32⟩ : BufTy).Contents (Elt F)),
    StableHlo.nullary main_cst_13 (constant S_ .f32 0x44000000#32),
    StableHlo.unary main_cst_13 main_v72 (broadcastInDim S10 ![] bcast_S_S10 : (⟨S_, .f32⟩ : BufTy).Contents (Elt F) → (⟨S10, .f32⟩ : BufTy).Contents (Elt F)),
    StableHlo.binary main_v71 main_v72 main_v73 (Host.divf : (⟨S10, .f32⟩ : BufTy).Contents (Elt F) → (⟨S10, .f32⟩ : BufTy).Contents (Elt F) → (⟨S10, .f32⟩ : BufTy).Contents (Elt F)),
    StableHlo.nullary main_c_14 (constantI S_ 32 0#32),
    StableHlo.TRef.nullary main_call2.cst (constant S_ .f32 0x00000000#32),
    StableHlo.TRef.binary (.of main_v70 : StableHlo.TRef sig ⟨S512x10, .f32⟩) main_call2.cst main_call2.v0 (fun x v => Host.reduceAdd x v reducesTo_S512x10_S10_d0 h_S_),
    StableHlo.TRef.unary main_call2.v0 main_call2.v1 (broadcastInDim S1x10 ![1] bcast_S10_S1x10_1),
    StableHlo.TRef.nullary main_call2.cst_0 (constant S_ .f32 0x44000000#32),
    StableHlo.TRef.unary main_call2.cst_0 main_call2.v2 (broadcastInDim S1x10 ![] bcast_S_S1x10),
    StableHlo.TRef.binary main_call2.v1 main_call2.v2 main_call2.v3 Host.divf,
    StableHlo.TRef.unary main_call2.v3 main_call2.v4 (broadcastInDim S512x10 ![0, 1] bcast_S1x10_S512x10_0_1),
    StableHlo.TRef.binary (.of main_v70 : StableHlo.TRef sig ⟨S512x10, .f32⟩) main_call2.v4 main_call2.v5 subf,
    StableHlo.TRef.binary main_call2.v5 main_call2.v5 main_call2.v6 mulf,
    StableHlo.TRef.unary (.of main_c_14 : StableHlo.TRef sig ⟨S_, .i32⟩) main_call2.v7 (sitofp .f32),
    StableHlo.TRef.nullary main_call2.cst_1 (constant S_ .f32 0x44000000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S512x10_S10_d0 h_S_),
    StableHlo.TRef.unary main_call2.v8 main_call2.v10 (broadcastInDim S10 ![] bcast_S_S10),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S10 ![] bcast_S_S10),
    StableHlo.TRef.ternary main_call2.v12 main_call2.v11 main_call2.call0.v1 main_call2.call0.v2 (fun p a b => select (broadcastInDim S10 ![] bcast_S_S10 p) a b),
    StableHlo.unary main_v73 main_v75 (broadcastInDim S1x10 ![1] bcast_S10_S1x10_1 : (⟨S10, .f32⟩ : BufTy).Contents (Elt F) → (⟨S1x10, .f32⟩ : BufTy).Contents (Elt F)),
    StableHlo.unary main_v75 main_v76 (broadcastInDim S512x10 ![0, 1] bcast_S1x10_S512x10_0_1 : (⟨S1x10, .f32⟩ : BufTy).Contents (Elt F) → (⟨S512x10, .f32⟩ : BufTy).Contents (Elt F)),
    StableHlo.binary main_v70 main_v76 main_v77 (subf : (⟨S512x10, .f32⟩ : BufTy).Contents (Elt F) → (⟨S512x10, .f32⟩ : BufTy).Contents (Elt F) → (⟨S512x10, .f32⟩ : BufTy).Contents (Elt F)),
    StableHlo.unary main_arg12 main_v78 (broadcastInDim S1x10 ![1] bcast_S10_S1x10_1 : (⟨S10, .f32⟩ : BufTy).Contents (Elt F) → (⟨S1x10, .f32⟩ : BufTy).Contents (Elt F)),
    StableHlo.unary main_v78 main_v79 (broadcastInDim S512x10 ![0, 1] bcast_S1x10_S512x10_0_1 : (⟨S1x10, .f32⟩ : BufTy).Contents (Elt F) → (⟨S512x10, .f32⟩ : BufTy).Contents (Elt F)),
    StableHlo.binary main_v79 main_v77 main_v80 (mulf : (⟨S512x10, .f32⟩ : BufTy).Contents (Elt F) → (⟨S512x10, .f32⟩ : BufTy).Contents (Elt F) → (⟨S512x10, .f32⟩ : BufTy).Contents (Elt F)),
    StableHlo.nullary main_cst_15 (constant S_ .f32 0x3727C5AC#32),
    StableHlo.unary main_cst_15 main_v81 (broadcastInDim S10 ![] bcast_S_S10 : (⟨S_, .f32⟩ : BufTy).Contents (Elt F) → (⟨S10, .f32⟩ : BufTy).Contents (Elt F)),
    StableHlo.binary main_v74 main_v81 main_v82 (addf : (⟨S10, .f32⟩ : BufTy).Contents (Elt F) → (⟨S10, .f32⟩ : BufTy).Contents (Elt F) → (⟨S10, .f32⟩ : BufTy).Contents (Elt F)),
    StableHlo.unary main_v82 main_v83 (Host.rsqrt : (⟨S10, .f32⟩ : BufTy).Contents (Elt F) → (⟨S10, .f32⟩ : BufTy).Contents (Elt F)),
    StableHlo.unary main_v83 main_v84 (broadcastInDim S1x10 ![1] bcast_S10_S1x10_1 : (⟨S10, .f32⟩ : BufTy).Contents (Elt F) → (⟨S1x10, .f32⟩ : BufTy).Contents (Elt F)),
    StableHlo.unary main_v84 main_v85 (broadcastInDim S512x10 ![0, 1] bcast_S1x10_S512x10_0_1 : (⟨S1x10, .f32⟩ : BufTy).Contents (Elt F) → (⟨S512x10, .f32⟩ : BufTy).Contents (Elt F)),
    StableHlo.binary main_v80 main_v85 main_v86 (mulf : (⟨S512x10, .f32⟩ : BufTy).Contents (Elt F) → (⟨S512x10, .f32⟩ : BufTy).Contents (Elt F) → (⟨S512x10, .f32⟩ : BufTy).Contents (Elt F)),
    StableHlo.unary main_arg13 main_v87 (broadcastInDim S1x10 ![1] bcast_S10_S1x10_1 : (⟨S10, .f32⟩ : BufTy).Contents (Elt F) → (⟨S1x10, .f32⟩ : BufTy).Contents (Elt F)),
    StableHlo.unary main_v87 main_v88 (broadcastInDim S512x10 ![0, 1] bcast_S1x10_S512x10_0_1 : (⟨S1x10, .f32⟩ : BufTy).Contents (Elt F) → (⟨S512x10, .f32⟩ : BufTy).Contents (Elt F)),
    StableHlo.binary main_v86 main_v88 main_v89 (addf : (⟨S512x10, .f32⟩ : BufTy).Contents (Elt F) → (⟨S512x10, .f32⟩ : BufTy).Contents (Elt F) → (⟨S512x10, .f32⟩ : BufTy).Contents (Elt F)),
    StableHlo.TRef.nullary main_call3.cst (constant S_ .f32 0x00000000#32),
    StableHlo.TRef.unary main_call3.cst main_call3.v0 (broadcastInDim S512x10 ![] bcast_S_S512x10),
    StableHlo.TRef.binary (.of main_v89 : StableHlo.TRef sig ⟨S512x10, .f32⟩) main_call3.v0 main_call3.v1 maximumf,
    StableHlo.binary main_v90 main_arg14 main_v91 ((fun l r => Host.dotGeneral dot_S512x10_S10x6_S512x6_1_0_0_1_n_n none l r) : (⟨S512x10, .f32⟩ : BufTy).Contents (Elt F) → (⟨S10x6, .f32⟩ : BufTy).Contents (Elt F) → (⟨S512x6, .f32⟩ : BufTy).Contents (Elt F)),
    StableHlo.unary main_arg15 main_v92 (broadcastInDim S1x6 ![1] bcast_S6_S1x6_1 : (⟨S6, .f32⟩ : BufTy).Contents (Elt F) → (⟨S1x6, .f32⟩ : BufTy).Contents (Elt F)),
    StableHlo.unary main_v92 main_v93 (broadcastInDim S512x6 ![0, 1] bcast_S1x6_S512x6_0_1 : (⟨S1x6, .f32⟩ : BufTy).Contents (Elt F) → (⟨S512x6, .f32⟩ : BufTy).Contents (Elt F)),
    StableHlo.binary main_v91 main_v93 main_v94 (addf : (⟨S512x6, .f32⟩ : BufTy).Contents (Elt F) → (⟨S512x6, .f32⟩ : BufTy).Contents (Elt F) → (⟨S512x6, .f32⟩ : BufTy).Contents (Elt F)),
    StableHlo.TRef.nullary main_call4.cst (constant S_ .f32 0xFF800000#32),
    StableHlo.TRef.binary (.of main_v94 : StableHlo.TRef sig ⟨S512x6, .f32⟩) main_call4.cst main_call4.v0 (fun x v => Host.reduce FloatOps.maximumf x v reducesTo_S512x6_S512_d1 h_S_),
    StableHlo.TRef.nullary main_call4.cst_0 (constant S_ .f32 0xFF800000#32),
    StableHlo.TRef.unary main_call4.cst_0 main_call4.v1 (broadcastInDim S512 ![] bcast_S_S512),
    StableHlo.TRef.binary main_call4.v1 main_call4.v0 main_call4.v2 maximumf,
    StableHlo.TRef.unary main_call4.v2 main_call4.v3 (broadcastInDim S512x1 ![0] bcast_S512_S512x1_0),
    StableHlo.TRef.unary main_call4.v3 main_call4.v4 (broadcastInDim S512x6 ![0, 1] bcast_S512x1_S512x6_0_1),
    StableHlo.TRef.binary (.of main_v94 : StableHlo.TRef sig ⟨S512x6, .f32⟩) main_call4.v4 main_call4.v5 subf,
    StableHlo.TRef.unary main_call4.v5 main_call4.v6 Host.exp,
    StableHlo.TRef.nullary main_call4.cst_1 (constant S_ .f32 0x00000000#32),
    StableHlo.TRef.binary main_call4.v6 main_call4.cst_1 main_call4.v7 (fun x v => Host.reduceAdd x v reducesTo_S512x6_S512_d1 h_S_),
    StableHlo.TRef.unary main_call4.v7 main_call4.v8 (broadcastInDim S512x1 ![0] bcast_S512_S512x1_0),
    StableHlo.TRef.unary main_call4.v8 main_call4.v9 Host.log,
    StableHlo.TRef.unary main_call4.v9 main_call4.v10 (broadcastInDim S512x6 ![0, 1] bcast_S512x1_S512x6_0_1),
    StableHlo.TRef.binary main_call4.v5 main_call4.v10 main_call4.v11 subf ]

/-- @main's operations, in order, each call's body inline over its record. -/
abbrev ops : List (HloOp τ sig (Elt F)) := opsA ++ (opsB ++ (opsC0 ++ opsC1))

set_option maxRecDepth 16384 in
set_option maxHeartbeats 8000000 in
/-- The first window is the straight line of its operations: the calls unfold to their bodies, and sequencing
    reassociates by computation. -/
theorem main_part0_eq (c : Dev nD) : main_part0 (F := F) c = seq (opsA ++ (opsB ++ opsC0)) := rfl

set_option maxRecDepth 16384 in
set_option maxHeartbeats 8000000 in
/-- The second window likewise. -/
theorem main_part1_eq (c : Dev nD) : main_part1 (F := F) c = seq opsC1 := rfl

/-- @main runs its two windows in turn; two lines run in turn are their concatenation (`seq_append`). -/
theorem main_eq (c : Dev nD) : main (F := F) c = seq ops := by
  have h : (ops : List (HloOp τ sig (Elt F))) = (opsA ++ (opsB ++ opsC0)) ++ opsC1 := by
    simp only [ops, List.append_assoc]
  rw [h, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem opsA_sub : (opsA : List (HloOp τ sig (Elt F))).Forall fun op => op.bufs ⊆ tcRefs τ sig :=
  ⟨unary_bufs_sub .., reshape_bufs_sub .., unary_bufs_sub .., reshape_bufs_sub ..⟩
set_option maxRecDepth 8192 in
theorem opsB_sub : (opsB : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩
set_option maxRecDepth 8192 in
theorem opsC0_sub : (opsC0 : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub .., unary_bufs_sub ..⟩
set_option maxRecDepth 8192 in
theorem opsC1_sub : (opsC1 : List (HloOp τ sig (Elt F))).Forall fun op => op.bufs ⊆ tcRefs τ sig :=
  ⟨ternary_bufs_sub .., nullary_bufs_sub .., unary_bufs_sub .., binary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- Every operation of the line touches TensorCore buffers only. -/
theorem ops_sub : (ops : List (HloOp τ sig (Elt F))).Forall fun op => op.bufs ⊆ tcRefs τ sig :=
  List.forall_iff_forall_mem.mpr fun op h => by
    simp only [ops, List.mem_append] at h
    rcases h with h | h | h | h
    exacts [List.forall_iff_forall_mem.mp opsA_sub op h, List.forall_iff_forall_mem.mp opsB_sub op h,
      List.forall_iff_forall_mem.mp opsC0_sub op h, List.forall_iff_forall_mem.mp opsC1_sub op h]

end Cert.ReferenceIdeal.HostRun

end
-- ==== Proof.RefValue.lean ====
/- What the reference's host operations leave in the buffers, read stretch by stretch against the specification
   functions: the two rows of the edge list; the per-edge messages as a function of the gathered node features, the edge
   features and the parameters; the class scores as a function of the messages, the edges' targets, the nodes' graphs
   and the head's parameters. Each stretch is read from ANY contents of the buffers before it, so the three compose by
   substitution; a buffer a stretch does not write keeps its contents through it. -/
import proofs.«124959_j86397562127205_2_alg».proof.Proof.RefOps
import proofs.«124959_j86397562127205_2_alg».proof.Proof.GatherSpec
import proofs.«124959_j86397562127205_2_alg».proof.Proof.MsgSpec
import proofs.«124959_j86397562127205_2_alg».proof.Proof.TailDef

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- The contents after two lines run in turn: the second line's fold over the first's. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- A three-operand operation's result with each operand's contents at its own buffer (the library states this for
    four operands): the family `fun k => V (![x, a, b] k)` is `Fin.cons` of the three contents, index by index. -/
theorem nary3_result' {x a b y : Ref sig .tc}
    (f : ((k : Fin 3) → ((![x, a, b] : Fin 3 → Ref sig .tc) k).ty.Contents (Elt F)) → y.ty.Contents (Elt F)) (hxs hy)
    (V : Valuation τ sig (Elt F)) :
    (nary (τ := τ) ![x, a, b] y f hxs hy).result V (no_index (Proc.devRef .tc y))
      = f (Fin.cons (V (Proc.devRef .tc x)) (Fin.cons (V (Proc.devRef .tc a)) (Fin.cons (V (Proc.devRef .tc b)) (fun i => i.elim0)))) := by
  rw [nary_result]; congr 1; funext k; fin_cases k <;> rfl

/-- The fold of a literal line read at one buffer, in one pass: each operation's result at its own buffer is its
    function of its operands' contents, at any other buffer what was there. -/
macro "host_results" : tactic =>
  `(tactic| simp (disch := decide) only [after_cons, after_nil,
      nullary_result', unary_result', binary_result', ternary_result', reshape_result', nary3_result',
      nullary_result_ne', unary_result_ne', binary_result_ne', ternary_result_ne', reshape_result_ne', nary_result_ne'])

/-- The buffers the first four operations write. -/
abbrev opsA_W : List (Ref sig .tc) := [main_v0, main_v1, main_v2, main_v3]
set_option maxRecDepth 8192 in
theorem opsA_writes : (opsA : List (HloOp τ sig (Elt F))).Forall fun op => op.writes ⊆ (opsA_W.map (Proc.devRef (τ := τ) .tc)).toFinset := by
  simp only [List.Forall]
  exact ⟨(by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide))⟩
/-- A buffer they do not write keeps its contents through them. -/
theorem opsA_keep (V : Valuation τ sig (Elt F)) (r : Ref sig .tc) (h : r ∉ opsA_W) :
    after opsA V (Proc.devRef .tc r) = V (Proc.devRef .tc r) :=
  after_of_writes_sub opsA V opsA_writes h

/-- The buffers the edge stage's operations write. -/
abbrev opsB_W : List (Ref sig .tc) := [main_c, main_v4, main_v5, main_c_0, main_v6, main_v7, main_v8, main_v9, main_v10, main_c_1, main_v11, main_v12, main_c_2, main_v13, main_v14, main_v15, main_v16, main_v17, main_v18, main_v19, main_v20, main_v21, main_v22, main_call0_cst, main_call0_v0, main_v23, main_v24, main_v25, main_v26, main_v27, main_c_3, main_v28, main_v29, main_c_4, main_v30, main_v31, main_v32, main_v33, main_v34, main_v35, main_v36, main_v37, main_v38, main_v39, main_call1_cst, main_call1_v0, main_v40, main_v41, main_v42, main_v43, main_v44]
set_option maxRecDepth 8192 in
theorem opsB_writes : (opsB : List (HloOp τ sig (Elt F))).Forall fun op => op.writes ⊆ (opsB_W.map (Proc.devRef (τ := τ) .tc)).toFinset := by
  simp only [List.Forall]
  exact ⟨(by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide))⟩
/-- A buffer they do not write keeps its contents through them. -/
theorem opsB_keep (V : Valuation τ sig (Elt F)) (r : Ref sig .tc) (h : r ∉ opsB_W) :
    after opsB V (Proc.devRef .tc r) = V (Proc.devRef .tc r) :=
  after_of_writes_sub opsB V opsB_writes h

/-- The buffers the first window's last nine operations write. -/
abbrev opsC0_W : List (Ref sig .tc) := [main_cst, main_v45, main_v46, main_v47, main_cst_5, main_v48, main_cst_6, main_v49, main_v50]
set_option maxRecDepth 8192 in
theorem opsC0_writes : (opsC0 : List (HloOp τ sig (Elt F))).Forall fun op => op.writes ⊆ (opsC0_W.map (Proc.devRef (τ := τ) .tc)).toFinset := by
  simp only [List.Forall]
  exact ⟨(by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide))⟩
/-- A buffer they do not write keeps its contents through them. -/
theorem opsC0_keep (V : Valuation τ sig (Elt F)) (r : Ref sig .tc) (h : r ∉ opsC0_W) :
    after opsC0 V (Proc.devRef .tc r) = V (Proc.devRef .tc r) :=
  after_of_writes_sub opsC0 V opsC0_writes h

/-- The buffers the second window's operations write. -/
abbrev opsC1_W : List (Ref sig .tc) := [main_v51, main_cst_7, main_v52, main_v53, main_v54, main_v55, main_cst_8, main_v56, main_v57, main_v58, main_cst_9, main_v59, main_cst_10, main_v60, main_v61, main_v62, main_cst_11, main_v63, main_v64, main_v65, main_v66, main_v67, main_v68, main_v69, main_v70, main_cst_12, main_v71, main_cst_13, main_v72, main_v73, main_c_14, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v74, main_v75, main_v76, main_v77, main_v78, main_v79, main_v80, main_cst_15, main_v81, main_v82, main_v83, main_v84, main_v85, main_v86, main_v87, main_v88, main_v89, main_call3_cst, main_call3_v0, main_v90, main_v91, main_v92, main_v93, main_v94, main_call4_cst, main_call4_v0, main_call4_cst_0, main_call4_v1, main_call4_v2, main_call4_v3, main_call4_v4, main_call4_v5, main_call4_v6, main_call4_cst_1, main_call4_v7, main_call4_v8, main_call4_v9, main_call4_v10, main_v95]
set_option maxRecDepth 8192 in
theorem opsC1_writes : (opsC1 : List (HloOp τ sig (Elt F))).Forall fun op => op.writes ⊆ (opsC1_W.map (Proc.devRef (τ := τ) .tc)).toFinset := by
  simp only [List.Forall]
  exact ⟨(by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide)),
    (by simp only [nullary_writes, unary_writes, binary_writes, ternary_writes, quaternary_writes, reshape_writes, nary_writes, Finset.singleton_subset_iff, List.mem_toFinset]; exact List.mem_map_of_mem (by decide))⟩
/-- A buffer they do not write keeps its contents through them. -/
theorem opsC1_keep (V : Valuation τ sig (Elt F)) (r : Ref sig .tc) (h : r ∉ opsC1_W) :
    after opsC1 V (Proc.devRef .tc r) = V (Proc.devRef .tc r) :=
  after_of_writes_sub opsC1 V opsC1_writes h

/-! ## The three stretches -/

theorem opsA_v1 (V : Valuation τ sig (Elt F)) :
    after opsA V (Proc.devRef .tc main_v1) = Cert.EdgeStage.targets (V (Proc.devRef .tc main_arg16)) := by
  simp only [opsA]
  host_results
  rfl

theorem opsA_v3 (V : Valuation τ sig (Elt F)) :
    after opsA V (Proc.devRef .tc main_v3) = Cert.EdgeStage.sources (V (Proc.devRef .tc main_arg16)) := by
  simp only [opsA]
  host_results
  rfl

set_option maxRecDepth 16384 in
set_option maxHeartbeats 8000000 in
/-- The per-edge messages: the reference gathers the source nodes' features twice, by the same operations of the same
    operands, so one gathered array stands for both. -/
theorem opsB_v44 (V : Valuation τ sig (Elt F)) :
    after opsB V (Proc.devRef .tc main_v44)
      = Cert.EdgeStage.messages
          (Cert.EdgeStage.nodeFeatures (V (Proc.devRef .tc main_arg0)) (V (Proc.devRef .tc main_v1)))
          (Cert.EdgeStage.nodeFeatures (V (Proc.devRef .tc main_arg0)) (V (Proc.devRef .tc main_v3)))
          (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
  simp only [opsB]
  host_results
  rfl

set_option maxRecDepth 16384 in
set_option maxHeartbeats 16000000 in
/-- The class scores. -/
theorem opsC_v95 (V : Valuation τ sig (Elt F)) :
    after opsC1 (after opsC0 V) (Proc.devRef .tc main_v95)
      = Cert.Readout.scores (V (Proc.devRef .tc main_v44)) (V (Proc.devRef .tc main_v1))
          (V (Proc.devRef .tc main_arg17)) (V (Proc.devRef .tc main_arg10)) (V (Proc.devRef .tc main_arg11)) (V (Proc.devRef .tc main_arg12)) (V (Proc.devRef .tc main_arg13)) (V (Proc.devRef .tc main_arg14)) (V (Proc.devRef .tc main_arg15)) := by
  rw [← after_app]
  simp only [opsC0, opsC1, List.cons_append, List.nil_append]
  host_results
  rfl

end Cert.ReferenceIdeal.HostRun

end
-- ==== Proof.RefRun.lean ====
/- The reference's run: every weakly fair execution of its @main terminates with the result buffer at the class scores
   of the per-edge messages of the gathered node features — the specification functions composed — and every argument
   buffer unchanged. The three stretches of the line compose by substitution: the scores are read from the contents the
   edge stage leaves, the messages from the contents the first four operations leave, and the buffers a stretch does
   not write pass through it. -/
import proofs.«124959_j86397562127205_2_alg».proof.Proof.RefValue

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- A buffer no operation of the line writes keeps its contents to the end. -/
theorem ops_keep (V : Valuation τ sig (Elt F)) (r : Ref sig .tc)
    (hA : r ∉ opsA_W) (hB : r ∉ opsB_W) (hC0 : r ∉ opsC0_W) (hC1 : r ∉ opsC1_W) :
    after ops V (Proc.devRef .tc r) = V (Proc.devRef .tc r) := by
  simp only [ops, after_app]
  rw [opsC1_keep _ r hC1, opsC0_keep _ r hC0, opsB_keep _ r hB, opsA_keep _ r hA]

/-- The result buffer after the whole line, from any contents: the specification functions composed. -/
theorem result_eq (V : Valuation τ sig (Elt F)) :
    after ops V (Proc.devRef .tc main_v95)
      = Cert.Readout.scores
            (Cert.EdgeStage.messages
              (Cert.EdgeStage.nodeFeatures (V (Proc.devRef .tc main_arg0)) (Cert.EdgeStage.targets (V (Proc.devRef .tc main_arg16))))
              (Cert.EdgeStage.nodeFeatures (V (Proc.devRef .tc main_arg0)) (Cert.EdgeStage.sources (V (Proc.devRef .tc main_arg16))))
              (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)))
            (Cert.EdgeStage.targets (V (Proc.devRef .tc main_arg16)))
            (V (Proc.devRef .tc main_arg17)) (V (Proc.devRef .tc main_arg10)) (V (Proc.devRef .tc main_arg11)) (V (Proc.devRef .tc main_arg12)) (V (Proc.devRef .tc main_arg13)) (V (Proc.devRef .tc main_arg14)) (V (Proc.devRef .tc main_arg15)) := by
  simp only [ops, after_app]
  rw [opsC_v95, opsB_v44]
  rw [opsB_keep _ main_v1 (by decide), opsB_keep _ main_arg17 (by decide), opsB_keep _ main_arg10 (by decide), opsB_keep _ main_arg11 (by decide), opsB_keep _ main_arg12 (by decide), opsB_keep _ main_arg13 (by decide), opsB_keep _ main_arg14 (by decide), opsB_keep _ main_arg15 (by decide)]
  rw [opsA_v1, opsA_v3, opsA_keep _ main_arg0 (by decide), opsA_keep _ main_arg1 (by decide), opsA_keep _ main_arg2 (by decide), opsA_keep _ main_arg3 (by decide), opsA_keep _ main_arg4 (by decide), opsA_keep _ main_arg5 (by decide), opsA_keep _ main_arg6 (by decide), opsA_keep _ main_arg7 (by decide), opsA_keep _ main_arg8 (by decide), opsA_keep _ main_arg9 (by decide), opsA_keep _ main_arg17 (by decide), opsA_keep _ main_arg10 (by decide), opsA_keep _ main_arg11 (by decide), opsA_keep _ main_arg12 (by decide), opsA_keep _ main_arg13 (by decide), opsA_keep _ main_arg14 (by decide), opsA_keep _ main_arg15 (by decide)]

/-- On every device, for any float values, from any memory with zero counters: every weakly fair execution of @main
    terminates with the result at the class scores of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v95)
        = Cert.Readout.scores
            (Cert.EdgeStage.messages
              (Cert.EdgeStage.nodeFeatures (m ((c.tc : Thread nD τ).loc main_arg0)) (Cert.EdgeStage.targets (m ((c.tc : Thread nD τ).loc main_arg16))))
              (Cert.EdgeStage.nodeFeatures (m ((c.tc : Thread nD τ).loc main_arg0)) (Cert.EdgeStage.sources (m ((c.tc : Thread nD τ).loc main_arg16))))
              (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)))
            (Cert.EdgeStage.targets (m ((c.tc : Thread nD τ).loc main_arg16)))
            (m ((c.tc : Thread nD τ).loc main_arg17)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c => ⟨(h c main_v95).trans (result_eq (launchContents m c)),
      (h c main_arg0).trans (ops_keep (launchContents m c) main_arg0 (by decide) (by decide) (by decide) (by decide)),
      (h c main_arg1).trans (ops_keep (launchContents m c) main_arg1 (by decide) (by decide) (by decide) (by decide)),
      (h c main_arg2).trans (ops_keep (launchContents m c) main_arg2 (by decide) (by decide) (by decide) (by decide)),
      (h c main_arg3).trans (ops_keep (launchContents m c) main_arg3 (by decide) (by decide) (by decide) (by decide)),
      (h c main_arg4).trans (ops_keep (launchContents m c) main_arg4 (by decide) (by decide) (by decide) (by decide)),
      (h c main_arg5).trans (ops_keep (launchContents m c) main_arg5 (by decide) (by decide) (by decide) (by decide)),
      (h c main_arg6).trans (ops_keep (launchContents m c) main_arg6 (by decide) (by decide) (by decide) (by decide)),
      (h c main_arg7).trans (ops_keep (launchContents m c) main_arg7 (by decide) (by decide) (by decide) (by decide)),
      (h c main_arg8).trans (ops_keep (launchContents m c) main_arg8 (by decide) (by decide) (by decide) (by decide)),
      (h c main_arg9).trans (ops_keep (launchContents m c) main_arg9 (by decide) (by decide) (by decide) (by decide)),
      (h c main_arg10).trans (ops_keep (launchContents m c) main_arg10 (by decide) (by decide) (by decide) (by decide)),
      (h c main_arg11).trans (ops_keep (launchContents m c) main_arg11 (by decide) (by decide) (by decide) (by decide)),
      (h c main_arg12).trans (ops_keep (launchContents m c) main_arg12 (by decide) (by decide) (by decide) (by decide)),
      (h c main_arg13).trans (ops_keep (launchContents m c) main_arg13 (by decide) (by decide) (by decide) (by decide)),
      (h c main_arg14).trans (ops_keep (launchContents m c) main_arg14 (by decide) (by decide) (by decide) (by decide)),
      (h c main_arg15).trans (ops_keep (launchContents m c) main_arg15 (by decide) (by decide) (by decide) (by decide)),
      (h c main_arg16).trans (ops_keep (launchContents m c) main_arg16 (by decide) (by decide) (by decide) (by decide)),
      (h c main_arg17).trans (ops_keep (launchContents m c) main_arg17 (by decide) (by decide) (by decide) (by decide))⟩)
    (run_seq scopedRefs_eq scopedSems_eq defs main (fun _ => ops) main_eq (fun _ => ops_sub) m ρ)

/-- The arguments alone: the run leaves every argument buffer as it was. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c => (h c).2) (run m ρ)

end Cert.ReferenceIdeal.HostRun

end
-- ==== Proof.KernelEntry.lean ====
/- One entry of the value the kernel body stores, as a plain formula on the extended reals.

   The body works on feature-major blocks of 16000 lanes: three [3, 16000] feature blocks joined along the rows, a
   [50, 9] weight times that block plus a bias column and the maximum with zero, a [15, 50] weight times that plus a
   bias column; the second feature block joined with that result, a [50, 18] weight, bias, maximum with zero, and a
   [15, 50] weight, bias. At the ideal values every narrowing to bf16 is the identity and every product into the zero
   accumulator is an exact sum, so entry (j, l) of the stored block is the message formula evaluated on lane l's three
   feature columns, the weights read transposed, each bias read from its single column, and each product's two factors
   in the other order (the extended reals' product commutes, term by term under the sums). -/
import proofs.«124959_j86397562127205_2_alg».proof.Proof.Gen.KernelIdeal.Skeleton
import proofs.«124959_j86397562127205_2_alg».proof.Proof.EntrySpec
import proofs.«124959_j86397562127205_2_alg».proof.Proof.LibLayout
import Idealize.ShloMosaic.Lib.ValueIdx
import Idealize.ShloMosaic.Lib.Pipeline.Value
import Idealize.ShloMosaic.Lib.ValueLayout
import Idealize.ShloMosaic.PureOps.Ideal.Laws

noncomputable section

namespace Cert.EdgeStage

open Idealize.ShloMosaic Idealize.ShloMosaic.ValueIdx Cert.KernelIdeal Cert.KernelIdeal.Gen
open scoped BigOperators

/-! ## A product into the zero accumulator read at an entry

Each of the kernel's three products contracts the left operand's columns with the right operand's rows: entry `(r, c)`
is the sum over the contracted coordinate `i` of `A (r, i) * B (i, c)`. The contraction's index set is identified
with its one coordinate, and the operands' indices at `(r, c)` and `i` are read off the dimension numbers. -/

/-- The [50,9] × [9,16000] product into the zero accumulator at entry (r, c): the sum over the 9 joined features. -/
theorem matmul_edge1_apply (A : FVec Ideal S50x9 .bf16) (B : FVec Ideal S9x16000 .bf16) (r : Fin 50) (c : Fin 16000) :
    matmul dot_S50x9_S9x16000_S50x16000_1_0_0_1_n_n none A B (constant S50x16000 .f32 0x00000000#32) (ix2 r c)
      = ∑ i : Fin 9, A (ix2 r i) * B (ix2 i c) := by
  simp only [matmul]
  rw [Ideal.matmul_constant_zero_apply, ← Equiv.sum_comp (contrEquiv1 dot_S50x9_S9x16000_S50x16000_1_0_0_1_n_n 9 rfl rfl).symm]
  refine Finset.sum_congr rfl fun i _ => ?_
  have hk := contrEquiv1_symm_val dot_S50x9_S9x16000_S50x16000_1_0_0_1_n_n 9 rfl rfl i
  have l0 : ∀ (j : S50x16000.Idx) (q : dot_S50x9_S9x16000_S50x16000_1_0_0_1_n_n.contr.Idx), (dot_S50x9_S9x16000_S50x16000_1_0_0_1_n_n.lhsIdx j q 0).val = (j 0).val := fun j q => by
    unfold DotDims.lhsIdx
    rw [dif_neg (show ¬(0 : Fin S50x9.rank) ∈ dot_S50x9_S9x16000_S50x16000_1_0_0_1_n_n.lhsBatch by decide),
      dif_pos (show (0 : Fin S50x9.rank) ∈ dot_S50x9_S9x16000_S50x16000_1_0_0_1_n_n.lhsNonContracting by decide)]
    rfl
  have l1 : ∀ (j : S50x16000.Idx) (q : dot_S50x9_S9x16000_S50x16000_1_0_0_1_n_n.contr.Idx), (dot_S50x9_S9x16000_S50x16000_1_0_0_1_n_n.lhsIdx j q 1).val = (q ⟨0, by decide⟩).val := fun j q =>
    dot_S50x9_S9x16000_S50x16000_1_0_0_1_n_n.lhsIdx_val_of_single rfl j q
  have r0 : ∀ (j : S50x16000.Idx) (q : dot_S50x9_S9x16000_S50x16000_1_0_0_1_n_n.contr.Idx), (dot_S50x9_S9x16000_S50x16000_1_0_0_1_n_n.rhsIdx j q 0).val = (q ⟨0, by decide⟩).val := fun j q =>
    dot_S50x9_S9x16000_S50x16000_1_0_0_1_n_n.rhsIdx_val_of_single rfl j q
  have r1 : ∀ (j : S50x16000.Idx) (q : dot_S50x9_S9x16000_S50x16000_1_0_0_1_n_n.contr.Idx), (dot_S50x9_S9x16000_S50x16000_1_0_0_1_n_n.rhsIdx j q 1).val = (j 1).val := fun j q => by
    unfold DotDims.rhsIdx
    rw [dif_neg (show ¬(1 : Fin S9x16000.rank) ∈ dot_S50x9_S9x16000_S50x16000_1_0_0_1_n_n.rhsBatch by decide),
      dif_pos (show (1 : Fin S9x16000.rank) ∈ dot_S50x9_S9x16000_S50x16000_1_0_0_1_n_n.rhsNonContracting by decide)]
    rfl
  have el : dot_S50x9_S9x16000_S50x16000_1_0_0_1_n_n.lhsIdx (ix2 r c) ((contrEquiv1 dot_S50x9_S9x16000_S50x16000_1_0_0_1_n_n 9 rfl rfl).symm i) = ix2 r i := funext fun a => Fin.ext (by
    match a with
    | ⟨0, _⟩ => exact l0 _ _
    | ⟨1, _⟩ => exact (l1 _ _).trans hk)
  have er : dot_S50x9_S9x16000_S50x16000_1_0_0_1_n_n.rhsIdx (ix2 r c) ((contrEquiv1 dot_S50x9_S9x16000_S50x16000_1_0_0_1_n_n 9 rfl rfl).symm i) = ix2 i c := funext fun a => Fin.ext (by
    match a with
    | ⟨0, _⟩ => exact (r0 _ _).trans hk
    | ⟨1, _⟩ => exact r1 _ _)
  rw [el, er]

/-- The [15,50] × [50,16000] product into the zero accumulator at entry (r, c): the sum over the 50 hidden units. -/
theorem matmul_out_apply (A : FVec Ideal S15x50 .bf16) (B : FVec Ideal S50x16000 .bf16) (r : Fin 15) (c : Fin 16000) :
    matmul dot_S15x50_S50x16000_S15x16000_1_0_0_1_n_n none A B (constant S15x16000 .f32 0x00000000#32) (ix2 r c)
      = ∑ i : Fin 50, A (ix2 r i) * B (ix2 i c) := by
  simp only [matmul]
  rw [Ideal.matmul_constant_zero_apply, ← Equiv.sum_comp (contrEquiv1 dot_S15x50_S50x16000_S15x16000_1_0_0_1_n_n 50 rfl rfl).symm]
  refine Finset.sum_congr rfl fun i _ => ?_
  have hk := contrEquiv1_symm_val dot_S15x50_S50x16000_S15x16000_1_0_0_1_n_n 50 rfl rfl i
  have l0 : ∀ (j : S15x16000.Idx) (q : dot_S15x50_S50x16000_S15x16000_1_0_0_1_n_n.contr.Idx), (dot_S15x50_S50x16000_S15x16000_1_0_0_1_n_n.lhsIdx j q 0).val = (j 0).val := fun j q => by
    unfold DotDims.lhsIdx
    rw [dif_neg (show ¬(0 : Fin S15x50.rank) ∈ dot_S15x50_S50x16000_S15x16000_1_0_0_1_n_n.lhsBatch by decide),
      dif_pos (show (0 : Fin S15x50.rank) ∈ dot_S15x50_S50x16000_S15x16000_1_0_0_1_n_n.lhsNonContracting by decide)]
    rfl
  have l1 : ∀ (j : S15x16000.Idx) (q : dot_S15x50_S50x16000_S15x16000_1_0_0_1_n_n.contr.Idx), (dot_S15x50_S50x16000_S15x16000_1_0_0_1_n_n.lhsIdx j q 1).val = (q ⟨0, by decide⟩).val := fun j q =>
    dot_S15x50_S50x16000_S15x16000_1_0_0_1_n_n.lhsIdx_val_of_single rfl j q
  have r0 : ∀ (j : S15x16000.Idx) (q : dot_S15x50_S50x16000_S15x16000_1_0_0_1_n_n.contr.Idx), (dot_S15x50_S50x16000_S15x16000_1_0_0_1_n_n.rhsIdx j q 0).val = (q ⟨0, by decide⟩).val := fun j q =>
    dot_S15x50_S50x16000_S15x16000_1_0_0_1_n_n.rhsIdx_val_of_single rfl j q
  have r1 : ∀ (j : S15x16000.Idx) (q : dot_S15x50_S50x16000_S15x16000_1_0_0_1_n_n.contr.Idx), (dot_S15x50_S50x16000_S15x16000_1_0_0_1_n_n.rhsIdx j q 1).val = (j 1).val := fun j q => by
    unfold DotDims.rhsIdx
    rw [dif_neg (show ¬(1 : Fin S50x16000.rank) ∈ dot_S15x50_S50x16000_S15x16000_1_0_0_1_n_n.rhsBatch by decide),
      dif_pos (show (1 : Fin S50x16000.rank) ∈ dot_S15x50_S50x16000_S15x16000_1_0_0_1_n_n.rhsNonContracting by decide)]
    rfl
  have el : dot_S15x50_S50x16000_S15x16000_1_0_0_1_n_n.lhsIdx (ix2 r c) ((contrEquiv1 dot_S15x50_S50x16000_S15x16000_1_0_0_1_n_n 50 rfl rfl).symm i) = ix2 r i := funext fun a => Fin.ext (by
    match a with
    | ⟨0, _⟩ => exact l0 _ _
    | ⟨1, _⟩ => exact (l1 _ _).trans hk)
  have er : dot_S15x50_S50x16000_S15x16000_1_0_0_1_n_n.rhsIdx (ix2 r c) ((contrEquiv1 dot_S15x50_S50x16000_S15x16000_1_0_0_1_n_n 50 rfl rfl).symm i) = ix2 i c := funext fun a => Fin.ext (by
    match a with
    | ⟨0, _⟩ => exact (r0 _ _).trans hk
    | ⟨1, _⟩ => exact r1 _ _)
  rw [el, er]

/-- The [50,18] × [18,16000] product into the zero accumulator at entry (r, c): the sum over the 18 joined features. -/
theorem matmul_node1_apply (A : FVec Ideal S50x18 .bf16) (B : FVec Ideal S18x16000 .bf16) (r : Fin 50) (c : Fin 16000) :
    matmul dot_S50x18_S18x16000_S50x16000_1_0_0_1_n_n none A B (constant S50x16000 .f32 0x00000000#32) (ix2 r c)
      = ∑ i : Fin 18, A (ix2 r i) * B (ix2 i c) := by
  simp only [matmul]
  rw [Ideal.matmul_constant_zero_apply, ← Equiv.sum_comp (contrEquiv1 dot_S50x18_S18x16000_S50x16000_1_0_0_1_n_n 18 rfl rfl).symm]
  refine Finset.sum_congr rfl fun i _ => ?_
  have hk := contrEquiv1_symm_val dot_S50x18_S18x16000_S50x16000_1_0_0_1_n_n 18 rfl rfl i
  have l0 : ∀ (j : S50x16000.Idx) (q : dot_S50x18_S18x16000_S50x16000_1_0_0_1_n_n.contr.Idx), (dot_S50x18_S18x16000_S50x16000_1_0_0_1_n_n.lhsIdx j q 0).val = (j 0).val := fun j q => by
    unfold DotDims.lhsIdx
    rw [dif_neg (show ¬(0 : Fin S50x18.rank) ∈ dot_S50x18_S18x16000_S50x16000_1_0_0_1_n_n.lhsBatch by decide),
      dif_pos (show (0 : Fin S50x18.rank) ∈ dot_S50x18_S18x16000_S50x16000_1_0_0_1_n_n.lhsNonContracting by decide)]
    rfl
  have l1 : ∀ (j : S50x16000.Idx) (q : dot_S50x18_S18x16000_S50x16000_1_0_0_1_n_n.contr.Idx), (dot_S50x18_S18x16000_S50x16000_1_0_0_1_n_n.lhsIdx j q 1).val = (q ⟨0, by decide⟩).val := fun j q =>
    dot_S50x18_S18x16000_S50x16000_1_0_0_1_n_n.lhsIdx_val_of_single rfl j q
  have r0 : ∀ (j : S50x16000.Idx) (q : dot_S50x18_S18x16000_S50x16000_1_0_0_1_n_n.contr.Idx), (dot_S50x18_S18x16000_S50x16000_1_0_0_1_n_n.rhsIdx j q 0).val = (q ⟨0, by decide⟩).val := fun j q =>
    dot_S50x18_S18x16000_S50x16000_1_0_0_1_n_n.rhsIdx_val_of_single rfl j q
  have r1 : ∀ (j : S50x16000.Idx) (q : dot_S50x18_S18x16000_S50x16000_1_0_0_1_n_n.contr.Idx), (dot_S50x18_S18x16000_S50x16000_1_0_0_1_n_n.rhsIdx j q 1).val = (j 1).val := fun j q => by
    unfold DotDims.rhsIdx
    rw [dif_neg (show ¬(1 : Fin S18x16000.rank) ∈ dot_S50x18_S18x16000_S50x16000_1_0_0_1_n_n.rhsBatch by decide),
      dif_pos (show (1 : Fin S18x16000.rank) ∈ dot_S50x18_S18x16000_S50x16000_1_0_0_1_n_n.rhsNonContracting by decide)]
    rfl
  have el : dot_S50x18_S18x16000_S50x16000_1_0_0_1_n_n.lhsIdx (ix2 r c) ((contrEquiv1 dot_S50x18_S18x16000_S50x16000_1_0_0_1_n_n 18 rfl rfl).symm i) = ix2 r i := funext fun a => Fin.ext (by
    match a with
    | ⟨0, _⟩ => exact l0 _ _
    | ⟨1, _⟩ => exact (l1 _ _).trans hk)
  have er : dot_S50x18_S18x16000_S50x16000_1_0_0_1_n_n.rhsIdx (ix2 r c) ((contrEquiv1 dot_S50x18_S18x16000_S50x16000_1_0_0_1_n_n 18 rfl rfl).symm i) = ix2 i c := funext fun a => Fin.ext (by
    match a with
    | ⟨0, _⟩ => exact (r0 _ _).trans hk
    | ⟨1, _⟩ => exact r1 _ _)
  rw [el, er]

/-! ## The layout operations read at an entry -/

/-- A loaded f32 block cast to its own shape and narrowed to bf16 is, at the ideal values, the block itself. -/
theorem narrow_apply {s : Shape} (x : Vec Ideal s .f32) (h : s.ShapeCasts s) (i : s.Idx) :
    (truncf .bf16 (shapeCast s x h : FVec Ideal s .f32) bitsLt_bf16_f32 : FVec Ideal s .bf16) i = x i := by
  rw [truncf_apply, shapeCast_self]

/-- The 50-row bias column, cast to its own shape and broadcast along the lanes, at entry `(k, l)`. -/
theorem bias50_apply (b : Vec Ideal S50x1 .f32) (k : Fin 50) (l : Fin 16000) :
    (broadcastTo S50x16000 (shapeCast S50x1 b shapeCasts_S50x1_S50x1 : FVec Ideal S50x1 .f32) broadcasts_S50x1_S50x16000
      : FVec Ideal S50x16000 .f32) (ix2 k l) = b (ix2 k (0 : Fin 1)) := by
  rw [shapeCast_self]
  exact Cert.LibLayout.broadcastTo_a1_ab_apply b _ k l

/-- The 15-row bias column, cast to its own shape and broadcast along the lanes, at entry `(j, l)`. -/
theorem bias15_apply (b : Vec Ideal S15x1 .f32) (j : Fin 15) (l : Fin 16000) :
    (broadcastTo S15x16000 (shapeCast S15x1 b shapeCasts_S15x1_S15x1 : FVec Ideal S15x1 .f32) broadcasts_S15x1_S15x16000
      : FVec Ideal S15x16000 .f32) (ix2 j l) = b (ix2 j (0 : Fin 1)) := by
  rw [shapeCast_self]
  exact Cert.LibLayout.broadcastTo_a1_ab_apply b _ j l

/-- Three `[3, 16000]` blocks joined along the rows, at entry `(i, l)`: rows 0–2 are the first block's, rows 3–5 the
    second's, rows 6–8 the third's. -/
theorem concat3_apply (a b c : FVec Ideal S3x16000 .bf16) (i : Fin 9) (l : Fin 16000) :
    concatenate S9x16000 0 [⟨S3x16000, a⟩, ⟨S3x16000, b⟩, ⟨S3x16000, c⟩]
        concatenates_S3x16000_S3x16000_S3x16000_S9x16000_d0 (ix2 i l)
      = if h : i.val < 3 then a (ix2 (⟨i.val, h⟩ : Fin 3) l)
        else if h' : i.val < 6 then b (ix2 (⟨i.val - 3, by omega⟩ : Fin 3) l)
        else c (ix2 (⟨i.val - 6, by omega⟩ : Fin 3) l) := by
  have off : ∀ (q : Fin 3) (d : Fin S3x16000.rank), d.cast (rfl : S3x16000.rank = S9x16000.rank) ≠ (0 : Fin S9x16000.rank) →
      ((ix2 q l : S3x16000.Idx) d).val = ((ix2 i l : S9x16000.Idx) (d.cast rfl)).val := fun q d hd => by
    match d, hd with
    | ⟨0, _⟩, hd => exact absurd rfl hd
    | ⟨1, _⟩, _ => rfl
  by_cases h : i.val < 3
  · rw [dif_pos h]
    exact concatenate_apply_piece (0 : Fin S9x16000.rank) _ _ (ix2 i l) 0 (by show (0 : ℕ) < 3; omega) S3x16000 a rfl rfl 0 rfl
      (ix2 (⟨i.val, h⟩ : Fin 3) l) (off _) (by show 0 + i.val = i.val; omega)
  · rw [dif_neg h]
    by_cases h' : i.val < 6
    · rw [dif_pos h']
      exact concatenate_apply_piece (0 : Fin S9x16000.rank) _ _ (ix2 i l) 1 (by show (1 : ℕ) < 3; omega) S3x16000 b rfl rfl 3 rfl
        (ix2 (⟨i.val - 3, by omega⟩ : Fin 3) l) (off _) (by show 3 + (i.val - 3) = i.val; omega)
    · rw [dif_neg h']
      exact concatenate_apply_piece (0 : Fin S9x16000.rank) _ _ (ix2 i l) 2 (by show (2 : ℕ) < 3; omega) S3x16000 c rfl rfl 6 rfl
        (ix2 (⟨i.val - 6, by have := i.isLt; omega⟩ : Fin 3) l) (off _) (by show 6 + (i.val - 6) = i.val; omega)

/-- A `[3, 16000]` block joined with a `[15, 16000]` block along the rows, at entry `(i, l)`: rows 0–2 are the first
    block's, rows 3–17 the second's. -/
theorem concat2_apply (a : FVec Ideal S3x16000 .bf16) (b : FVec Ideal S15x16000 .bf16) (i : Fin 18) (l : Fin 16000) :
    concatenate S18x16000 0 [⟨S3x16000, a⟩, ⟨S15x16000, b⟩] concatenates_S3x16000_S15x16000_S18x16000_d0 (ix2 i l)
      = if h : i.val < 3 then a (ix2 (⟨i.val, h⟩ : Fin 3) l)
        else b (ix2 (⟨i.val - 3, by have := i.isLt; omega⟩ : Fin 15) l) := by
  by_cases h : i.val < 3
  · rw [dif_pos h]
    refine concatenate_pair_apply_left (0 : Fin S18x16000.rank) a b _ (ix2 i l) rfl (ix2 (⟨i.val, h⟩ : Fin 3) l) fun d => ?_
    match d with
    | ⟨0, _⟩ => rfl
    | ⟨1, _⟩ => rfl
  · rw [dif_neg h]
    refine concatenate_pair_apply_right (0 : Fin S18x16000.rank) a b _ (ix2 i l) rfl rfl
      (ix2 (⟨i.val - 3, by have := i.isLt; omega⟩ : Fin 15) l) (fun d hd => ?_) (by show (i.val - 3) + 3 = i.val; omega)
    match d, hd with
    | ⟨0, _⟩, hd => exact absurd rfl hd
    | ⟨1, _⟩, _ => rfl

/-! ## The dense layers read at an entry

A layer is a product into the zero accumulator, a bias column spread along the lanes, and for a hidden layer the maximum
with the zero splat and the narrowing to bf16 (the identity at the ideal values). -/

/-- The zero word denotes the extended real `0`. -/
theorem zero_word : (Scalar.ofBits .f32 0x00000000#32 : Ideal .f32) = 0 := Ideal.ofBits_zero_f32

/-- The edge model's hidden layer at entry `(k, l)`. -/
theorem hiddenEdge_apply (W : FVec Ideal S50x9 .bf16) (X : FVec Ideal S9x16000 .bf16) (b : Vec Ideal S50x1 .f32)
    (k : Fin 50) (l : Fin 16000) :
    (truncf .bf16 (maximumf (addf (matmul dot_S50x9_S9x16000_S50x16000_1_0_0_1_n_n none W X (constant S50x16000 .f32 0x00000000#32 : FVec Ideal S50x16000 .f32))
        (broadcastTo S50x16000 (shapeCast S50x1 b shapeCasts_S50x1_S50x1 : FVec Ideal S50x1 .f32) broadcasts_S50x1_S50x16000 : FVec Ideal S50x16000 .f32))
      (broadcast S50x16000 (Scalar.ofBits .f32 0x00000000#32 : Ideal .f32) : FVec Ideal S50x16000 .f32)) bitsLt_bf16_f32 : FVec Ideal S50x16000 .bf16) (ix2 k l)
      = max ((∑ i : Fin 9, W (ix2 k i) * X (ix2 i l)) + b (ix2 k (0 : Fin 1))) 0 := by
  rw [truncf_apply, maximumf_apply, addf_apply, broadcast_apply, matmul_edge1_apply, bias50_apply, zero_word]

/-- The node model's hidden layer at entry `(k, l)`. -/
theorem hiddenNode_apply (W : FVec Ideal S50x18 .bf16) (X : FVec Ideal S18x16000 .bf16) (b : Vec Ideal S50x1 .f32)
    (k : Fin 50) (l : Fin 16000) :
    (truncf .bf16 (maximumf (addf (matmul dot_S50x18_S18x16000_S50x16000_1_0_0_1_n_n none W X (constant S50x16000 .f32 0x00000000#32 : FVec Ideal S50x16000 .f32))
        (broadcastTo S50x16000 (shapeCast S50x1 b shapeCasts_S50x1_S50x1 : FVec Ideal S50x1 .f32) broadcasts_S50x1_S50x16000 : FVec Ideal S50x16000 .f32))
      (broadcast S50x16000 (Scalar.ofBits .f32 0x00000000#32 : Ideal .f32) : FVec Ideal S50x16000 .f32)) bitsLt_bf16_f32 : FVec Ideal S50x16000 .bf16) (ix2 k l)
      = max ((∑ i : Fin 18, W (ix2 k i) * X (ix2 i l)) + b (ix2 k (0 : Fin 1))) 0 := by
  rw [truncf_apply, maximumf_apply, addf_apply, broadcast_apply, matmul_node1_apply, bias50_apply, zero_word]

/-- An output layer (either model's) at entry `(j, l)`. -/
theorem output_apply (W : FVec Ideal S15x50 .bf16) (X : FVec Ideal S50x16000 .bf16) (b : Vec Ideal S15x1 .f32)
    (j : Fin 15) (l : Fin 16000) :
    (addf (matmul dot_S15x50_S50x16000_S15x16000_1_0_0_1_n_n none W X (constant S15x16000 .f32 0x00000000#32 : FVec Ideal S15x16000 .f32))
        (broadcastTo S15x16000 (shapeCast S15x1 b shapeCasts_S15x1_S15x1 : FVec Ideal S15x1 .f32) broadcasts_S15x1_S15x16000 : FVec Ideal S15x16000 .f32) : FVec Ideal S15x16000 .f32) (ix2 j l)
      = (∑ k : Fin 50, W (ix2 j k) * X (ix2 k l)) + b (ix2 j (0 : Fin 1)) := by
  rw [addf_apply, matmul_out_apply, bias15_apply]

/-! ## The kernel body's blocks, layer by layer, and each block's entries

The stored block is built from the loaded blocks in six steps; each step is named here exactly as the payloads
compute it, and its entry `(·, l)` is the corresponding stage of the message formula on lane `l`'s three feature
columns, the weights read transposed and each bias read from its single column. The kernel multiplies weight by input,
the formula input by weight: the extended reals' product commutes. -/

section Blocks

variable (x0 x1 x2 : Vec Ideal S3x16000 .f32) (x3 : Vec Ideal S50x9 .f32) (x4 : Vec Ideal S50x1 .f32)
  (x5 : Vec Ideal S15x50 .f32) (x6 : Vec Ideal S15x1 .f32) (x7 : Vec Ideal S50x18 .f32) (x8 : Vec Ideal S50x1 .f32)
  (x9 : Vec Ideal S15x50 .f32) (x10 : Vec Ideal S15x1 .f32)

/-- The edge model's input block `[9, 16000]`: the three feature blocks joined along the rows. -/
def edgeInBlock : FVec Ideal S9x16000 .bf16 :=
  concatenate S9x16000 0 [⟨S3x16000, (truncf .bf16 (shapeCast S3x16000 x0 shapeCasts_S3x16000_S3x16000 : FVec Ideal S3x16000 .f32) bitsLt_bf16_f32 : FVec Ideal S3x16000 .bf16)⟩,
    ⟨S3x16000, (truncf .bf16 (shapeCast S3x16000 x1 shapeCasts_S3x16000_S3x16000 : FVec Ideal S3x16000 .f32) bitsLt_bf16_f32 : FVec Ideal S3x16000 .bf16)⟩,
    ⟨S3x16000, (truncf .bf16 (shapeCast S3x16000 x2 shapeCasts_S3x16000_S3x16000 : FVec Ideal S3x16000 .f32) bitsLt_bf16_f32 : FVec Ideal S3x16000 .bf16)⟩]
    concatenates_S3x16000_S3x16000_S3x16000_S9x16000_d0

/-- The edge model's hidden block `[50, 16000]`. -/
def hidden1Block : FVec Ideal S50x16000 .bf16 :=
  truncf .bf16 (maximumf (addf (matmul dot_S50x9_S9x16000_S50x16000_1_0_0_1_n_n none
        (truncf .bf16 (shapeCast S50x9 x3 shapeCasts_S50x9_S50x9 : FVec Ideal S50x9 .f32) bitsLt_bf16_f32 : FVec Ideal S50x9 .bf16) (edgeInBlock x0 x1 x2) (constant S50x16000 .f32 0x00000000#32 : FVec Ideal S50x16000 .f32))
      (broadcastTo S50x16000 (shapeCast S50x1 x4 shapeCasts_S50x1_S50x1 : FVec Ideal S50x1 .f32) broadcasts_S50x1_S50x16000 : FVec Ideal S50x16000 .f32))
    (broadcast S50x16000 (Scalar.ofBits .f32 0x00000000#32 : Ideal .f32) : FVec Ideal S50x16000 .f32)) bitsLt_bf16_f32

/-- The edge model's output block `[15, 16000]`. -/
def edgeOutBlock : FVec Ideal S15x16000 .bf16 :=
  truncf .bf16 (addf (matmul dot_S15x50_S50x16000_S15x16000_1_0_0_1_n_n none
        (truncf .bf16 (shapeCast S15x50 x5 shapeCasts_S15x50_S15x50 : FVec Ideal S15x50 .f32) bitsLt_bf16_f32 : FVec Ideal S15x50 .bf16) (hidden1Block x0 x1 x2 x3 x4) (constant S15x16000 .f32 0x00000000#32 : FVec Ideal S15x16000 .f32))
      (broadcastTo S15x16000 (shapeCast S15x1 x6 shapeCasts_S15x1_S15x1 : FVec Ideal S15x1 .f32) broadcasts_S15x1_S15x16000 : FVec Ideal S15x16000 .f32)) bitsLt_bf16_f32

/-- The node model's input block `[18, 16000]`: the source features joined with the edge model's output. -/
def nodeInBlock : FVec Ideal S18x16000 .bf16 :=
  concatenate S18x16000 0 [⟨S3x16000, (truncf .bf16 (shapeCast S3x16000 x1 shapeCasts_S3x16000_S3x16000 : FVec Ideal S3x16000 .f32) bitsLt_bf16_f32 : FVec Ideal S3x16000 .bf16)⟩,
    ⟨S15x16000, edgeOutBlock x0 x1 x2 x3 x4 x5 x6⟩] concatenates_S3x16000_S15x16000_S18x16000_d0

/-- The node model's hidden block `[50, 16000]`. -/
def hidden2Block : FVec Ideal S50x16000 .bf16 :=
  truncf .bf16 (maximumf (addf (matmul dot_S50x18_S18x16000_S50x16000_1_0_0_1_n_n none
        (truncf .bf16 (shapeCast S50x18 x7 shapeCasts_S50x18_S50x18 : FVec Ideal S50x18 .f32) bitsLt_bf16_f32 : FVec Ideal S50x18 .bf16) (nodeInBlock x0 x1 x2 x3 x4 x5 x6) (constant S50x16000 .f32 0x00000000#32 : FVec Ideal S50x16000 .f32))
      (broadcastTo S50x16000 (shapeCast S50x1 x8 shapeCasts_S50x1_S50x1 : FVec Ideal S50x1 .f32) broadcasts_S50x1_S50x16000 : FVec Ideal S50x16000 .f32))
    (broadcast S50x16000 (Scalar.ofBits .f32 0x00000000#32 : Ideal .f32) : FVec Ideal S50x16000 .f32)) bitsLt_bf16_f32

/-- The stored block `[15, 16000]`: the node model's output. -/
def messageBlock : FVec Ideal S15x16000 .f32 :=
  addf (matmul dot_S15x50_S50x16000_S15x16000_1_0_0_1_n_n none
      (truncf .bf16 (shapeCast S15x50 x9 shapeCasts_S15x50_S15x50 : FVec Ideal S15x50 .f32) bitsLt_bf16_f32 : FVec Ideal S15x50 .bf16) (hidden2Block x0 x1 x2 x3 x4 x5 x6 x7 x8) (constant S15x16000 .f32 0x00000000#32 : FVec Ideal S15x16000 .f32))
    (broadcastTo S15x16000 (shapeCast S15x1 x10 shapeCasts_S15x1_S15x1 : FVec Ideal S15x1 .f32) broadcasts_S15x1_S15x16000 : FVec Ideal S15x16000 .f32)

/-- The payloads compose to the stored block: the same operations in the same order. -/
theorem payload_eq_messageBlock :
    k0_pay1 (F := Ideal) (k0_pay2 x7) (k0_pay3 x9) (k0_pay4 x0 x1 x2 x3 x5 x4 x6) (constant S50x16000 .f32 0x00000000#32) x8 x10
      = messageBlock x0 x1 x2 x3 x4 x5 x6 x7 x8 x9 x10 := rfl

variable (l : Fin 16000)

/-- Row `i` of the edge model's input block on lane `l`. -/
theorem edgeInBlock_apply (i : Fin 9) :
    edgeInBlock x0 x1 x2 (ix2 i l) = Entry.edgeIn (fun i => x0 (ix2 i l)) (fun i => x1 (ix2 i l)) (fun i => x2 (ix2 i l)) i := by
  unfold edgeInBlock Entry.edgeIn
  rw [concat3_apply]
  simp only [narrow_apply]

/-- Row `k` of the edge model's hidden block on lane `l`. -/
theorem hidden1Block_apply (k : Fin 50) :
    hidden1Block x0 x1 x2 x3 x4 (ix2 k l) = Entry.hidden1 (fun i => x0 (ix2 i l)) (fun i => x1 (ix2 i l)) (fun i => x2 (ix2 i l))
        (fun i k => x3 (ix2 k i)) (fun k => x4 (ix2 k 0)) k := by
  unfold hidden1Block Entry.hidden1
  rw [hiddenEdge_apply]
  refine congrArg (fun s : EReal => max (s + x4 (ix2 k (0 : Fin 1))) 0) (Finset.sum_congr rfl fun i _ => ?_)
  rw [narrow_apply, edgeInBlock_apply, mul_comm]

/-- Row `j` of the edge model's output block on lane `l`. -/
theorem edgeOutBlock_apply (j : Fin 15) :
    edgeOutBlock x0 x1 x2 x3 x4 x5 x6 (ix2 j l) = Entry.edgeOut (fun i => x0 (ix2 i l)) (fun i => x1 (ix2 i l)) (fun i => x2 (ix2 i l))
        (fun i k => x3 (ix2 k i)) (fun k => x4 (ix2 k 0)) (fun k j' => x5 (ix2 j' k)) (fun j' => x6 (ix2 j' 0)) j := by
  unfold edgeOutBlock Entry.edgeOut
  rw [truncf_apply, output_apply]
  refine congrArg (fun s : EReal => s + x6 (ix2 j (0 : Fin 1))) (Finset.sum_congr rfl fun k _ => ?_)
  rw [narrow_apply, hidden1Block_apply, mul_comm]

/-- Row `i` of the node model's input block on lane `l`. -/
theorem nodeInBlock_apply (i : Fin 18) :
    nodeInBlock x0 x1 x2 x3 x4 x5 x6 (ix2 i l) = Entry.nodeIn (fun i => x0 (ix2 i l)) (fun i => x1 (ix2 i l)) (fun i => x2 (ix2 i l))
        (fun i k => x3 (ix2 k i)) (fun k => x4 (ix2 k 0)) (fun k j' => x5 (ix2 j' k)) (fun j' => x6 (ix2 j' 0)) i := by
  unfold nodeInBlock Entry.nodeIn
  rw [concat2_apply]
  simp only [narrow_apply, edgeOutBlock_apply]

/-- Row `k` of the node model's hidden block on lane `l`. -/
theorem hidden2Block_apply (k : Fin 50) :
    hidden2Block x0 x1 x2 x3 x4 x5 x6 x7 x8 (ix2 k l) = Entry.hidden2 (fun i => x0 (ix2 i l)) (fun i => x1 (ix2 i l)) (fun i => x2 (ix2 i l))
        (fun i k => x3 (ix2 k i)) (fun k => x4 (ix2 k 0)) (fun k j' => x5 (ix2 j' k)) (fun j' => x6 (ix2 j' 0))
        (fun i k => x7 (ix2 k i)) (fun k => x8 (ix2 k 0)) k := by
  unfold hidden2Block Entry.hidden2
  rw [hiddenNode_apply]
  refine congrArg (fun s : EReal => max (s + x8 (ix2 k (0 : Fin 1))) 0) (Finset.sum_congr rfl fun i _ => ?_)
  rw [narrow_apply, nodeInBlock_apply, mul_comm]

/-- Row `j` of the stored block on lane `l`: the message. -/
theorem messageBlock_apply (j : Fin 15) :
    messageBlock x0 x1 x2 x3 x4 x5 x6 x7 x8 x9 x10 (ix2 j l) = Entry.message (fun i => x0 (ix2 i l)) (fun i => x1 (ix2 i l)) (fun i => x2 (ix2 i l))
        (fun i k => x3 (ix2 k i)) (fun k => x4 (ix2 k 0)) (fun k j' => x5 (ix2 j' k)) (fun j' => x6 (ix2 j' 0))
        (fun i k => x7 (ix2 k i)) (fun k => x8 (ix2 k 0)) (fun k j' => x9 (ix2 j' k)) (fun j' => x10 (ix2 j' 0)) j := by
  unfold messageBlock Entry.message
  rw [output_apply]
  refine congrArg (fun s : EReal => s + x10 (ix2 j (0 : Fin 1))) (Finset.sum_congr rfl fun k _ => ?_)
  rw [narrow_apply, hidden2Block_apply, mul_comm]

end Blocks

/-! ## The stored value's entry -/

/-- Entry `(j, l)` of the value the kernel body stores depends only on lane `l` of the three feature blocks: it is the
    message formula of those three columns, with the weight blocks read transposed and each bias block read from its
    single column. -/
theorem kernel_entry (x0 x1 x2 : Vec Ideal S3x16000 .f32) (x3 : Vec Ideal S50x9 .f32) (x4 : Vec Ideal S50x1 .f32) (x5 : Vec Ideal S15x50 .f32) (x6 : Vec Ideal S15x1 .f32) (x7 : Vec Ideal S50x18 .f32) (x8 : Vec Ideal S50x1 .f32) (x9 : Vec Ideal S15x50 .f32) (x10 : Vec Ideal S15x1 .f32) (j : Fin 15) (l : Fin 16000) :
    k0_pay1 (F := Ideal) (k0_pay2 x7) (k0_pay3 x9) (k0_pay4 x0 x1 x2 x3 x5 x4 x6) (constant S50x16000 .f32 0x00000000#32) x8 x10 (ix2 j l)
      = Entry.message (fun i => x0 (ix2 i l)) (fun i => x1 (ix2 i l)) (fun i => x2 (ix2 i l))
          (fun i k => x3 (ix2 k i)) (fun k => x4 (ix2 k 0)) (fun k j' => x5 (ix2 j' k)) (fun j' => x6 (ix2 j' 0))
          (fun i k => x7 (ix2 k i)) (fun k => x8 (ix2 k 0)) (fun k j' => x9 (ix2 j' k)) (fun j' => x10 (ix2 j' 0)) j := by
  rw [payload_eq_messageBlock]
  exact messageBlock_apply x0 x1 x2 x3 x4 x5 x6 x7 x8 x9 x10 l j

end Cert.EdgeStage

end
-- ==== Proof.RefEntry.lean ====
/- One entry of the reference's per-edge message array is the plain formula of the edge's features and the parameter
   entries: each matrix product at (row, column) is the sum over the contracted column of the products of the entries,
   each bias row is read at its column, the zero constant is 0 everywhere, and each concatenation along the columns reads
   the piece the column falls in. Read layer by layer: joined edge input, first hidden layer, edge model output, joined
   node input, second hidden layer, message. -/
import proofs.«124959_j86397562127205_2_alg».proof.Proof.MsgSpec
import proofs.«124959_j86397562127205_2_alg».proof.Proof.EntrySpec
import proofs.«124959_j86397562127205_2_alg».proof.Proof.LibLayout
import Idealize.ShloMosaic.Lib.ValueIdx
import Idealize.ShloMosaic.Lib.Pipeline.Value
import Idealize.ShloMosaic.Lib.ValueLayout
import Idealize.ShloMosaic.Lib.StackMember
import Idealize.ShloMosaic.PureOps.Ideal.Laws

noncomputable section

namespace Cert.EdgeStage

open Idealize.ShloMosaic Idealize.ShloMosaic.ValueIdx Cert.ReferenceIdeal Cert.ReferenceIdeal.Gen
open scoped BigOperators

namespace RefEntry

/-! ## The layout operations of the reference read at an index -/

/-- A vector copied into one row and that row copied into every row, read at row `p` and column `c`, is the vector's
    entry `c`. -/
theorem rowBias_apply {α : Type} {a b : ℕ} (v : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (p : Fin a) (c : Fin b) :
    broadcastInDim ⟨2, ![a, b]⟩ (![0, 1] : Fin 2 → Fin 2) h2 (broadcastInDim ⟨2, ![1, b]⟩ (![1] : Fin 1 → Fin 2) h1 v) (ix2 p c)
      = v (ix1 c) :=
  (LibLayout.broadcastInDim_1b_ab_apply _ h2 p c).trans (LibLayout.broadcastInDim_b_1b_apply v h1 (0 : Fin 1) c)

/-- The scalar zero constant copied to every entry is zero at every entry. -/
theorem zeroSplat_apply {t : Shape} (h : S_.BroadcastsInDim t (![] : Fin 0 → Fin t.rank)) (j : t.Idx) :
    broadcastInDim t (![] : Fin 0 → Fin t.rank) h (constant (F := Ideal) S_ .f32 0x00000000#32) j = (0 : EReal) :=
  (LibLayout.broadcastInDim_scalar_apply _ h j).trans Ideal.ofBits_zero_f32

/-! ## The reference's three matrix products read at an index -/

/-- The product of the joined edge input (9 columns) with the 9 × 50 weight, at row `e` and column `k`. -/
theorem dot9_apply (A : FVec Ideal S1600000x9 .f32) (B : FVec Ideal S9x50 .f32) (e : Fin 1600000) (k : Fin 50) :
    Host.dotGeneral (F := Ideal) dot_S1600000x9_S9x50_S1600000x50_1_0_0_1_n_n none A B (ix2 e k)
      = ∑ i : Fin 9, A (ix2 e i) * B (ix2 i k) :=
  StackMember.dotGeneral_plain_apply (m := 1600000) (n := 50) (k := 9) none A B e k

/-- The product of a 50-column hidden layer with a 50 × 15 weight, at row `e` and column `j`. -/
theorem dot50_apply (A : FVec Ideal S1600000x50 .f32) (B : FVec Ideal S50x15 .f32) (e : Fin 1600000) (j : Fin 15) :
    Host.dotGeneral (F := Ideal) dot_S1600000x50_S50x15_S1600000x15_1_0_0_1_n_n none A B (ix2 e j)
      = ∑ k : Fin 50, A (ix2 e k) * B (ix2 k j) :=
  StackMember.dotGeneral_plain_apply (m := 1600000) (n := 15) (k := 50) none A B e j

/-- The product of the joined node input (18 columns) with the 18 × 50 weight, at row `e` and column `k`. -/
theorem dot18_apply (A : FVec Ideal S1600000x18 .f32) (B : FVec Ideal S18x50 .f32) (e : Fin 1600000) (k : Fin 50) :
    Host.dotGeneral (F := Ideal) dot_S1600000x18_S18x50_S1600000x50_1_0_0_1_n_n none A B (ix2 e k)
      = ∑ i : Fin 18, A (ix2 e i) * B (ix2 i k) :=
  StackMember.dotGeneral_plain_apply (m := 1600000) (n := 50) (k := 18) none A B e k

/-! ## The reference's two concatenations along the column axis, read at an index -/

section Concat
variable {α : Type} {n : ℕ}

/-- Three 3-column arrays joined into 9 columns: column `i < 3` is the first array's column `i`. -/
theorem concat333_left (x y z : (⟨2, ![n, 3]⟩ : Shape).Idx → α)
    (h : Shape.Concatenates [(⟨2, ![n, 3]⟩ : Shape), ⟨2, ![n, 3]⟩, ⟨2, ![n, 3]⟩] ⟨2, ![n, 9]⟩ (1 : Fin 2))
    (e : Fin n) (i : Fin 9) (hi : i.val < 3) :
    concatenate ⟨2, ![n, 9]⟩ (1 : Fin 2) [⟨⟨2, ![n, 3]⟩, x⟩, ⟨⟨2, ![n, 3]⟩, y⟩, ⟨⟨2, ![n, 3]⟩, z⟩] h (ix2 e i)
      = x (ix2 e ⟨i.val, hi⟩) := by
  refine concatenate_apply_piece (t := ⟨2, ![n, 9]⟩) (1 : Fin 2) [⟨⟨2, ![n, 3]⟩, x⟩, ⟨⟨2, ![n, 3]⟩, y⟩, ⟨⟨2, ![n, 3]⟩, z⟩] h (ix2 e i) 0 (by simp) ⟨2, ![n, 3]⟩ x rfl rfl 0 rfl
    (ix2 e ⟨i.val, hi⟩) ?_ ?_
  · intro b hb
    match b with
    | ⟨0, _⟩ => rfl
    | ⟨1, _⟩ => exact absurd rfl hb
  · show 0 + i.val = i.val
    omega

/-- … column `3 ≤ i < 6` is the second array's column `i - 3`. -/
theorem concat333_mid (x y z : (⟨2, ![n, 3]⟩ : Shape).Idx → α)
    (h : Shape.Concatenates [(⟨2, ![n, 3]⟩ : Shape), ⟨2, ![n, 3]⟩, ⟨2, ![n, 3]⟩] ⟨2, ![n, 9]⟩ (1 : Fin 2))
    (e : Fin n) (i : Fin 9) (hi : ¬ i.val < 3) (hi' : i.val < 6) :
    concatenate ⟨2, ![n, 9]⟩ (1 : Fin 2) [⟨⟨2, ![n, 3]⟩, x⟩, ⟨⟨2, ![n, 3]⟩, y⟩, ⟨⟨2, ![n, 3]⟩, z⟩] h (ix2 e i)
      = y (ix2 e ⟨i.val - 3, by omega⟩) := by
  refine concatenate_apply_piece (t := ⟨2, ![n, 9]⟩) (1 : Fin 2) [⟨⟨2, ![n, 3]⟩, x⟩, ⟨⟨2, ![n, 3]⟩, y⟩, ⟨⟨2, ![n, 3]⟩, z⟩] h (ix2 e i) 1 (by simp) ⟨2, ![n, 3]⟩ y rfl rfl 3 rfl
    (ix2 e ⟨i.val - 3, by omega⟩) ?_ ?_
  · intro b hb
    match b with
    | ⟨0, _⟩ => rfl
    | ⟨1, _⟩ => exact absurd rfl hb
  · show 3 + (i.val - 3) = i.val
    omega

/-- … and column `6 ≤ i` is the third array's column `i - 6`. -/
theorem concat333_right (x y z : (⟨2, ![n, 3]⟩ : Shape).Idx → α)
    (h : Shape.Concatenates [(⟨2, ![n, 3]⟩ : Shape), ⟨2, ![n, 3]⟩, ⟨2, ![n, 3]⟩] ⟨2, ![n, 9]⟩ (1 : Fin 2))
    (e : Fin n) (i : Fin 9) (hi : ¬ i.val < 6) :
    concatenate ⟨2, ![n, 9]⟩ (1 : Fin 2) [⟨⟨2, ![n, 3]⟩, x⟩, ⟨⟨2, ![n, 3]⟩, y⟩, ⟨⟨2, ![n, 3]⟩, z⟩] h (ix2 e i)
      = z (ix2 e ⟨i.val - 6, by omega⟩) := by
  refine concatenate_apply_piece (t := ⟨2, ![n, 9]⟩) (1 : Fin 2) [⟨⟨2, ![n, 3]⟩, x⟩, ⟨⟨2, ![n, 3]⟩, y⟩, ⟨⟨2, ![n, 3]⟩, z⟩] h (ix2 e i) 2 (by simp) ⟨2, ![n, 3]⟩ z rfl rfl 6 rfl
    (ix2 e ⟨i.val - 6, by omega⟩) ?_ ?_
  · intro b hb
    match b with
    | ⟨0, _⟩ => rfl
    | ⟨1, _⟩ => exact absurd rfl hb
  · show 6 + (i.val - 6) = i.val
    omega

/-- A 3-column array joined with a 15-column array into 18 columns: column `i < 3` is the first array's column `i`. -/
theorem concat315_left (x : (⟨2, ![n, 3]⟩ : Shape).Idx → α) (y : (⟨2, ![n, 15]⟩ : Shape).Idx → α)
    (h : Shape.Concatenates [(⟨2, ![n, 3]⟩ : Shape), ⟨2, ![n, 15]⟩] ⟨2, ![n, 18]⟩ (1 : Fin 2))
    (e : Fin n) (i : Fin 18) (hi : i.val < 3) :
    concatenate ⟨2, ![n, 18]⟩ (1 : Fin 2) [⟨⟨2, ![n, 3]⟩, x⟩, ⟨⟨2, ![n, 15]⟩, y⟩] h (ix2 e i)
      = x (ix2 e ⟨i.val, hi⟩) := by
  refine concatenate_apply_piece (t := ⟨2, ![n, 18]⟩) (1 : Fin 2) [⟨⟨2, ![n, 3]⟩, x⟩, ⟨⟨2, ![n, 15]⟩, y⟩] h (ix2 e i) 0 (by simp) ⟨2, ![n, 3]⟩ x rfl rfl 0 rfl
    (ix2 e ⟨i.val, hi⟩) ?_ ?_
  · intro b hb
    match b with
    | ⟨0, _⟩ => rfl
    | ⟨1, _⟩ => exact absurd rfl hb
  · show 0 + i.val = i.val
    omega

/-- … and column `3 ≤ i` is the second array's column `i - 3`. -/
theorem concat315_right (x : (⟨2, ![n, 3]⟩ : Shape).Idx → α) (y : (⟨2, ![n, 15]⟩ : Shape).Idx → α)
    (h : Shape.Concatenates [(⟨2, ![n, 3]⟩ : Shape), ⟨2, ![n, 15]⟩] ⟨2, ![n, 18]⟩ (1 : Fin 2))
    (e : Fin n) (i : Fin 18) (hi : ¬ i.val < 3) :
    concatenate ⟨2, ![n, 18]⟩ (1 : Fin 2) [⟨⟨2, ![n, 3]⟩, x⟩, ⟨⟨2, ![n, 15]⟩, y⟩] h (ix2 e i)
      = y (ix2 e ⟨i.val - 3, by omega⟩) := by
  refine concatenate_apply_piece (t := ⟨2, ![n, 18]⟩) (1 : Fin 2) [⟨⟨2, ![n, 3]⟩, x⟩, ⟨⟨2, ![n, 15]⟩, y⟩] h (ix2 e i) 1 (by simp) ⟨2, ![n, 15]⟩ y rfl rfl 3 rfl
    (ix2 e ⟨i.val - 3, by omega⟩) ?_ ?_
  · intro b hb
    match b with
    | ⟨0, _⟩ => rfl
    | ⟨1, _⟩ => exact absurd rfl hb
  · show 3 + (i.val - 3) = i.val
    omega

end Concat

/-! ## The reference's intermediate arrays, named -/

section Layers

/-- The bias of a 50-column layer as the reference lays it out: the vector as one row, the row in every row. -/
def bias50 (b : FVec Ideal S50 .f32) : FVec Ideal S1600000x50 .f32 :=
  broadcastInDim S1600000x50 ![0, 1] bcast_S1x50_S1600000x50_0_1 (broadcastInDim S1x50 ![1] bcast_S50_S1x50_1 b)

/-- The bias of a 15-column layer, laid out the same way. -/
def bias15 (b : FVec Ideal S15 .f32) : FVec Ideal S1600000x15 .f32 :=
  broadcastInDim S1600000x15 ![0, 1] bcast_S1x15_S1600000x15_0_1 (broadcastInDim S1x15 ![1] bcast_S15_S1x15_1 b)

/-- The rectifier's zero array. -/
def zero50 : FVec Ideal S1600000x50 .f32 :=
  broadcastInDim S1600000x50 ![] bcast_S_S1600000x50 (constant (F := Ideal) S_ .f32 0x00000000#32)

theorem bias50_apply (b : FVec Ideal S50 .f32) (e : Fin 1600000) (k : Fin 50) : bias50 b (ix2 e k) = b (ix1 k) :=
  rowBias_apply b _ _ e k

theorem bias15_apply (b : FVec Ideal S15 .f32) (e : Fin 1600000) (j : Fin 15) : bias15 b (ix2 e j) = b (ix1 j) :=
  rowBias_apply b _ _ e j

theorem zero50_apply (e : Fin 1600000) (k : Fin 50) : zero50 (ix2 e k) = (0 : EReal) :=
  zeroSplat_apply _ _

variable (xr xc ea : FVec Ideal S1600000x3 .f32)
  (w1 : FVec Ideal S9x50 .f32) (b1 : FVec Ideal S50 .f32) (w2 : FVec Ideal S50x15 .f32) (b2 : FVec Ideal S15 .f32)
  (nw1 : FVec Ideal S18x50 .f32) (nb1 : FVec Ideal S50 .f32) (nw2 : FVec Ideal S50x15 .f32) (nb2 : FVec Ideal S15 .f32)

/-- The edge model's input array: target, source and edge features joined along the columns. -/
def edgeInArr : FVec Ideal S1600000x9 .f32 :=
  concatenate S1600000x9 1 [⟨S1600000x3, xr⟩, ⟨S1600000x3, xc⟩, ⟨S1600000x3, ea⟩]
    concatenates_S1600000x3_S1600000x3_S1600000x3_S1600000x9_d1

/-- The edge model's hidden layer array. -/
def hidden1Arr : FVec Ideal S1600000x50 .f32 :=
  maximumf (addf (Host.dotGeneral dot_S1600000x9_S9x50_S1600000x50_1_0_0_1_n_n none (edgeInArr xr xc ea) w1) (bias50 b1)) zero50

/-- The edge model's output array. -/
def edgeOutArr : FVec Ideal S1600000x15 .f32 :=
  addf (Host.dotGeneral dot_S1600000x50_S50x15_S1600000x15_1_0_0_1_n_n none (hidden1Arr xr xc ea w1 b1) w2) (bias15 b2)

/-- The node model's input array: source features joined with the edge model's output. -/
def nodeInArr : FVec Ideal S1600000x18 .f32 :=
  concatenate S1600000x18 1 [⟨S1600000x3, xc⟩, ⟨S1600000x15, edgeOutArr xr xc ea w1 b1 w2 b2⟩]
    concatenates_S1600000x3_S1600000x15_S1600000x18_d1

/-- The node model's hidden layer array. -/
def hidden2Arr : FVec Ideal S1600000x50 .f32 :=
  maximumf (addf (Host.dotGeneral dot_S1600000x18_S18x50_S1600000x50_1_0_0_1_n_n none
    (nodeInArr xr xc ea w1 b1 w2 b2) nw1) (bias50 nb1)) zero50

/-- The reference's message array is the last layer over these arrays (the same operations, in the same order). -/
theorem messages_eq :
    messages (F := Ideal) xr xc ea w1 b1 w2 b2 nw1 nb1 nw2 nb2
      = addf (Host.dotGeneral dot_S1600000x50_S50x15_S1600000x15_1_0_0_1_n_n none
          (hidden2Arr xr xc ea w1 b1 w2 b2 nw1 nb1) nw2) (bias15 nb2) := rfl

/-! ## Each array at an index is the formula's layer -/

variable (e : Fin 1600000)

theorem edgeInArr_apply (i : Fin 9) :
    edgeInArr xr xc ea (ix2 e i)
      = Entry.edgeIn (fun i => xr (ix2 e i)) (fun i => xc (ix2 e i)) (fun i => ea (ix2 e i)) i := by
  unfold Entry.edgeIn
  split_ifs with h h'
  · exact concat333_left xr xc ea _ e i h
  · exact concat333_mid xr xc ea _ e i h h'
  · exact concat333_right xr xc ea _ e i h'

theorem hidden1Arr_apply (k : Fin 50) :
    hidden1Arr xr xc ea w1 b1 (ix2 e k)
      = Entry.hidden1 (fun i => xr (ix2 e i)) (fun i => xc (ix2 e i)) (fun i => ea (ix2 e i))
          (fun i k => w1 (ix2 i k)) (fun k => b1 (ix1 k)) k := by
  have h0 : hidden1Arr xr xc ea w1 b1 (ix2 e k)
      = max (Host.dotGeneral (F := Ideal) dot_S1600000x9_S9x50_S1600000x50_1_0_0_1_n_n none (edgeInArr xr xc ea) w1 (ix2 e k)
          + bias50 b1 (ix2 e k)) (zero50 (ix2 e k)) := rfl
  rw [h0, dot9_apply, bias50_apply, zero50_apply]
  unfold Entry.hidden1
  simp only [edgeInArr_apply]

theorem edgeOutArr_apply (j : Fin 15) :
    edgeOutArr xr xc ea w1 b1 w2 b2 (ix2 e j)
      = Entry.edgeOut (fun i => xr (ix2 e i)) (fun i => xc (ix2 e i)) (fun i => ea (ix2 e i))
          (fun i k => w1 (ix2 i k)) (fun k => b1 (ix1 k)) (fun k j' => w2 (ix2 k j')) (fun j' => b2 (ix1 j')) j := by
  have h0 : edgeOutArr xr xc ea w1 b1 w2 b2 (ix2 e j)
      = Host.dotGeneral (F := Ideal) dot_S1600000x50_S50x15_S1600000x15_1_0_0_1_n_n none (hidden1Arr xr xc ea w1 b1) w2 (ix2 e j)
          + bias15 b2 (ix2 e j) := rfl
  rw [h0, dot50_apply, bias15_apply]
  unfold Entry.edgeOut
  simp only [hidden1Arr_apply]

theorem nodeInArr_apply (i : Fin 18) :
    nodeInArr xr xc ea w1 b1 w2 b2 (ix2 e i)
      = Entry.nodeIn (fun i => xr (ix2 e i)) (fun i => xc (ix2 e i)) (fun i => ea (ix2 e i))
          (fun i k => w1 (ix2 i k)) (fun k => b1 (ix1 k)) (fun k j' => w2 (ix2 k j')) (fun j' => b2 (ix1 j')) i := by
  unfold Entry.nodeIn
  split_ifs with h
  · exact concat315_left xc (edgeOutArr xr xc ea w1 b1 w2 b2) _ e i h
  · exact (concat315_right xc (edgeOutArr xr xc ea w1 b1 w2 b2) _ e i h).trans
      (edgeOutArr_apply xr xc ea w1 b1 w2 b2 e ⟨i.val - 3, by omega⟩)

theorem hidden2Arr_apply (k : Fin 50) :
    hidden2Arr xr xc ea w1 b1 w2 b2 nw1 nb1 (ix2 e k)
      = Entry.hidden2 (fun i => xr (ix2 e i)) (fun i => xc (ix2 e i)) (fun i => ea (ix2 e i))
          (fun i k => w1 (ix2 i k)) (fun k => b1 (ix1 k)) (fun k j' => w2 (ix2 k j')) (fun j' => b2 (ix1 j'))
          (fun i k => nw1 (ix2 i k)) (fun k => nb1 (ix1 k)) k := by
  have h0 : hidden2Arr xr xc ea w1 b1 w2 b2 nw1 nb1 (ix2 e k)
      = max (Host.dotGeneral (F := Ideal) dot_S1600000x18_S18x50_S1600000x50_1_0_0_1_n_n none
            (nodeInArr xr xc ea w1 b1 w2 b2) nw1 (ix2 e k)
          + bias50 nb1 (ix2 e k)) (zero50 (ix2 e k)) := rfl
  rw [h0, dot18_apply, bias50_apply, zero50_apply]
  unfold Entry.hidden2
  simp only [nodeInArr_apply]

theorem message_apply (j : Fin 15) :
    addf (Host.dotGeneral (F := Ideal) dot_S1600000x50_S50x15_S1600000x15_1_0_0_1_n_n none
        (hidden2Arr xr xc ea w1 b1 w2 b2 nw1 nb1) nw2) (bias15 nb2) (ix2 e j)
      = Entry.message (fun i => xr (ix2 e i)) (fun i => xc (ix2 e i)) (fun i => ea (ix2 e i))
          (fun i k => w1 (ix2 i k)) (fun k => b1 (ix1 k)) (fun k j' => w2 (ix2 k j')) (fun j' => b2 (ix1 j'))
          (fun i k => nw1 (ix2 i k)) (fun k => nb1 (ix1 k)) (fun k j' => nw2 (ix2 k j')) (fun j' => nb2 (ix1 j')) j := by
  have h0 : addf (Host.dotGeneral (F := Ideal) dot_S1600000x50_S50x15_S1600000x15_1_0_0_1_n_n none
        (hidden2Arr xr xc ea w1 b1 w2 b2 nw1 nb1) nw2) (bias15 nb2) (ix2 e j)
      = Host.dotGeneral (F := Ideal) dot_S1600000x50_S50x15_S1600000x15_1_0_0_1_n_n none
          (hidden2Arr xr xc ea w1 b1 w2 b2 nw1 nb1) nw2 (ix2 e j) + bias15 nb2 (ix2 e j) := rfl
  rw [h0, dot50_apply, bias15_apply]
  unfold Entry.message
  simp only [hidden2Arr_apply]

end Layers

end RefEntry

/-- **One entry of the reference's message array is the formula** of the edge's features and the parameter entries. -/
theorem reference_entry
    (xr xc ea : (⟨S1600000x3, .f32⟩ : BufTy).Contents (Elt Ideal))
    (w1 : (⟨S9x50, .f32⟩ : BufTy).Contents (Elt Ideal)) (b1 : (⟨S50, .f32⟩ : BufTy).Contents (Elt Ideal))
    (w2 : (⟨S50x15, .f32⟩ : BufTy).Contents (Elt Ideal)) (b2 : (⟨S15, .f32⟩ : BufTy).Contents (Elt Ideal))
    (nw1 : (⟨S18x50, .f32⟩ : BufTy).Contents (Elt Ideal)) (nb1 : (⟨S50, .f32⟩ : BufTy).Contents (Elt Ideal))
    (nw2 : (⟨S50x15, .f32⟩ : BufTy).Contents (Elt Ideal)) (nb2 : (⟨S15, .f32⟩ : BufTy).Contents (Elt Ideal))
    (e : Fin 1600000) (j : Fin 15) :
    messages (F := Ideal) xr xc ea w1 b1 w2 b2 nw1 nb1 nw2 nb2 (ix2 e j)
      = Entry.message (fun i => xr (ix2 e i)) (fun i => xc (ix2 e i)) (fun i => ea (ix2 e i))
          (fun i k => w1 (ix2 i k)) (fun k => b1 (ix1 k)) (fun k j' => w2 (ix2 k j')) (fun j' => b2 (ix1 j'))
          (fun i k => nw1 (ix2 i k)) (fun k => nb1 (ix1 k)) (fun k j' => nw2 (ix2 k j')) (fun j' => nb2 (ix1 j')) j :=
  (congrFun (RefEntry.messages_eq xr xc ea w1 b1 w2 b2 nw1 nb1 nw2 nb2) (ix2 e j)).trans
    (RefEntry.message_apply xr xc ea w1 b1 w2 b2 nw1 nb1 nw2 nb2 e j)

end Cert.EdgeStage

end
-- ==== Proof.lean ====
/- The proof of `Cert.Claim` for the edge-and-node message-passing kernel against its plain reference.

   Both programs compute, for each of 1,600,000 edges, a two-layer perceptron (9 → 50 → 15) of the features of the edge's
   two end nodes and of the edge, then a second one (18 → 50 → 15) of the source node's features joined with the first
   result; they average these messages over each node's incoming edges and over each graph's nodes, and finish with a small
   head (linear layer, batch normalisation, rectifier, linear layer, log-softmax). The reference works edge-major (edges by
   features, `x · W`); the kernel's program transposes everything to feature-major arrays (features by edges, `Wᵀ · xᵀ`),
   runs the two perceptrons in ONE kernel region over 100 blocks of 16000 edges, and transposes the result back; the
   averaging and the head are the same host operations in both.

   At the ideal reading (floats are extended reals, rounding to bf16 the identity) the two are one function:
   * an entry of the block the kernel stores and an entry of the reference's message array are the same plain formula of
     the same numbers — each product merely has its factors in the other order, and multiplication of extended reals is
     commutative (no finiteness is needed, so the precondition is never opened);
   * the hundred blocks tile the features-by-edges array, so after the region it is the transposed message array;
   * from there on both programs apply the same operations to equal arrays.
   The three frames: the kernel's program (as printed, and idealized) by the pipeline's launch theorem over a body run that
   loads eleven whole blocks and stores one; the reference, a straight line of host operations, by its run.
   The idealization rewrote nothing, so `preserves` is trivial. -/
import proofs.«124959_j86397562127205_2_alg».proof.Defs
import proofs.«124959_j86397562127205_2_alg».proof.Proof.Gen.Kernel
import proofs.«124959_j86397562127205_2_alg».proof.Proof.Gen.KernelIdeal
import proofs.«124959_j86397562127205_2_alg».proof.Proof.Gen.ReferenceIdeal
import proofs.«124959_j86397562127205_2_alg».proof.Proof.Gen.Pre_finite_inputs
import proofs.«124959_j86397562127205_2_alg».proof.Proof.KFrameBits
import proofs.«124959_j86397562127205_2_alg».proof.Proof.KRun
import proofs.«124959_j86397562127205_2_alg».proof.Proof.RefRun
import proofs.«124959_j86397562127205_2_alg».proof.Proof.KernelEntry
import proofs.«124959_j86397562127205_2_alg».proof.Proof.RefEntry

noncomputable section

namespace Cert.Proof

open Idealize.ShloMosaic Idealize.SL.Sem

/-- The kernel's entry law: entry `(j, l)` of the stored block is the message formula of lane `l`. -/
theorem kernel_law : Cert.KernelIdeal.Msg.KernelEntryLaw :=
  fun x0 x1 x2 x3 x4 x5 x6 x7 x8 x9 x10 j l => Cert.EdgeStage.kernel_entry x0 x1 x2 x3 x4 x5 x6 x7 x8 x9 x10 j l

/-- The reference's entry law: entry `(e, j)` of its message array is the message formula of row `e`. -/
theorem reference_law : Cert.KernelIdeal.Msg.ReferenceEntryLaw :=
  fun xr xc ea w1 b1 w2 b2 nw1 nb1 nw2 nb2 e j => Cert.EdgeStage.reference_entry xr xc ea w1 b1 w2 b2 nw1 nb1 nw2 nb2 e j

theorem frame_kernel : Cert.frame_Kernel := fun m ρ _ => Cert.Kernel.Frame.frame m ρ

theorem frame_kernelIdeal : Cert.frame_KernelIdeal := fun m ρ _ => Cert.KernelIdeal.Frame.frame m ρ

theorem frame_referenceIdeal : Cert.frame_ReferenceIdeal := fun m ρ _ => Cert.ReferenceIdeal.HostRun.frame (F := Ideal) m ρ

theorem preserves : Cert.preserves_Kernel_KernelIdeal := trivial

/-- From memories agreeing on the arguments both programs end with the class scores of the one message array. -/
theorem algebraic : Cert.algebraic_KernelIdeal_ReferenceIdeal := by
  intro m ρ m' ρ' _ hagree
  refine ⟨fun c => Cert.KernelIdeal.Msg.result m c, Cert.KernelIdeal.Msg.run m ρ kernel_law reference_law, ?_⟩
  refine (θ_run Cert.ReferenceIdeal.defs _ _).mono (fun _ h c => ⟨(h c).1.trans ?_, (h c).2⟩)
    (Cert.ReferenceIdeal.HostRun.run (F := Ideal) m' ρ')
  obtain ⟨a0, a1, a2, a3, a4, a5, a6, a7, a8, a9, a10, a11, a12, a13, a14, a15, a16, a17⟩ := hagree c
  rw [a0, a1, a2, a3, a4, a5, a6, a7, a8, a9, a10, a11, a12, a13, a14, a15, a16, a17]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
